-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 100
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128, .f32⟩
  | .hbm, ⟨32, _⟩ => ⟨S1x128, .f32⟩
  | .hbm, ⟨33, _⟩ => ⟨S50000x128, .f32⟩
  | .hbm, ⟨34, _⟩ => ⟨S1x128, .f32⟩
  | .hbm, ⟨35, _⟩ => ⟨S1x128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S1x128, .f32⟩
  | .hbm, ⟨76, _⟩ => ⟨S1x128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S1x128, .f32⟩
  | .hbm, ⟨99, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48_0 : Ref sig .tc := ⟨.hbm, 74, rfl⟩
abbrev main_v48_1 : Ref sig .tc := ⟨.hbm, 75, rfl⟩
abbrev main_v48_2 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg8_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v48_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v48_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v48_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S128, .f32⟩
  | 103 => ⟨S_, .f32⟩
  | 104 => ⟨S128, .f32⟩
  | 105 => ⟨S128, .f32⟩
  | 106 => ⟨S1x128, .f32⟩
  | 107 => ⟨S50000x128, .f32⟩
  | 108 => ⟨S50000x128, .f32⟩
  | 109 => ⟨S50000x128, .f32⟩
  | 110 => ⟨S_, .f32⟩
  | 111 => ⟨S128, .f32⟩
  | 112 => ⟨S_, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_c_6 : Ref sig .tc := ⟨.hbm, 76, rfl⟩
abbrev main_v50 : Ref sig .tc := ⟨.hbm, 77, rfl⟩
abbrev main_v51 : Ref sig .tc := ⟨.hbm, 78, rfl⟩
abbrev main_c_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_11 : Ref sig .tc := ⟨.hbm, 110, rfl⟩
abbrev main_v77 : Ref sig .tc := ⟨.hbm, 111, rfl⟩
abbrev main_cst_12 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_13 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its result named. The program is four kernel regions among stretches of
  host operations; after the last region every unscoped buffer holds the contents obtained by folding the stretches'
  operations and the regions' write-backs over the launch memory. The run below is the program's frame run with one
  more conjunct read off that final state: the result buffer ends at the fold's contents for it (`W8`), which is the
  last region's output array after all of its grid points have written back.
-/
import proofs.«180482_j54571854463790_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer holding the final
    fold's contents and every argument array as launched. -/
theorem run_value : θ_run defs (onTc (τ := τ) (main (F := F))) ⟨m, fun _ => 0, ρ⟩ (fun r => ∀ c : Dev nD,
      r.2.mem ((c.tc : Thread nD τ).loc main_v67) = W8 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v67 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.RunValue

end
-- ==== Proof.Spec.lean ====
/-
  The mathematics of one message-passing layer with batch normalisation, on the extended reals.

  A layer takes node features `X` (50000 rows of 128), the aggregated neighbour features `A` of the same shape, two
  128×128 weight matrices with their bias rows, and a gain and an offset row. Its pre-normalisation activations are
      z p q = (Σ_c max ((Σ_d (X p d + A p d) · W1 d c) + b1 c, 0) · W2 c q) + b2 q .
  Batch normalisation over the 50000 rows is written in two ways. The two-pass form centres by the column mean and
  scales by the reciprocal square root of the mean squared deviation plus ε; the one-pass form computes the column
  mean and the mean of squares, clamps `E[z²] − E[z]²` at zero, and folds gain and mean into a scale and a shift,
  `z · scale + shift`. Both end with a clamp at zero. On real (finite) activations the two forms are the same
  extended real, entry by entry (`bnOnePass_eq_bnTwoPass`): the variance identity holds over the reals, where the
  clamp is vacuous, and `z·(g·r) + (be − μ·(g·r)) = (z − μ)·r·g + be` is a ring identity, valid because every term is real.
-/
import Idealize.ShloMosaic.PureOps.Ideal
import Idealize.ShloMosaic.Lib.ValueIdx

noncomputable section

namespace Cert.Gin

open Idealize.ShloMosaic Idealize.ShloMosaic.ValueIdx

/-- A 50000×128 array of extended reals. -/
abbrev Arr := (⟨2, ![50000, 128]⟩ : Shape).Idx → EReal
/-- A 128×128 matrix. -/
abbrev Mat := (⟨2, ![128, 128]⟩ : Shape).Idx → EReal
/-- A row of 128 entries. -/
abbrev Row := (⟨1, ![128]⟩ : Shape).Idx → EReal
/-- A row kept as a 1×128 array. -/
abbrev Row1 := (⟨2, ![1, 128]⟩ : Shape).Idx → EReal
/-- The row a 1×128 array holds. -/
def rowOf (b : Row1) : Row := fun j => b (ix2 0 ⟨(j 0).val, (j 0).isLt⟩)
theorem rowOf_apply (b : Row1) (q : Fin 128) : rowOf b (ix1 q) = b (ix2 0 q) := rfl
/-- Activations indexed by node and feature. -/
abbrev Tab := Fin 50000 → Fin 128 → EReal

/-- The number of nodes, as the pattern of `50000.0` denotes it. -/
def nodes : EReal := Ideal.ofBits .f32 0x47435000#32
/-- The normalisation epsilon, as its single-precision pattern denotes it. -/
def eps : EReal := Ideal.ofBits .f32 0x3727C5AC#32

/-- The pre-normalisation activations of a layer: a two-layer perceptron of `X + A`. -/
def mlp (X A : Arr) (W1 : Mat) (b1 : Row) (W2 : Mat) (b2 : Row) : Tab := fun p q =>
  (∑ c : Fin 128, max ((∑ d : Fin 128, (X (ix2 p d) + A (ix2 p d)) * W1 (ix2 d c)) + b1 (ix1 c)) 0 * W2 (ix2 c q))
    + b2 (ix1 q)

/-- The column mean. -/
def mean (z : Tab) (q : Fin 128) : EReal := Ideal.div (∑ p : Fin 50000, z p q) nodes

/-- The mean of squares of a column. -/
def meanSq (z : Tab) (q : Fin 128) : EReal := Ideal.div (∑ p : Fin 50000, z p q * z p q) nodes

/-- The mean squared deviation of a column from its mean. -/
def var2 (z : Tab) (q : Fin 128) : EReal :=
  Ideal.div (∑ p : Fin 50000, (z p q - mean z q) * (z p q - mean z q)) nodes

/-- The one-pass scale of a column: gain times the reciprocal square root of the clamped one-pass variance plus ε. -/
def scale (z : Tab) (g : Row) (q : Fin 128) : EReal :=
  g (ix1 q) * Ideal.rsqrt (max (meanSq z q - mean z q * mean z q) 0 + eps)

/-- The one-pass shift of a column. -/
def shift (z : Tab) (g be : Row) (q : Fin 128) : EReal := be (ix1 q) - mean z q * scale z g q

/-- Batch normalisation and clamp, one-pass form: `max (z · scale + shift, 0)`. -/
def bnOnePass (z : Tab) (g be : Row) : Tab := fun p q => max (z p q * scale z g q + shift z g be q) 0

/-- Batch normalisation and clamp, two-pass form: `max ((z − μ) · rsqrt (var + ε) · g + be, 0)`. -/
def bnTwoPass (z : Tab) (g be : Row) : Tab := fun p q =>
  max ((z p q - mean z q) * Ideal.rsqrt (var2 z q + eps) * g (ix1 q) + be (ix1 q)) 0

/-- A table as an array. -/
def toArr (f : Tab) : Arr := fun i => f ⟨(i 0).val, (i 0).isLt⟩ ⟨(i 1).val, (i 1).isLt⟩

theorem toArr_apply (f : Tab) (p : Fin 50000) (q : Fin 128) : toArr f (ix2 p q) = f p q := rfl

/-- An array equals a table's array when it reads the table at every pair of coordinates. -/
theorem eq_toArr {a : Arr} {f : Tab} (h : ∀ p q, a (ix2 p q) = f p q) : a = toArr f := by
  funext i
  rw [eq_ix2 i]
  exact h _ _

end Cert.Gin

end
-- ==== Proof.Agg.lean ====
/-
  Neighbour aggregation: for every edge the source node's feature row is gathered, and the gathered rows are
  summed into their target nodes, starting from zero. Both programs compute it with the same host operations on
  the same edge list, so it is carried as ONE function `aggOf` of the feature array and the edge list; all the
  certificate needs of it is that it is that one function on both sides, and that it keeps real features real
  (each entry is zero plus a finite sum of gathered entries, each of which is an entry of the feature array).
-/
import proofs.«180482_j54571854463790_2_alg».proof.Proof.Gen.ReferenceIdeal.Read
import proofs.«180482_j54571854463790_2_alg».proof.Proof.Spec

noncomputable section

namespace Cert.Gin

open Cert.ReferenceIdeal Cert.ReferenceIdeal.Gen Cert.ReferenceIdeal.Read Idealize.ShloMosaic

/-- The aggregated neighbour features of `h` along the edges `ei`: gather the source rows, scatter-add them into
    the target rows of a zero array. -/
def aggOf (h : (⟨S50000x128, .f32⟩ : BufTy).Contents (Elt Ideal)) (ei : (⟨S2x800000, .i32⟩ : BufTy).Contents (Elt Ideal)) :
    (⟨S50000x128, .f32⟩ : BufTy).Contents (Elt Ideal) :=
  Host.scatterAdd (F := Ideal) (φ := .f32) scatter_S50000x128_S800000x1_S800000x128_1_0_0_1 (val_main_v11 (F := Ideal)) (val_main_v12 (F := Ideal) ei)
    (Host.gather gather_S50000x128_S800000x1_S800000x128_1_0_n_n_0_1_1128 h (val_main_v9 (F := Ideal) ei))

end Cert.Gin

end
-- ==== Proof.LibIdealFinite.lean ====
/-
  Real-valuedness of extended reals and its closure under the exact operations.

  An extended real is REAL when it is neither infinity. The exact operations keep real arguments real: sums, finite
  sums, differences, products, maxima, a quotient by a nonzero real, the reciprocal square root of a positive real.
  This is what lets ring identities (distributivity, cancelling) be used on intermediate values of a computation whose
  inputs are finite: distributivity fails at the infinities, so each intermediate value is first shown real.
  `IsReal.sum_of_forall` and `exists_real_fun` turn a family of real extended reals into the embedding of a real family.
-/
import Idealize.ShloMosaic.PureOps.Ideal

noncomputable section

namespace LibIdealFinite

open Idealize.ShloMosaic

/-- An extended real that is a real number. -/
def IsReal (x : EReal) : Prop := ∃ r : ℝ, x = (r : EReal)

namespace IsReal

theorem coe (r : ℝ) : IsReal (r : EReal) := ⟨r, rfl⟩

theorem zero : IsReal 0 := ⟨0, rfl⟩

theorem one : IsReal 1 := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  obtain ⟨a, rfl⟩ := hx; obtain ⟨b, rfl⟩ := hy; exact ⟨Max.max a b, (EReal.coe_strictMono.monotone.map_max (a := a) (b := b)).symm⟩

theorem sum {ι : Type*} (s : Finset ι) (f : ι → EReal) (h : ∀ i ∈ s, IsReal (f i)) : IsReal (∑ i ∈ s, f i) :=
  Finset.sum_induction f IsReal (fun _ _ => add) zero h

/-- A quotient of a real by a nonzero real is real. -/
theorem div_real {x : EReal} (hx : IsReal x) {n : ℝ} (hn : n ≠ 0) : IsReal (Ideal.div x (n : EReal)) := by
  obtain ⟨a, rfl⟩ := hx
  exact ⟨a / n, by rw [Ideal.div_coe hn, ← EReal.coe_mul, mul_one_div]⟩

/-- The reciprocal square root of a positive real is real. -/
theorem rsqrt_pos {x : EReal} (hx : IsReal x) (hpos : 0 < x) : IsReal (Ideal.rsqrt x) := by
  obtain ⟨r, rfl⟩ := hx
  have hr : 0 < r := by exact_mod_cast hpos
  exact ⟨(Real.sqrt r)⁻¹, by rw [Ideal.rsqrt_coe, if_neg (not_lt.mpr hr.le), if_neg hr.ne']⟩

/-- The reciprocal square root of a positive real is positive. -/
theorem rsqrt_pos_pos {r : ℝ} (hr : 0 < r) : (0 : EReal) < Ideal.rsqrt (r : EReal) := by
  rw [Ideal.rsqrt_coe, if_neg (not_lt.mpr hr.le), if_neg hr.ne']
  exact_mod_cast inv_pos.mpr (Real.sqrt_pos.mpr hr)

end IsReal

/-- The f32 pattern of +∞ denotes the top element. -/
theorem ofBits_inf : Ideal.ofBits .f32 0x7F800000#32 = ⊤ := by
  simp [Ideal.ofBits, Ideal.ieee]

/-- An extended real whose absolute value is below +∞ is real. -/
theorem isReal_of_abs_lt_top {x : EReal} (h : max x (-x) < ⊤) : IsReal x := by
  induction x using EReal.rec with
  | bot => simp at h
  | top => simp at h
  | coe r => exact ⟨r, rfl⟩

/-- The element fact of a finiteness precondition `|x| < +∞`, as the comparison prints it at the exact instance:
    when the comparison's bit is one, the element is real. -/
theorem isReal_of_abs_cmp {x : EReal}
    (h : Ideal.cmp .olt (max x (-x)) (Ideal.ofBits .f32 0x7F800000#32) = 1#1) : IsReal x := by
  rw [ofBits_inf] at h
  refine isReal_of_abs_lt_top ?_
  by_contra hn
  simp [Ideal.cmp, hn] at h

/-- The real embedding commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the embedding of a family of reals. -/
theorem exists_real_fun {ι : Type*} (f : ι → EReal) (h : ∀ i, IsReal (f i)) : ∃ g : ι → ℝ, ∀ i, f i = (g i : EReal) :=
  ⟨fun i => (h i).choose, fun i => (h i).choose_spec⟩

end LibIdealFinite
-- ==== Proof.LibFiniteInputs.lean ====
/-
  Reading a finiteness precondition back, on the extended reals. A precondition `jnp.all (|x| < +∞)` prints as the
  `and`-reduction, from the constant one into a scalar, of the comparison of `|x|` with the broadcast pattern of `+∞`.
  When that scalar is one, every element's comparison bit is one, and an extended real whose absolute value is below
  the top element is a real number. So the hypothesis makes every entry of `x` real, whatever the shape of `x` and
  the list of reduced axes.
-/
import Idealize.ShloMosaic.Lib.ReduceAll
import Idealize.ShloMosaic.Lib.ValueIdx
import proofs.«180482_j54571854463790_2_alg».proof.Proof.LibIdealFinite

noncomputable section

namespace LibFiniteInputs

open Idealize.ShloMosaic Idealize.ShloMosaic.ValueIdx LibIdealFinite

/-- The scalar shape has one index. -/
instance : Subsingleton (⟨0, ![]⟩ : Shape).Idx := ⟨fun _ _ => funext fun d => d.elim0⟩

/-- A scalar broadcast to any shape reads the scalar at every index. -/
theorem splat_apply {α : Type} {t : Shape} (bc : (⟨0, ![]⟩ : Shape).BroadcastsInDim t (![] : Fin 0 → Fin t.rank))
    (v : (⟨0, ![]⟩ : Shape).Idx → α) (i : t.Idx) : broadcastInDim t ![] bc v i = v ix0 :=
  congrArg v (funext fun a => a.elim0)

/-- If `jnp.all (|x| < +∞)` evaluates to one on the extended reals, every entry of `x` is real. -/
theorem all_finite_isReal {s : Shape} {axes : List (Fin s.rank)} (x : FVec Ideal s .f32)
    (bc : (⟨0, ![]⟩ : Shape).BroadcastsInDim s (![] : Fin 0 → Fin s.rank))
    (h : s.ReducesTo axes ⟨0, ![]⟩) (hu : 0 < (⟨0, ![]⟩ : Shape).numel)
    (e : Host.reduce IntOp.andi
          (cmpf .olt (Host.absf x) (broadcastInDim s ![] bc (constant (F := Ideal) ⟨0, ![]⟩ .f32 0x7F800000#32)))
          (constantI ⟨0, ![]⟩ 1 1#1) h hu ix0 = 1#1) :
    ∀ i, IsReal (x i) := by
  intro i
  have hi := Host.reduce_andi_all _ _ h hu ix0 e i
  exact isReal_of_abs_cmp hi

end LibFiniteInputs
-- ==== Proof.KernelHost.lean ====
/-
  The host stretches of the idealized kernel program between its regions, read as functions of the contents they
  start from. After an accumulating region the host turns the column sums `s1 = Σ z` and `s2 = Σ z²` (kept as 1×128
  arrays) into the normalisation's scale and shift rows:
      μ = s1 / n,   scale = g · rsqrt (max (s2 / n − μ·μ, 0) + ε),   shift = be − μ · scale ,
  each again a 1×128 array for the pointwise region that follows.
-/
import proofs.«180482_j54571854463790_2_alg».proof.Proof.Gen.KernelIdeal.Frame
import proofs.«180482_j54571854463790_2_alg».proof.Proof.Spec
import proofs.«180482_j54571854463790_2_alg».proof.Proof.LibFiniteInputs
import Idealize.ShloMosaic.Lib.ValueLayout
import Idealize.ShloMosaic.PureOps.Ideal.Laws

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx

/-! ## The statistics rows as functions of the sums -/

/-- The column means from the 1×128 array of column sums. -/
def meanVec (s : FVec Ideal S1x128 .f32) : FVec Ideal S128 .f32 :=
  Host.divf (F := Ideal) (shapeCast _ s shapeCasts_S1x128_S128)
    (broadcastInDim S128 ![] bcast_S_S128 (constant (F := Ideal) S_ .f32 0x47435000#32))

/-- The scale row: gain times the reciprocal square root of the clamped one-pass variance plus ε. -/
def scaleVec (g : FVec Ideal S128 .f32) (s1 s2 : FVec Ideal S1x128 .f32) : FVec Ideal S128 .f32 :=
  mulf g (Host.rsqrt (F := Ideal) (addf
    (maximumf (subf (meanVec s2) (mulf (meanVec s1) (meanVec s1)))
      (broadcastInDim S128 ![] bcast_S_S128 (constant (F := Ideal) S_ .f32 0x00000000#32)))
    (broadcastInDim S128 ![] bcast_S_S128 (constant (F := Ideal) S_ .f32 0x3727C5AC#32))))

/-- The shift row: offset minus mean times scale. -/
def shiftVec (g be : FVec Ideal S128 .f32) (s1 s2 : FVec Ideal S1x128 .f32) : FVec Ideal S128 .f32 :=
  subf be (mulf (meanVec s1) (scaleVec g s1 s2))

theorem meanVec_apply (s : FVec Ideal S1x128 .f32) (q : Fin 128) :
    meanVec s (ix1 q) = Ideal.div (s (ix2 0 q)) Cert.Gin.nodes := by
  unfold meanVec
  show FloatOps.hostDivf _ _ = _
  rw [Ideal.hostDivf_def, shapeCast_1a_a_apply, LibFiniteInputs.splat_apply, constant_apply]
  rfl

theorem scaleVec_apply (g : FVec Ideal S128 .f32) (s1 s2 : FVec Ideal S1x128 .f32) (q : Fin 128) :
    scaleVec g s1 s2 (ix1 q) = g (ix1 q) * Ideal.rsqrt
      (max (Ideal.div (s2 (ix2 0 q)) Cert.Gin.nodes
            - Ideal.div (s1 (ix2 0 q)) Cert.Gin.nodes * Ideal.div (s1 (ix2 0 q)) Cert.Gin.nodes) 0 + Cert.Gin.eps) := by
  unfold scaleVec
  rw [mulf_apply]
  show _ * FloatOps.hostUnary .rsqrt _ = _
  rw [Ideal.hostUnary_rsqrt_def, addf_apply, maximumf_apply, subf_apply, mulf_apply, meanVec_apply, meanVec_apply,
    LibFiniteInputs.splat_apply, LibFiniteInputs.splat_apply, constant_apply, constant_apply, Ideal.ofBits_zero_f32]
  rfl

theorem shiftVec_apply (g be : FVec Ideal S128 .f32) (s1 s2 : FVec Ideal S1x128 .f32) (q : Fin 128) :
    shiftVec g be s1 s2 (ix1 q) = be (ix1 q) - Ideal.div (s1 (ix2 0 q)) Cert.Gin.nodes * scaleVec g s1 s2 (ix1 q) := by
  unfold shiftVec
  rw [subf_apply, mulf_apply, meanVec_apply]

/-- With `s1` and `s2` the column sums of `Z` and of its squares, the pointwise region's `max (z · scale + shift, 0)` over
    the scale and shift rows is the one-pass batch normalisation of `Z`. -/
theorem onePass_of_stats (Z : Cert.Gin.Tab) (g be : FVec Ideal S128 .f32) (s1 s2 : FVec Ideal S1x128 .f32)
    (hs1 : ∀ q : Fin 128, s1 (ix2 0 q) = ∑ p : Fin 50000, Z p q)
    (hs2 : ∀ q : Fin 128, s2 (ix2 0 q) = ∑ p : Fin 50000, Z p q * Z p q) (p : Fin 50000) (q : Fin 128) :
    max (Z p q * (shapeCast S1x128 (scaleVec g s1 s2) shapeCasts_S128_S1x128) (ix2 0 q)
        + (shapeCast S1x128 (shiftVec g be s1 s2) shapeCasts_S128_S1x128) (ix2 0 q)) 0
      = Cert.Gin.bnOnePass Z g be p q := by
  rw [shapeCast_a_1a_apply, shapeCast_a_1a_apply, shiftVec_apply, scaleVec_apply, hs1, hs2]
  rfl

/-- A vector laid out as a 1×128 row holds that vector. -/
theorem rowOf_shapeCast (b : FVec Ideal S128 .f32) :
    Cert.Gin.rowOf (shapeCast S1x128 b shapeCasts_S128_S1x128) = b := by
  funext j
  obtain ⟨q, rfl⟩ : ∃ q : Fin 128, j = ix1 q := ⟨j 0, eq_ix1 j⟩
  rw [Cert.Gin.rowOf_apply, shapeCast_a_1a_apply]

variable (m : (ℓ : Loc nD τ sig) → Buf (Elt Ideal) ℓ) (ρ : Dev nD → PrngReg)

/-! ## The stretch before the last region -/

set_option maxHeartbeats 1000000 in
theorem v65_eq (c : Dev nD) :
    StableHlo.after (hostOps3 (F := Ideal)) (W6 m ρ c) (Proc.devRef .tc main_v65)
      = shapeCast _ (scaleVec (W6 m ρ c (Proc.devRef .tc main_arg12)) (W6 m ρ c (Proc.devRef .tc main_v48_1))
          (W6 m ρ c (Proc.devRef .tc main_v48_2))) shapeCasts_S128_S1x128 := by
  after_results
  rfl

set_option maxHeartbeats 1000000 in
theorem v66_eq (c : Dev nD) :
    StableHlo.after (hostOps3 (F := Ideal)) (W6 m ρ c) (Proc.devRef .tc main_v66)
      = shapeCast _ (shiftVec (W6 m ρ c (Proc.devRef .tc main_arg12)) (W6 m ρ c (Proc.devRef .tc main_arg13))
          (W6 m ρ c (Proc.devRef .tc main_v48_1)) (W6 m ρ c (Proc.devRef .tc main_v48_2))) shapeCasts_S128_S1x128 := by
  after_results
  rfl

/-! ## The stretch before the first pointwise region -/

set_option maxHeartbeats 1000000 in
theorem v33_eq (c : Dev nD) :
    StableHlo.after (hostOps1 (F := Ideal)) (W2 m ρ c) (Proc.devRef .tc main_v33)
      = shapeCast _ (scaleVec (W2 m ρ c (Proc.devRef .tc main_arg6)) (W2 m ρ c (Proc.devRef .tc main_v16_1))
          (W2 m ρ c (Proc.devRef .tc main_v16_2))) shapeCasts_S128_S1x128 := by
  after_results
  rfl

set_option maxHeartbeats 1000000 in
theorem v34_eq (c : Dev nD) :
    StableHlo.after (hostOps1 (F := Ideal)) (W2 m ρ c) (Proc.devRef .tc main_v34)
      = shapeCast _ (shiftVec (W2 m ρ c (Proc.devRef .tc main_arg6)) (W2 m ρ c (Proc.devRef .tc main_arg7))
          (W2 m ρ c (Proc.devRef .tc main_v16_1)) (W2 m ρ c (Proc.devRef .tc main_v16_2))) shapeCasts_S128_S1x128 := by
  after_results
  rfl

end Cert.KernelIdeal.HostValue

end
-- ==== Proof.KernelAgg.lean ====
/-
  The aggregation stretches of the idealized kernel program. Before each accumulating region the host gathers the
  source rows of the current features along the edge list and scatter-adds them into their target rows, and lays the
  two bias vectors out as 1×128 rows. The edge list is split once, at the start, into its source and target vectors
  (the source vector with negative entries wrapped by the number of nodes); the second layer reuses them. The chain
  is the reference's own aggregation, operation for operation, so it is the one function `aggOf`.
-/
import proofs.«180482_j54571854463790_2_alg».proof.Proof.Gen.KernelIdeal.Frame
import proofs.«180482_j54571854463790_2_alg».proof.Proof.Agg

set_option maxRecDepth 16384

noncomputable section

namespace Cert.KernelIdeal.AggValue

open Cert.KernelIdeal Cert.KernelIdeal.Gen
open Idealize.ShloMosaic Idealize.ShloMosaic.TcCoe Idealize.SL.Sem Idealize.ShloMosaic.StableHlo

/-- The source vector of the edge list. -/
def srcVec (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- The target vector of the edge list. -/
def dstVec (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- Gather the source rows of `h` and scatter-add them into the target rows of a zero array. -/
def kAgg (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The kernel program's aggregation chain is the reference's. -/
theorem kAgg_eq_aggOf (h : (⟨S50000x128, .f32⟩ : BufTy).Contents (Elt Ideal)) (ei : (⟨S2x800000, .i32⟩ : BufTy).Contents (Elt Ideal)) :
    kAgg h (srcVec ei) (dstVec ei) = Cert.Gin.aggOf h ei := rfl

variable (m : (ℓ : Loc nD τ sig) → Buf (Elt Ideal) ℓ) (ρ : Dev nD → PrngReg)

/-! ## The stretch before the first region -/

set_option maxHeartbeats 1000000 in
theorem v1_eq (c : Dev nD) :
    StableHlo.after (hostOps0 (F := Ideal)) (W0 m ρ c) (Proc.devRef .tc main_v1) = srcVec (W0 m ρ c (Proc.devRef .tc main_arg1)) := by
  after_results
  rfl

set_option maxHeartbeats 1000000 in
theorem v3_eq (c : Dev nD) :
    StableHlo.after (hostOps0 (F := Ideal)) (W0 m ρ c) (Proc.devRef .tc main_v3) = dstVec (W0 m ρ c (Proc.devRef .tc main_arg1)) := by
  after_results
  rfl

set_option maxHeartbeats 1000000 in
theorem v13_eq (c : Dev nD) :
    StableHlo.after (hostOps0 (F := Ideal)) (W0 m ρ c) (Proc.devRef .tc main_v13)
      = kAgg (W0 m ρ c (Proc.devRef .tc main_arg0)) (srcVec (W0 m ρ c (Proc.devRef .tc main_arg1)))
          (dstVec (W0 m ρ c (Proc.devRef .tc main_arg1))) := by
  after_results
  rfl

set_option maxHeartbeats 1000000 in
theorem v14_eq (c : Dev nD) :
    StableHlo.after (hostOps0 (F := Ideal)) (W0 m ρ c) (Proc.devRef .tc main_v14)
      = shapeCast _ (W0 m ρ c (Proc.devRef .tc main_arg3)) shapeCasts_S128_S1x128 := by
  after_results
  rfl

set_option maxHeartbeats 1000000 in
theorem v15_eq (c : Dev nD) :
    StableHlo.after (hostOps0 (F := Ideal)) (W0 m ρ c) (Proc.devRef .tc main_v15)
      = shapeCast _ (W0 m ρ c (Proc.devRef .tc main_arg5)) shapeCasts_S128_S1x128 := by
  after_results
  rfl

/-! ## The stretch before the second accumulating region -/

set_option maxHeartbeats 1000000 in
theorem v45_eq (c : Dev nD) :
    StableHlo.after (hostOps2 (F := Ideal)) (W4 m ρ c) (Proc.devRef .tc main_v45)
      = kAgg (W4 m ρ c (Proc.devRef .tc main_v35)) (W4 m ρ c (Proc.devRef .tc main_v1)) (W4 m ρ c (Proc.devRef .tc main_v3)) := by
  after_results
  rfl

set_option maxHeartbeats 1000000 in
theorem v46_eq (c : Dev nD) :
    StableHlo.after (hostOps2 (F := Ideal)) (W4 m ρ c) (Proc.devRef .tc main_v46)
      = shapeCast _ (W4 m ρ c (Proc.devRef .tc main_arg9)) shapeCasts_S128_S1x128 := by
  after_results
  rfl

set_option maxHeartbeats 1000000 in
theorem v47_eq (c : Dev nD) :
    StableHlo.after (hostOps2 (F := Ideal)) (W4 m ρ c) (Proc.devRef .tc main_v47)
      = shapeCast _ (W4 m ρ c (Proc.devRef .tc main_arg11)) shapeCasts_S128_S1x128 := by
  after_results
  rfl

end Cert.KernelIdeal.AggValue

end
-- ==== Proof.KernelKeep.lean ====
/-
  Buffers that keep their contents across parts of the program. The program is four pipelined regions among four
  stretches of host operations, and the buffer contents at the nine boundaries are a fold from the launch memory.
  A buffer that a stretch does not write and that is not an array of a region has the same contents on both sides:
  across a host stretch because none of its operations has the buffer as its result, across a region because the
  region changes its own arrays only. Chaining these steps back to the launch gives each argument array, at the
  boundary where it is first read, as launched; and gives the intermediate arrays that are read again later
  (the two edge-endpoint lists, each region's normalised or accumulated output) unchanged up to the place they are read.
-/
import proofs.«180482_j54571854463790_2_alg».proof.Proof.Gen.KernelIdeal.Frame

set_option maxRecDepth 16384

noncomputable section

namespace Cert.KernelIdeal.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-- A buffer that is the result of no operation of a host stretch has the same contents after the stretch: the
    stretch is a literal list, each operation's written buffers a literal singleton, and distinct references are
    distinct buffers. -/
local macro "host_keep " ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes,
     StableHlo.binaryIndexed_writes, Finset.mem_singleton]
   repeat' apply And.intro
   all_goals exact StableHlo.devRef_ne_of_ne (by decide)))

/-- Argument 0 is as launched when region 0 is entered: the first host stretch does not write it. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keep hostOps0
    _ = m ((c : Thread nD τ).loc main_arg0) := rfl

/-- Argument 2 is as launched when region 0 is entered: the first host stretch does not write it. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by host_keep hostOps0
    _ = m ((c : Thread nD τ).loc main_arg2) := rfl

/-- Argument 3 is as launched when region 0 is entered: the first host stretch does not write it. -/
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keep hostOps0
    _ = m ((c : Thread nD τ).loc main_arg3) := rfl

/-- Argument 4 is as launched when region 0 is entered: the first host stretch does not write it. -/
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by host_keep hostOps0
    _ = m ((c : Thread nD τ).loc main_arg4) := rfl

/-- Argument 5 is as launched when region 0 is entered: the first host stretch does not write it. -/
theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by host_keep hostOps0
    _ = m ((c : Thread nD τ).loc main_arg5) := rfl

/-- Argument 6 is as launched when region 0 is left: neither the first host stretch nor region 0 writes it. -/
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_keep hostOps0
    _ = m ((c : Thread nD τ).loc main_arg6) := rfl

/-- Argument 7 is as launched when region 0 is left: neither the first host stretch nor region 0 writes it. -/
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by host_keep hostOps0
    _ = m ((c : Thread nD τ).loc main_arg7) := rfl

/-- Argument 8 is as launched when region 1 is left. -/
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keep hostOps1
    _ = W1 m ρ c (Proc.devRef .tc main_arg8) := W2_of_ne m ρ c main_arg8 (by decide)
    _ = W0 m ρ c (Proc.devRef .tc main_arg8) := by host_keep hostOps0
    _ = m ((c : Thread nD τ).loc main_arg8) := rfl

/-- Argument 9 is as launched when region 1 is left. -/
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by host_keep hostOps1
    _ = W1 m ρ c (Proc.devRef .tc main_arg9) := W2_of_ne m ρ c main_arg9 (by decide)
    _ = W0 m ρ c (Proc.devRef .tc main_arg9) := by host_keep hostOps0
    _ = m ((c : Thread nD τ).loc main_arg9) := rfl

/-- Argument 10 is as launched when region 1 is left. -/
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by host_keep hostOps1
    _ = W1 m ρ c (Proc.devRef .tc main_arg10) := W2_of_ne m ρ c main_arg10 (by decide)
    _ = W0 m ρ c (Proc.devRef .tc main_arg10) := by host_keep hostOps0
    _ = m ((c : Thread nD τ).loc main_arg10) := rfl

/-- Argument 11 is as launched when region 1 is left. -/
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by host_keep hostOps1
    _ = W1 m ρ c (Proc.devRef .tc main_arg11) := W2_of_ne m ρ c main_arg11 (by decide)
    _ = W0 m ρ c (Proc.devRef .tc main_arg11) := by host_keep hostOps0
    _ = m ((c : Thread nD τ).loc main_arg11) := rfl

/-- Argument 12 is as launched when region 2 is left. -/
theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by host_keep hostOps2
    _ = W3 m ρ c (Proc.devRef .tc main_arg12) := W4_of_ne m ρ c main_arg12 (by decide)
    _ = W2 m ρ c (Proc.devRef .tc main_arg12) := by host_keep hostOps1
    _ = W1 m ρ c (Proc.devRef .tc main_arg12) := W2_of_ne m ρ c main_arg12 (by decide)
    _ = W0 m ρ c (Proc.devRef .tc main_arg12) := by host_keep hostOps0
    _ = m ((c : Thread nD τ).loc main_arg12) := rfl

/-- Argument 13 is as launched when region 2 is left. -/
theorem W6_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := by host_keep hostOps2
    _ = W3 m ρ c (Proc.devRef .tc main_arg13) := W4_of_ne m ρ c main_arg13 (by decide)
    _ = W2 m ρ c (Proc.devRef .tc main_arg13) := by host_keep hostOps1
    _ = W1 m ρ c (Proc.devRef .tc main_arg13) := W2_of_ne m ρ c main_arg13 (by decide)
    _ = W0 m ρ c (Proc.devRef .tc main_arg13) := by host_keep hostOps0
    _ = m ((c : Thread nD τ).loc main_arg13) := rfl

/-- The first edge-endpoint list, computed by the first host stretch, is unchanged when region 1 is left. -/
theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_keep hostOps1
    _ = W1 m ρ c (Proc.devRef .tc main_v1) := W2_of_ne m ρ c main_v1 (by decide)

/-- The second edge-endpoint list, computed by the first host stretch, is unchanged when region 1 is left. -/
theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_of_ne m ρ c main_v3 (by decide)

/-- Region 0's first output is not written by the second host stretch. -/
theorem W3_v16_0 (c : Dev nD) : W3 m ρ c (Proc.devRef .tc main_v16_0) = W2 m ρ c (Proc.devRef .tc main_v16_0) :=
  calc W3 m ρ c (Proc.devRef .tc main_v16_0)
    _ = W2 m ρ c (Proc.devRef .tc main_v16_0) := by host_keep hostOps1

/-- Region 1's output is not written by the third host stretch. -/
theorem W5_v35 (c : Dev nD) : W5 m ρ c (Proc.devRef .tc main_v35) = W4 m ρ c (Proc.devRef .tc main_v35) :=
  calc W5 m ρ c (Proc.devRef .tc main_v35)
    _ = W4 m ρ c (Proc.devRef .tc main_v35) := by host_keep hostOps2

/-- Region 2's first output is not written by the fourth host stretch. -/
theorem W7_v48_0 (c : Dev nD) : W7 m ρ c (Proc.devRef .tc main_v48_0) = W6 m ρ c (Proc.devRef .tc main_v48_0) :=
  calc W7 m ρ c (Proc.devRef .tc main_v48_0)
    _ = W6 m ρ c (Proc.devRef .tc main_v48_0) := by host_keep hostOps3
/-- Argument 8 is as launched when region 2 is entered. -/
theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := by host_keep hostOps2
    _ = m ((c : Thread nD τ).loc main_arg8) := W4_arg8 m ρ c

/-- Argument 10 is as launched when region 2 is entered. -/
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := by host_keep hostOps2
    _ = m ((c : Thread nD τ).loc main_arg10) := W4_arg10 m ρ c

end Cert.KernelIdeal.Keep

end
-- ==== Proof.LibColSum.lean ====
/-
  A column sum read at an index, on the extended reals: the sum over axis 0 of an [a, k] array at column `q` is the
  sum over the rows `p` of the entry `(p, q)`. Stated for the kernel's `vector.multi_reduction <add>` from the zero
  word (which yields the vector [k]) and for the host's `stablehlo.reduce` with an `add` body from a scalar initial
  value (which adds that value once). This is the axis-0 companion of a lane (axis-1) sum: the form a batch
  statistic over the rows of a block, or of the whole array, takes.
-/
import Idealize.ShloMosaic.PureOps.Ideal.Laws
import Idealize.ShloMosaic.Lib.ValueIdx

noncomputable section

namespace Cert.ColSum

open Idealize.ShloMosaic Idealize.ShloMosaic.ValueIdx

/-- The index that a column sum reads at row `p`: column `q` with the row coordinate inserted in front. -/
theorem lift_eq {a k : Nat} (h : Shape.Reduces ⟨2, ![a, k]⟩ [0] ⟨1, ![k]⟩) (q : Fin k) (p : Fin a) :
    h.lift (ix1 q) p = ix2 p q := by
  funext d
  refine Fin.ext ?_
  match d with
  | ⟨0, _⟩ => rfl
  | ⟨1, _⟩ => rfl

/-- A `vector.multi_reduction <add>` over axis 0 of an [a, k] f32 block from the zero word, at column `q`. -/
theorem colSum_apply {a k : Nat} (src : FVec Ideal ⟨2, ![a, k]⟩ .f32) (h : Shape.Reduces ⟨2, ![a, k]⟩ [0] ⟨1, ![k]⟩)
    (hφ : FKind.Formats .f32) (hacc : (0x00000000#32 : BitVec 32) = FKind.add.neutral .f32 hφ) (q : Fin k) :
    multiReduction .add [0] ⟨1, ![k]⟩ src 0x00000000#32 h hφ hacc (ix1 q) = ∑ p : Fin a, src (ix2 p q) := by
  refine (Ideal.multiReduction_add_single src _ h hφ hacc (ix1 q)).trans ?_
  exact Fintype.sum_congr _ _ fun p => congrArg src (lift_eq h q p)

/-- The host's sum over axis 0 of an [a, k] array from the initial value `init`, at column `q`. -/
theorem hostColSum_apply {a k : Nat} (x : (⟨2, ![a, k]⟩ : Shape).Idx → EReal)
    (h' : Shape.ReducesTo ⟨2, ![a, k]⟩ [0] ⟨1, ![k]⟩) (h : Shape.Reduces ⟨2, ![a, k]⟩ [0] ⟨1, ![k]⟩) (init : EReal)
    (q : Fin k) :
    Ideal.hostReduceAdd h' x init (ix1 q) = init + ∑ p : Fin a, x (ix2 p q) := by
  refine (Ideal.hostReduceAdd_single h' h x init (ix1 q)).trans ?_
  exact congrArg (init + ·) (Fintype.sum_congr _ _ fun p => congrArg x (lift_eq h q p))

/-- The printed form of the host's sum: `Host.reduceAdd` of an [a, k] array and a scalar initial value over axis 0, at
    column `q`, is the scalar plus the sum over the rows. -/
theorem hostReduceAdd_col_apply {a k : Nat} (x : FVec Ideal ⟨2, ![a, k]⟩ .f32) (init : FVec Ideal ⟨0, ![]⟩ .f32)
    (h' : Shape.ReducesTo ⟨2, ![a, k]⟩ [0] ⟨1, ![k]⟩) (hu : 0 < (⟨0, ![]⟩ : Shape).numel)
    (h : Shape.Reduces ⟨2, ![a, k]⟩ [0] ⟨1, ![k]⟩) (q : Fin k) :
    Host.reduceAdd x init h' hu (ix1 q) = init ix0 + ∑ p : Fin a, x (ix2 p q) := by
  refine (hostColSum_apply x h' h _ q).trans ?_
  exact congrArg (· + ∑ p : Fin a, x (ix2 p q)) (congrArg init (funext fun d => d.elim0))

end Cert.ColSum
-- ==== Proof.LibBatchNormIdeal.lean ====
/-
  Batch-normalisation statistics on the extended reals, for data that is real (finite).

  The exact operations on extended reals restrict to the real operations on real arguments: a finite sum of reals is
  real (`coe_sum`), a quotient by a nonzero real is the real quotient (`div_real`), the reciprocal square root of a
  positive real is real (`rsqrt_pos`). With these, the one-pass variance `max (E[x²] − E[x]², 0)` and the two-pass
  variance `E[(x − E[x])²]` of a real sample, both written with extended-real operations, are the same extended real
  (`variance_one_pass_eq_two_pass`): over the reals the two forms agree and the clamp at zero is vacuous, since the
  two-pass form is a mean of squares. `sum_blocks` re-indexes a sum over `a * b` rows as a sum over `a` blocks of `b`
  rows, the form in which a grid of row blocks accumulates a column sum.
-/
import Idealize.ShloMosaic.PureOps.Ideal

noncomputable section

namespace LibBatchNormIdeal

open Idealize.ShloMosaic Finset

/-- The real embedding commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A quotient of reals by a nonzero real, taken on the extended reals, is the real quotient. -/
theorem div_real (a : ℝ) {n : ℝ} (hn : n ≠ 0) : Ideal.div (a : EReal) (n : EReal) = ((a / n : ℝ) : EReal) := by
  rw [Ideal.div_coe hn, ← EReal.coe_mul, mul_one_div]

/-- The reciprocal square root of a positive real is the real `(√r)⁻¹`. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

/-- The centred sum of squares in terms of the raw moments. -/
theorem sum_sq_centered {ι : Type*} [Fintype ι] (x : ι → ℝ) (n : ℝ) (hn : n = (Fintype.card ι : ℝ)) (h0 : n ≠ 0) :
    ∑ i, (x i - (∑ i, x i) / n) * (x i - (∑ i, x i) / n)
      = (∑ i, x i * x i) - n * (((∑ i, x i) / n) * ((∑ i, x i) / n)) := by
  set μ := (∑ i, x i) / n with hμ
  have hS : ∑ i, x i = n * μ := by rw [hμ]; field_simp
  have h1 : ∀ i, (x i - μ) * (x i - μ) = x i * x i - 2 * μ * x i + μ * μ := fun i => by ring
  simp only [h1, sum_add_distrib, sum_sub_distrib, ← mul_sum, sum_const, card_univ, nsmul_eq_mul, ← hn, hS]
  ring

/-- One-pass and two-pass biased variance agree on exact reals; the clamp at zero is vacuous. -/
theorem variance_forms {ι : Type*} [Fintype ι] (x : ι → ℝ) (n : ℝ) (hn : n = (Fintype.card ι : ℝ)) (h0 : n ≠ 0) :
    max ((∑ i, x i * x i) / n - ((∑ i, x i) / n) * ((∑ i, x i) / n)) 0
      = (∑ i, (x i - (∑ i, x i) / n) * (x i - (∑ i, x i) / n)) / n := by
  have hpos : 0 < n := by
    rcases lt_or_gt_of_ne h0 with h | h
    · exact absurd (hn ▸ Nat.cast_nonneg (Fintype.card ι) : (0 : ℝ) ≤ n) (not_le.mpr h)
    · exact h
  have hnonneg : 0 ≤ (∑ i, (x i - (∑ i, x i) / n) * (x i - (∑ i, x i) / n)) / n :=
    div_nonneg (sum_nonneg fun i _ => mul_self_nonneg _) hpos.le
  have heq : (∑ i, x i * x i) / n - ((∑ i, x i) / n) * ((∑ i, x i) / n)
      = (∑ i, (x i - (∑ i, x i) / n) * (x i - (∑ i, x i) / n)) / n := by
    rw [sum_sq_centered x n hn h0]; field_simp
  rw [heq]; exact max_eq_left hnonneg

/-- The mean of a real sample, written with extended-real operations, is the real mean. -/
theorem mean_real {ι : Type*} [Fintype ι] (x : ι → ℝ) {n : ℝ} (h0 : n ≠ 0) :
    Ideal.div (∑ i, (x i : EReal)) (n : EReal) = (((∑ i, x i) / n : ℝ) : EReal) := by
  rw [← coe_sum, div_real _ h0]

/-- The one-pass variance of a real sample on the extended reals (mean of squares minus squared mean, clamped at
    zero) is its two-pass variance (mean of squared deviations from the mean). -/
theorem variance_one_pass_eq_two_pass {ι : Type*} [Fintype ι] (x : ι → ℝ) (n : ℝ) (hn : n = (Fintype.card ι : ℝ))
    (h0 : n ≠ 0) :
    max (Ideal.div (∑ i, (x i : EReal) * (x i : EReal)) (n : EReal)
          - Ideal.div (∑ i, (x i : EReal)) (n : EReal) * Ideal.div (∑ i, (x i : EReal)) (n : EReal)) 0
      = Ideal.div (∑ i, ((x i : EReal) - Ideal.div (∑ i, (x i : EReal)) (n : EReal))
          * ((x i : EReal) - Ideal.div (∑ i, (x i : EReal)) (n : EReal))) (n : EReal) := by
  rw [mean_real x h0]
  simp only [← EReal.coe_mul, ← EReal.coe_sub]
  rw [mean_real (fun i => x i * x i) h0, mean_real (fun i => (x i - (∑ i, x i) / n) * (x i - (∑ i, x i) / n)) h0,
    ← EReal.coe_sub, ← EReal.coe_zero, ← EReal.coe_strictMono.monotone.map_max]
  exact congrArg _ (variance_forms x n hn h0)

/-- A sum over `a * b` consecutive rows is the sum over `a` blocks of the sums over the `b` rows of each block. -/
theorem sum_blocks {M : Type*} [AddCommMonoid M] (a b : Nat) (f : Fin (a * b) → M) :
    ∑ i, f i = ∑ t : Fin a, ∑ r : Fin b, f ⟨t.val * b + r.val, by
      have := t.isLt; have := r.isLt
      calc t.val * b + r.val < t.val * b + b := by omega
        _ = (t.val + 1) * b := by ring
        _ ≤ a * b := Nat.mul_le_mul_right b (by omega)⟩ := by
  rw [← Fintype.sum_prod_type', ← Equiv.sum_comp finProdFinEquiv]
  refine Fintype.sum_congr _ _ fun p => congrArg f (Fin.ext ?_)
  simp [finProdFinEquiv, Nat.mul_comm, Nat.add_comm]

end LibBatchNormIdeal
-- ==== Proof.LibF32Consts.lean ====
/-
  The extended reals that a few f32 bit patterns denote: `1.0` is `1`; `50000.0` is the real `50000`; the pattern of
  the single-precision `1e-5` (the usual normalisation epsilon) is a POSITIVE real — all a normalisation needs of it,
  since it only keeps `variance + ε` away from zero — and the pattern of `+∞` is the top element.
-/
import Idealize.ShloMosaic.PureOps.Ideal

noncomputable section

namespace LibF32Consts

open Idealize.ShloMosaic

/-- `1.0` denotes `1`. -/
theorem ofBits_one : Ideal.ofBits .f32 0x3F800000#32 = 1 := by
  simp [Ideal.ofBits, Ideal.ieee, -EReal.coe_mul]; norm_num

/-- `50000.0` denotes the real `50000`. -/
theorem ofBits_50000 : Ideal.ofBits .f32 0x47435000#32 = ((50000 : ℝ) : EReal) := by
  simp [Ideal.ofBits, Ideal.ieee, -EReal.coe_mul]; norm_num

/-- The single-precision `1e-5` denotes a positive real. -/
theorem ofBits_eps_pos : ∃ r : ℝ, 0 < r ∧ Ideal.ofBits .f32 0x3727C5AC#32 = (r : EReal) := by
  simp [Ideal.ofBits, Ideal.ieee, -EReal.coe_mul]

/-- The pattern of `+∞` denotes the top element. -/
theorem ofBits_inf : Ideal.ofBits .f32 0x7F800000#32 = ⊤ := by
  simp [Ideal.ofBits, Ideal.ieee]

end LibF32Consts
-- ==== Proof.LibGridAccumulate.lean ====
/-
  An accumulator carried across the points of a grid axis, in closed form. A kernel that resets an accumulator at
  the first point and adds one block's contribution `f t` at every point `t` leaves, after point `t`, the sum of the
  contributions of the points `0 … t`; after the last point, the sum over the whole axis. Stated over any additive
  commutative monoid (for the extended reals this needs no finiteness: only associativity and commutativity of `+`),
  with the reset written either as `f 0` or as `0 + f 0`.
-/
import Mathlib.Algebra.BigOperators.Fin
import Mathlib.Algebra.BigOperators.Intervals

namespace LibGridAccumulate

open Finset

/-- After point `t` the accumulator holds the contributions of the points `0 … t`. -/
theorem acc_eq_sum_range {M : Type*} [AddCommMonoid M] (T : ℕ) (f a : ℕ → M) (h0 : a 0 = f 0)
    (hs : ∀ t, t + 1 < T → a (t + 1) = a t + f (t + 1)) : ∀ t, t < T → a t = ∑ k ∈ range (t + 1), f k := by
  intro t
  induction t with
  | zero => intro _; rw [h0]; simp
  | succ t ih =>
    intro ht
    rw [hs t ht, ih (by omega), sum_range_succ (fun k => f k) (t + 1)]

/-- The same with the reset written as a store of zero followed by the first addition. -/
theorem acc_eq_sum_range_of_zero {M : Type*} [AddCommMonoid M] (T : ℕ) (f a : ℕ → M) (h0 : a 0 = 0 + f 0)
    (hs : ∀ t, t + 1 < T → a (t + 1) = a t + f (t + 1)) : ∀ t, t < T → a t = ∑ k ∈ range (t + 1), f k :=
  acc_eq_sum_range T f a (by rw [h0, zero_add]) hs

/-- After the last point the accumulator holds the sum over the whole axis, indexed by the grid's points. -/
theorem acc_last_eq_sum {M : Type*} [AddCommMonoid M] (T : ℕ) (f a : ℕ → M) (h0 : a 0 = f 0)
    (hs : ∀ t, t < T → a (t + 1) = a t + f (t + 1)) : a T = ∑ t : Fin (T + 1), f t.val := by
  have h := acc_eq_sum_range (T + 1) f a h0 (fun t ht => hs t (by omega)) T (by omega)
  rw [h, ← Fin.sum_univ_eq_sum_range (fun k => f k) (T + 1)]

end LibGridAccumulate
-- ==== Proof.LayerMath.lean ====
/-
  Real-valuedness and the two forms of batch normalisation for one message-passing layer.

  With real (finite) inputs every intermediate value of the layer is real: the perceptron activations are finite sums
  of products and maxima of reals; a column mean is a real sum divided by the real 50000; the mean squared deviation is
  a nonnegative real, so adding the positive ε gives a positive real whose reciprocal square root is real. On reals
  the clamped one-pass variance equals the two-pass variance, and `z·(g·r) + (β − μ·(g·r)) = (z − μ)·r·g + β` is a
  ring identity; hence the one-pass and two-pass normalisations are the same table. Last, a column sum accumulated
  over 10 blocks of 5000 rows is the sum over all 50000 rows.
-/
import proofs.«180482_j54571854463790_2_alg».proof.Proof.Spec
import proofs.«180482_j54571854463790_2_alg».proof.Proof.LibIdealFinite
import proofs.«180482_j54571854463790_2_alg».proof.Proof.LibBatchNormIdeal
import proofs.«180482_j54571854463790_2_alg».proof.Proof.LibF32Consts
import proofs.«180482_j54571854463790_2_alg».proof.Proof.LibGridAccumulate

noncomputable section

namespace Cert.Gin

open Idealize.ShloMosaic Idealize.ShloMosaic.ValueIdx LibIdealFinite

/-- The number of nodes is the real 50000. -/
theorem nodes_eq : nodes = ((50000 : ℝ) : EReal) := LibF32Consts.ofBits_50000

/-- The normalisation epsilon is a positive real. -/
theorem eps_pos : ∃ r : ℝ, 0 < r ∧ eps = (r : EReal) := LibF32Consts.ofBits_eps_pos

/-- With real inputs, weights and biases the perceptron activations are real. -/
theorem mlp_isReal (X A : Arr) (W1 : Mat) (b1 : Row) (W2 : Mat) (b2 : Row) (hX : ∀ i, IsReal (X i))
    (hA : ∀ i, IsReal (A i)) (hW1 : ∀ i, IsReal (W1 i)) (hb1 : ∀ i, IsReal (b1 i)) (hW2 : ∀ i, IsReal (W2 i))
    (hb2 : ∀ i, IsReal (b2 i)) : ∀ p q, IsReal (mlp X A W1 b1 W2 b2 p q) := by
  intro p q
  simp only [mlp]
  exact IsReal.add
    (IsReal.sum _ _ fun c _ =>
      IsReal.mul
        (IsReal.max
          (IsReal.add (IsReal.sum _ _ fun d _ => IsReal.mul (IsReal.add (hX _) (hA _)) (hW1 _)) (hb1 _))
          IsReal.zero)
        (hW2 _))
    (hb2 _)

/-- The column mean of a real table is real. -/
theorem mean_isReal (z : Tab) (hz : ∀ p q, IsReal (z p q)) (q : Fin 128) : IsReal (mean z q) := by
  unfold mean
  rw [nodes_eq]
  exact IsReal.div_real (IsReal.sum _ _ fun p _ => hz p q) (by norm_num)

/-- The mean squared deviation of a column of a real table is real. -/
theorem var2_isReal (z : Tab) (hz : ∀ p q, IsReal (z p q)) (q : Fin 128) : IsReal (var2 z q) := by
  have hd : ∀ p, IsReal (z p q - mean z q) := fun p => IsReal.sub (hz p q) (mean_isReal z hz q)
  unfold var2
  rw [nodes_eq]
  exact IsReal.div_real (IsReal.sum _ _ fun p _ => IsReal.mul (hd p) (hd p)) (by norm_num)

/-- On a real table the clamped one-pass variance of a column is its mean squared deviation. -/
theorem clamp_var_eq_var2 (z : Tab) (hz : ∀ p q, IsReal (z p q)) (q : Fin 128) :
    max (meanSq z q - mean z q * mean z q) 0 = var2 z q := by
  obtain ⟨x, hx⟩ := exists_real_fun (fun p => z p q) (fun p => hz p q)
  have hx' : ∀ p, z p q = (x p : EReal) := hx
  unfold meanSq var2 mean
  rw [nodes_eq]
  simp only [hx']
  exact LibBatchNormIdeal.variance_one_pass_eq_two_pass x 50000 (by simp) (by norm_num)

/-- The mean squared deviation is nonnegative and ε is positive, so the reciprocal square root of their sum is real. -/
theorem rsqrt_var2_isReal (z : Tab) (hz : ∀ p q, IsReal (z p q)) (q : Fin 128) :
    IsReal (Ideal.rsqrt (var2 z q + eps)) := by
  obtain ⟨e, he, hee⟩ := eps_pos
  obtain ⟨v, hv⟩ := var2_isReal z hz q
  have h0 : (0 : EReal) ≤ var2 z q := by
    rw [← clamp_var_eq_var2 z hz q]
    exact le_max_right _ _
  have hv0 : 0 ≤ v := by
    rw [hv] at h0
    exact_mod_cast h0
  refine ⟨(Real.sqrt (v + e))⁻¹, ?_⟩
  rw [hv, hee, ← EReal.coe_add]
  exact LibBatchNormIdeal.rsqrt_pos (by linarith)

/-- On a real table with real gain and offset, one-pass and two-pass batch normalisation agree entry by entry. -/
theorem bnOnePass_eq_bnTwoPass (z : Tab) (g be : Row) (hz : ∀ p q, IsReal (z p q)) (hg : ∀ i, IsReal (g i))
    (hbe : ∀ i, IsReal (be i)) : bnOnePass z g be = bnTwoPass z g be := by
  funext p q
  obtain ⟨r, hr⟩ := rsqrt_var2_isReal z hz q
  obtain ⟨μ, hμ⟩ := mean_isReal z hz q
  obtain ⟨a, ha⟩ := hz p q
  obtain ⟨γ, hγ⟩ := hg (ix1 q)
  obtain ⟨β, hβ⟩ := hbe (ix1 q)
  simp only [bnOnePass, bnTwoPass, scale, shift]
  rw [clamp_var_eq_var2 z hz q, hr, hμ, ha, hγ, hβ]
  simp only [← EReal.coe_mul, ← EReal.coe_add, ← EReal.coe_sub]
  have h : a * (γ * r) + (β - μ * (γ * r)) = (a - μ) * r * γ + β := by ring
  rw [h]

/-- On a real table with real gain and offset, the two-pass normalisation is real. -/
theorem bnTwoPass_isReal (z : Tab) (g be : Row) (hz : ∀ p q, IsReal (z p q)) (hg : ∀ i, IsReal (g i))
    (hbe : ∀ i, IsReal (be i)) : ∀ p q, IsReal (bnTwoPass z g be p q) := by
  intro p q
  simp only [bnTwoPass]
  exact IsReal.max
    (IsReal.add
      (IsReal.mul (IsReal.mul (IsReal.sub (hz p q) (mean_isReal z hz q)) (rsqrt_var2_isReal z hz q)) (hg _))
      (hbe _))
    IsReal.zero

/-- An accumulator reset to zero at the first of 10 blocks of 5000 rows, and added to block by block, holds after the
    last block the sum over all 50000 rows. -/
theorem acc_rows (f : Fin 50000 → EReal) (a : ℕ → EReal)
    (h0 : a 0 = 0 + ∑ r : Fin 5000, f ⟨0 * 5000 + r.val, by omega⟩)
    (hs : ∀ t, (ht : t + 1 < 10) → a (t + 1) = a t + ∑ r : Fin 5000, f ⟨(t + 1) * 5000 + r.val, by omega⟩) :
    a 9 = ∑ p : Fin 50000, f p := by
  let F : ℕ → EReal := fun t => if h : t < 10 then ∑ r : Fin 5000, f ⟨t * 5000 + r.val, by omega⟩ else 0
  have hF : ∀ t (h : t < 10), F t = ∑ r : Fin 5000, f ⟨t * 5000 + r.val, by omega⟩ := fun t h => dif_pos h
  have h9 := LibGridAccumulate.acc_eq_sum_range_of_zero 10 F a (by rw [h0, hF 0 (by omega)])
    (fun t ht => by rw [hs t ht, hF (t + 1) ht]) 9 (by omega)
  rw [h9, ← Fin.sum_univ_eq_sum_range F 10]
  refine Eq.trans ?_ (LibBatchNormIdeal.sum_blocks 10 5000 f).symm
  exact Fintype.sum_congr _ _ fun t => hF t.val t.isLt

end Cert.Gin

end
-- ==== Proof.Region0Value.lean ====
/-
  The first accumulating region of the kernel program, read as mathematics.

  The region walks the 50000 rows in 10 blocks of 5000. At block `t` it forms the pre-normalisation activations of
  the block's rows, `z = max ((X + A)·W1 + b1, 0)·W2 + b2`, stores them as block `t` of the activations' array, and adds
  their column sums, and the column sums of their squares, into two [1,128] accumulators, which it clears at the first
  block and writes back once, after the last. Hence after the region the activations' array holds the layer's
  activations row by row; the first accumulator holds, in column `q`, the sum over all 50000 rows of `z p q`; the second
  the sum of `z p q · z p q`. Only associativity and commutativity of addition on the extended reals are used: a sum
  over 50000 rows is regrouped as 10 sums over 5000 rows, so nothing here needs the inputs to be finite.

  The steps: what each of the body's two cases (first block, later block) leaves in the three output buffers, as the
  body's arithmetic applied to the blocks it loaded; that arithmetic read at a row and a column (a product into a zero
  accumulator is the sum over the shared axis, a reduction over axis 0 is the sum down a column); a block's entry
  `(r, d)` is the array's entry `(5000 t + r, d)`; induction over the blocks for the accumulators; and the write-backs,
  block `t` of the activations at every block and the two accumulators after the last.
-/
import proofs.«180482_j54571854463790_2_alg».proof.Proof.Gen.KernelIdeal.Frame
import proofs.«180482_j54571854463790_2_alg».proof.Proof.Spec
import proofs.«180482_j54571854463790_2_alg».proof.Proof.LibColSum
import proofs.«180482_j54571854463790_2_alg».proof.Proof.LayerMath
import Idealize.ShloMosaic.Lib.Pipeline.Value
import Idealize.ShloMosaic.Lib.ValueLayout
import Idealize.ShloMosaic.Lib.Tactic
import Idealize.ShloMosaic.PureOps.Ideal.Laws

noncomputable section

namespace Cert.KernelIdeal.Region0Value

open Idealize.ShloMosaic Idealize.ShloMosaic.TcCoe Idealize.SL.Sem
open Idealize.ShloMosaic.Pipeline (Dat)
open Cert.KernelIdeal Cert.KernelIdeal.Gen
open Cert.Gin Idealize.ShloMosaic.ValueIdx

/-! ## What each case of the body leaves in the three output buffers -/

section Pieces

variable {F : FTy → Type} [FloatOps F]

theorem hz : (![0, 0] : Fin 2 → Nat) = fun _ => 0 := funext fun a => by fin_cases a <;> rfl

/-- At a later point the activations' buffer holds the perceptron of the point's input blocks. -/
theorem outB6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  rw [View.canon_unit_zero hz]
  simp only [View.readAt_eq_ld, h1.read_unread, h2.read_unread, h3.read_unread, h4.read_unread, h5.read_unread,
    h6.read_unread, View.ld_unit_zero (S := S5000x128) hz, View.ld_unit_zero (S := S128x128) hz,
    View.ld_unit_zero (S := S1x128) hz]

/-- At a later point the column-sum buffer holds what it held plus the column sums of the point's activations. -/
theorem outB7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  rw [View.canon_unit_zero hz]
  simp only [View.readAt_eq_ld, h1.read_unread, h2.read_unread, h3.read_unread, h4.read_unread, h5.read_unread,
    h6.read_unread, h8.read_unread, View.ld_unit_zero (S := S5000x128) hz, View.ld_unit_zero (S := S128x128) hz,
    View.ld_unit_zero (S := S1x128) hz]

/-- At a later point the sum-of-squares buffer holds what it held plus the column sums of the squared activations. -/
theorem outB8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) (k0_pay6 xo8) := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread,
    h6.read_unread, h9.read_unread, View.ld_unit_zero (S := S5000x128) hz, View.ld_unit_zero (S := S128x128) hz,
    View.ld_unit_zero (S := S1x128) hz]

/-- At the first point the activations' buffer holds the perceptron of the point's input blocks. -/
theorem outA6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread,
    h6.read_unread, View.ld_unit_zero (S := S5000x128) hz, View.ld_unit_zero (S := S128x128) hz,
    View.ld_unit_zero (S := S1x128) hz]

/-- At the first point the column-sum buffer is reset to the zero row and then receives the column sums. -/
theorem outA7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_7 c i a1 h1 a2 h2 a3 h3 a4 h4 a5 h5 a6 h6 a7 h7 a8 h8 a9 h9 hc x0 x1 x2 x3 x4 x5 = k0_pay5 x0 x1 x2 x3 x4 x5 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, View.ld_unit_zero (S := S5000x128) hz, View.ld_unit_zero (S := S128x128) hz,
    View.ld_unit_zero (S := S1x128) hz]

/-- At the first point the sum-of-squares buffer is reset to the zero row and then receives the sums of squares. -/
theorem outA8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) (k0_pay6 k0_pay3) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, View.ld_unit_zero (S := S5000x128) hz, View.ld_unit_zero (S := S128x128) hz,
    View.ld_unit_zero (S := S1x128) hz]

end Pieces

/-! ## The body's arithmetic read at an index, on the extended reals -/

section Payloads

/-- The row coordinate of the left operand's index in the contraction is the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The column coordinate of the right operand's index in the contraction is the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] by [128,128] product into a zero accumulator, at row `p` and column `q`: the sum over the shared axis. -/
theorem matmul_at (l : FVec Ideal S5000x128 .f32) (r : FVec Ideal S128x128 .f32) (p : Fin 5000) (q : Fin 128) :
    matmul dot_S5000x128_S128x128_S5000x128_1_0_0_1_n_n (some .fp32) l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n (some .fp32) l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The activations' payload at row `p` and column `q` of a block: the two-layer perceptron of the block's rows. -/
theorem pay4_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay4 (F := Ideal) x0 x1 x2 x3 x4 x5 (ix2 p q)
      = (∑ c : Fin 128, max ((∑ d : Fin 128, (x0 (ix2 p d) + x1 (ix2 p d)) * x2 (ix2 d c)) + x3 (ix2 0 c)) 0
            * x4 (ix2 c q)) + x5 (ix2 0 q) := by
  unfold k0_pay4
  simp only [shapeCast_self]
  refine (addf_apply _ _ _).trans ?_
  refine congrArg₂ (· + ·) ((matmul_at _ x4 p q).trans ?_) (broadcastTo_1b_ab_apply x5 _ p q)
  refine Finset.sum_congr rfl fun k _ => congrArg (· * x4 (ix2 k q)) ?_
  refine (maximumf_apply _ _ _).trans ?_
  refine congrArg₂ max ((addf_apply _ _ _).trans ?_) Ideal.ofBits_zero_f32
  exact congrArg₂ (· + ·) (matmul_at _ x2 p k) (broadcastTo_1b_ab_apply x3 _ p k)

/-- The column-sum payload at column `q`: what the buffer held plus the sum of the block's activations down the column. -/
theorem pay5_apply (x0 x1 : Vec Ideal S5000x128 .f32) (x2 : Vec Ideal S128x128 .f32) (x3 : Vec Ideal S1x128 .f32)
    (x4 : Vec Ideal S128x128 .f32) (x5 : Vec Ideal S1x128 .f32) (acc : Vec Ideal S1x128 .f32) (q : Fin 128) :
    k0_pay5 (F := Ideal) x0 x1 x2 x3 x4 x5 acc (ix2 0 q)
      = acc (ix2 0 q) + ∑ p : Fin 5000, k0_pay4 (F := Ideal) x0 x1 x2 x3 x4 x5 (ix2 p q) := by
  unfold k0_pay5
  simp only [shapeCast_self]
  refine (addf_apply _ _ _).trans ?_
  refine congrArg (acc (ix2 0 q) + ·) ((shapeCast_a_1a_apply _ _ 0 q).trans ?_)
  exact Cert.ColSum.colSum_apply (k0_pay4 (F := Ideal) x0 x1 x2 x3 x4 x5) _ _ _ q

/-- The sum-of-squares payload at column `q`: what the buffer held plus the sum of the squared activations down the column. -/
theorem pay1_apply (z : FVec Ideal S5000x128 .f32) (acc : FVec Ideal S1x128 .f32) (q : Fin 128) :
    k0_pay1 (F := Ideal) z acc (ix2 0 q) = acc (ix2 0 q) + ∑ p : Fin 5000, z (ix2 p q) * z (ix2 p q) := by
  unfold k0_pay1
  refine (addf_apply _ _ _).trans ?_
  refine congrArg (acc (ix2 0 q) + ·) ((shapeCast_a_1a_apply _ _ 0 q).trans ?_)
  exact Cert.ColSum.colSum_apply (mulf z z) _ _ _ q

/-- The reset stores the zero row. -/
theorem pay2_apply (j : S1x128.Idx) : k0_pay2 (F := Ideal) j = 0 := Ideal.ofBits_zero_f32
theorem pay3_apply (j : S1x128.Idx) : k0_pay3 (F := Ideal) j = 0 := Ideal.ofBits_zero_f32
/-- The carried accumulator is read as it is. -/
theorem pay6_eq (v : Vec Ideal S1x128 .f32) : k0_pay6 (F := Ideal) v = v := shapeCast_self v _

end Payloads

/-! ## The windows' blocks read at an index -/

section Blocks

variable (V : (c : Dev nD) → (b : Ref sig .tc) → Buf (Elt Ideal) ((c : Thread nD τ).loc b))

/-- Where each window's block sits at a point: the two row-blocked inputs and the activations' output move with the
    point along the rows; the weights, the bias rows and the two accumulators stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem row_lt (t : Fin cfg0.N) (r : Fin 5000) : t.val * 5000 + r.val < 50000 := by
  have hN : t.val < 10 := lt_of_lt_of_eq t.isLt (show cfg0.N = 10 from N_0)
  have := r.isLt
  omega

/-- Row `r` of the point's block of the node features is row `5000 t + r` of the array. -/
theorem blk0_apply (c : Dev nD) (t : Fin cfg0.N) (r : Fin 5000) (d : Fin 128) :
    (iblk0 V c 0 t : S5000x128.Idx → EReal) (ix2 r d)
      = (V c main_arg0 : S50000x128.Idx → EReal) (ix2 ⟨t.val * 5000 + r.val, row_lt t r⟩ d) := by
  obtain ⟨⟨e0, e1⟩, -⟩ := idx_facts t
  unfold iblk0
  rw [View.read_apply]
  show V c main_arg0 (((cfg0.win 0).blk t).view.emb (ix2 r d)) = V c main_arg0 _
  refine congrArg _ (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 128 + 1 * d.val = d.val; rw [e1]; omega

/-- Row `r` of the point's block of the aggregated features is row `5000 t + r` of the array. -/
theorem blk1_apply (c : Dev nD) (t : Fin cfg0.N) (r : Fin 5000) (d : Fin 128) :
    (iblk0 V c 1 t : S5000x128.Idx → EReal) (ix2 r d)
      = (V c main_v13 : S50000x128.Idx → EReal) (ix2 ⟨t.val * 5000 + r.val, row_lt t r⟩ d) := by
  obtain ⟨-, ⟨e0, e1⟩, -⟩ := idx_facts t
  unfold iblk0
  rw [View.read_apply]
  show V c main_v13 (((cfg0.win 1).blk t).view.emb (ix2 r d)) = V c main_v13 _
  refine congrArg _ (funext fun a => Fin.ext ?_)
  match a with
  | ⟨0, _⟩ => show win0_1.index t (0 : Fin 2) * 5000 + 1 * r.val = t.val * 5000 + r.val; rw [e0]; omega
  | ⟨1, _⟩ => show win0_1.index t (1 : Fin 2) * 128 + 1 * d.val = d.val; rw [e1]; omega

/-- The first weight matrix is staged whole. -/
theorem blk2_apply (c : Dev nD) (t : Fin cfg0.N) (a b : Fin 128) :
    (iblk0 V c 2 t : S128x128.Idx → EReal) (ix2 a b) = (V c main_arg2 : S128x128.Idx → EReal) (ix2 a b) := by
  obtain ⟨-, -, ⟨e0, e1⟩, -⟩ := idx_facts t
  unfold iblk0
  rw [View.read_apply]
  show V c main_arg2 (((cfg0.win 2).blk t).view.emb (ix2 a b)) = V c main_arg2 _
  refine congrArg _ (funext fun x => Fin.ext ?_)
  match x with
  | ⟨0, _⟩ => show win0_2.index t (0 : Fin 2) * 128 + 1 * a.val = a.val; rw [e0]; omega
  | ⟨1, _⟩ => show win0_2.index t (1 : Fin 2) * 128 + 1 * b.val = b.val; rw [e1]; omega

/-- The first bias row is staged whole. -/
theorem blk3_apply (c : Dev nD) (t : Fin cfg0.N) (b : Fin 128) :
    (iblk0 V c 3 t : S1x128.Idx → EReal) (ix2 0 b) = (V c main_v14 : S1x128.Idx → EReal) (ix2 0 b) := by
  obtain ⟨-, -, -, ⟨e0, e1⟩, -⟩ := idx_facts t
  unfold iblk0
  rw [View.read_apply]
  show V c main_v14 (((cfg0.win 3).blk t).view.emb (ix2 0 b)) = V c main_v14 _
  refine congrArg _ (funext fun x => Fin.ext ?_)
  match x with
  | ⟨0, _⟩ => show win0_3.index t (0 : Fin 2) * 1 + 1 * 0 = 0; rw [e0]
  | ⟨1, _⟩ => show win0_3.index t (1 : Fin 2) * 128 + 1 * b.val = b.val; rw [e1]; omega

/-- The second weight matrix is staged whole. -/
theorem blk4_apply (c : Dev nD) (t : Fin cfg0.N) (a b : Fin 128) :
    (iblk0 V c 4 t : S128x128.Idx → EReal) (ix2 a b) = (V c main_arg4 : S128x128.Idx → EReal) (ix2 a b) := by
  obtain ⟨-, -, -, -, ⟨e0, e1⟩, -⟩ := idx_facts t
  unfold iblk0
  rw [View.read_apply]
  show V c main_arg4 (((cfg0.win 4).blk t).view.emb (ix2 a b)) = V c main_arg4 _
  refine congrArg _ (funext fun x => Fin.ext ?_)
  match x with
  | ⟨0, _⟩ => show win0_4.index t (0 : Fin 2) * 128 + 1 * a.val = a.val; rw [e0]; omega
  | ⟨1, _⟩ => show win0_4.index t (1 : Fin 2) * 128 + 1 * b.val = b.val; rw [e1]; omega

/-- The second bias row is staged whole. -/
theorem blk5_apply (c : Dev nD) (t : Fin cfg0.N) (b : Fin 128) :
    (iblk0 V c 5 t : S1x128.Idx → EReal) (ix2 0 b) = (V c main_v15 : S1x128.Idx → EReal) (ix2 0 b) := by
  obtain ⟨-, -, -, -, -, ⟨e0, e1⟩, -⟩ := idx_facts t
  unfold iblk0
  rw [View.read_apply]
  show V c main_v15 (((cfg0.win 5).blk t).view.emb (ix2 0 b)) = V c main_v15 _
  refine congrArg _ (funext fun x => Fin.ext ?_)
  match x with
  | ⟨0, _⟩ => show win0_5.index t (0 : Fin 2) * 1 + 1 * 0 = 0; rw [e0]
  | ⟨1, _⟩ => show win0_5.index t (1 : Fin 2) * 128 + 1 * b.val = b.val; rw [e1]; omega

/-- The activations the body computes from the point's blocks are the layer's activations of the block's rows. -/
theorem block_z (c : Dev nD) (t : Fin cfg0.N) (r : Fin 5000) (q : Fin 128) :
    k0_pay4 (F := Ideal) (iblk0 V c 0 t) (iblk0 V c 1 t) (iblk0 V c 2 t) (iblk0 V c 3 t) (iblk0 V c 4 t) (iblk0 V c 5 t) (ix2 r q)
      = mlp (V c main_arg0) (V c main_v13) (V c main_arg2) (rowOf (V c main_v14)) (V c main_arg4) (rowOf (V c main_v15)) ⟨t.val * 5000 + r.val, row_lt t r⟩ q := by
  refine (pay4_apply (iblk0 V c 0 t) (iblk0 V c 1 t) (iblk0 V c 2 t) (iblk0 V c 3 t) (iblk0 V c 4 t) (iblk0 V c 5 t) r q).trans ?_
  unfold mlp
  refine congrArg₂ (· + ·) (Finset.sum_congr rfl fun k _ => congrArg₂ (· * ·) (congrArg (max · 0)
    (congrArg₂ (· + ·) (Finset.sum_congr rfl fun d _ => congrArg₂ (· * ·)
      (congrArg₂ (· + ·) (blk0_apply V c t r d) (blk1_apply V c t r d)) (blk2_apply V c t d k)) (blk3_apply V c t k)))
    (blk4_apply V c t k q)) (blk5_apply V c t q)

end Blocks

/-! ## The three outputs after each point, and after the region -/

section Accumulation

variable (V : (c : Dev nD) → (b : Ref sig .tc) → Buf (Elt Ideal) ((c : Thread nD τ).loc b))

/-- After any point the activations' buffer holds the perceptron of the point's blocks. -/
theorem outs6 (c : Dev nD) (t : Fin cfg0.N) :
    (outsAt0 V c t.val t.isLt).1 = k0_pay4 (F := Ideal) (iblk0 V c 0 t) (iblk0 V c 1 t) (iblk0 V c 2 t) (iblk0 V c 3 t) (iblk0 V c 4 t) (iblk0 V c 5 t) := by
  by_cases h0 : t.val % 10 = 0
  · rw [outsAt0_A V c t h0]
    dsimp only
    exact outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- At the first point the column-sum accumulator is zero plus the column sums of the first 5000 rows. -/
theorem outs7_first (c : Dev nD) (t : Fin cfg0.N) (h0 : t.val % 10 = 0) (q : Fin 128) :
    ((outsAt0 V c t.val t.isLt).2.1 : S1x128.Idx → EReal) (ix2 0 q)
      = 0 + ∑ r : Fin 5000, mlp (V c main_arg0) (V c main_v13) (V c main_arg2) (rowOf (V c main_v14)) (V c main_arg4) (rowOf (V c main_v15)) ⟨t.val * 5000 + r.val, row_lt t r⟩ q := by
  rw [outsAt0_A V c t h0]
  dsimp only
  refine (congrFun (outA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)) (ix2 0 q)).trans ?_
  refine (pay5_apply (iblk0 V c 0 t) (iblk0 V c 1 t) (iblk0 V c 2 t) (iblk0 V c 3 t) (iblk0 V c 4 t) (iblk0 V c 5 t) (k0_pay2 (F := Ideal)) q).trans ?_
  exact congrArg₂ (· + ·) (pay2_apply _) (Finset.sum_congr rfl fun r _ => block_z V c t r q)

/-- At a later point it is what the point before left plus the column sums of the point's 5000 rows. -/
theorem outs7_later (c : Dev nD) (t : Fin cfg0.N) (h0 : ¬t.val % 10 = 0) (q : Fin 128) :
    ((outsAt0 V c t.val t.isLt).2.1 : S1x128.Idx → EReal) (ix2 0 q)
      = ((outsAt0 V c (t.val - 1) (Nat.lt_of_le_of_lt (Nat.sub_le _ _) t.isLt)).2.1 : S1x128.Idx → EReal) (ix2 0 q)
        + ∑ r : Fin 5000, mlp (V c main_arg0) (V c main_v13) (V c main_arg2) (rowOf (V c main_v14)) (V c main_arg4) (rowOf (V c main_v15)) ⟨t.val * 5000 + r.val, row_lt t r⟩ q := by
  rw [outsAt0_B V c t h0]
  dsimp only
  refine (congrFun (outB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) (ix2 0 q)).trans ?_
  refine (pay5_apply (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 q).trans ?_
  exact congrArg (_ + ·) (Finset.sum_congr rfl fun r _ => block_z V c t r q)

/-- At the first point the sum-of-squares accumulator is zero plus the sums of squares of the first 5000 rows. -/
theorem outs8_first (c : Dev nD) (t : Fin cfg0.N) (h0 : t.val % 10 = 0) (q : Fin 128) :
    ((outsAt0 V c t.val t.isLt).2.2 : S1x128.Idx → EReal) (ix2 0 q)
      = 0 + ∑ r : Fin 5000, mlp (V c main_arg0) (V c main_v13) (V c main_arg2) (rowOf (V c main_v14)) (V c main_arg4) (rowOf (V c main_v15)) ⟨t.val * 5000 + r.val, row_lt t r⟩ q * mlp (V c main_arg0) (V c main_v13) (V c main_arg2) (rowOf (V c main_v14)) (V c main_arg4) (rowOf (V c main_v15)) ⟨t.val * 5000 + r.val, row_lt t r⟩ q := by
  rw [outsAt0_A V c t h0]
  dsimp only
  refine (congrFun (outA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)) (ix2 0 q)).trans ?_
  refine (pay1_apply (k0_pay4 (F := Ideal) (iblk0 V c 0 t) (iblk0 V c 1 t) (iblk0 V c 2 t) (iblk0 V c 3 t) (iblk0 V c 4 t) (iblk0 V c 5 t)) (k0_pay6 (k0_pay3 (F := Ideal))) q).trans ?_
  exact congrArg₂ (· + ·) ((congrFun (pay6_eq _) _).trans (pay3_apply _))
    (Finset.sum_congr rfl fun r _ => congrArg₂ (· * ·) (block_z V c t r q) (block_z V c t r q))

/-- At a later point it is what the point before left plus the sums of squares of the point's 5000 rows. -/
theorem outs8_later (c : Dev nD) (t : Fin cfg0.N) (h0 : ¬t.val % 10 = 0) (q : Fin 128) :
    ((outsAt0 V c t.val t.isLt).2.2 : S1x128.Idx → EReal) (ix2 0 q)
      = ((outsAt0 V c (t.val - 1) (Nat.lt_of_le_of_lt (Nat.sub_le _ _) t.isLt)).2.2 : S1x128.Idx → EReal) (ix2 0 q)
        + ∑ r : Fin 5000, mlp (V c main_arg0) (V c main_v13) (V c main_arg2) (rowOf (V c main_v14)) (V c main_arg4) (rowOf (V c main_v15)) ⟨t.val * 5000 + r.val, row_lt t r⟩ q * mlp (V c main_arg0) (V c main_v13) (V c main_arg2) (rowOf (V c main_v14)) (V c main_arg4) (rowOf (V c main_v15)) ⟨t.val * 5000 + r.val, row_lt t r⟩ q := by
  rw [outsAt0_B V c t h0]
  dsimp only
  refine (congrFun (outB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) (ix2 0 q)).trans ?_
  refine (pay1_apply (k0_pay4 (F := Ideal) (iblk0 V c 0 t) (iblk0 V c 1 t) (iblk0 V c 2 t) (iblk0 V c 3 t) (iblk0 V c 4 t) (iblk0 V c 5 t)) (k0_pay6 (outsAt0 V c (t.val - 1) (Nat.lt_of_le_of_lt (Nat.sub_le _ _) t.isLt)).2.2) q).trans ?_
  exact congrArg₂ (· + ·) (congrFun (pay6_eq _) _)
    (Finset.sum_congr rfl fun r _ => congrArg₂ (· * ·) (block_z V c t r q) (block_z V c t r q))

theorem nine_lt : 9 < cfg0.N := by rw [show cfg0.N = 10 from N_0]; decide

/-- After the last point the column-sum accumulator holds the column sums over all 50000 rows. -/
theorem sums_last (c : Dev nD) (q : Fin 128) :
    ((outsAt0 V c 9 nine_lt).2.1 : S1x128.Idx → EReal) (ix2 0 q) = ∑ p : Fin 50000, mlp (V c main_arg0) (V c main_v13) (V c main_arg2) (rowOf (V c main_v14)) (V c main_arg4) (rowOf (V c main_v15)) p q := by
  have hN : cfg0.N = 10 := N_0
  let a : ℕ → EReal := fun n => if h : n < cfg0.N then ((outsAt0 V c n h).2.1 : S1x128.Idx → EReal) (ix2 0 q) else 0
  have ha : ∀ n (h : n < cfg0.N), a n = ((outsAt0 V c n h).2.1 : S1x128.Idx → EReal) (ix2 0 q) := fun n h => dif_pos h
  have key := acc_rows (fun p => mlp (V c main_arg0) (V c main_v13) (V c main_arg2) (rowOf (V c main_v14)) (V c main_arg4) (rowOf (V c main_v15)) p q) a
    (by rw [ha 0 (by omega)]; exact outs7_first V c ⟨0, by omega⟩ rfl q)
    (fun t ht => by
      rw [ha (t + 1) (by omega), ha t (by omega)]
      exact outs7_later V c ⟨t + 1, by omega⟩ (by dsimp only; omega) q)
  exact (ha 9 nine_lt).symm.trans key

/-- After the last point the sum-of-squares accumulator holds the sums of squares over all 50000 rows. -/
theorem sumsq_last (c : Dev nD) (q : Fin 128) :
    ((outsAt0 V c 9 nine_lt).2.2 : S1x128.Idx → EReal) (ix2 0 q)
      = ∑ p : Fin 50000, mlp (V c main_arg0) (V c main_v13) (V c main_arg2) (rowOf (V c main_v14)) (V c main_arg4) (rowOf (V c main_v15)) p q * mlp (V c main_arg0) (V c main_v13) (V c main_arg2) (rowOf (V c main_v14)) (V c main_arg4) (rowOf (V c main_v15)) p q := by
  have hN : cfg0.N = 10 := N_0
  let a : ℕ → EReal := fun n => if h : n < cfg0.N then ((outsAt0 V c n h).2.2 : S1x128.Idx → EReal) (ix2 0 q) else 0
  have ha : ∀ n (h : n < cfg0.N), a n = ((outsAt0 V c n h).2.2 : S1x128.Idx → EReal) (ix2 0 q) := fun n h => dif_pos h
  have key := acc_rows (fun p => mlp (V c main_arg0) (V c main_v13) (V c main_arg2) (rowOf (V c main_v14)) (V c main_arg4) (rowOf (V c main_v15)) p q * mlp (V c main_arg0) (V c main_v13) (V c main_arg2) (rowOf (V c main_v14)) (V c main_arg4) (rowOf (V c main_v15)) p q) a
    (by rw [ha 0 (by omega)]; exact outs8_first V c ⟨0, by omega⟩ rfl q)
    (fun t ht => by
      rw [ha (t + 1) (by omega), ha t (by omega)]
      exact outs8_later V c ⟨t + 1, by omega⟩ (by dsimp only; omega) q)
  exact (ha 9 nine_lt).symm.trans key

end Accumulation

/-! ## The three result arrays after the region -/

section Final

variable (V : (c : Dev nD) → (b : Ref sig .tc) → Buf (Elt Ideal) ((c : Thread nD τ).loc b))

/-- What point `t` writes back to the activations' array is block `t` of the layer's activations. -/
theorem flushed6_eq (c : Dev nD) (t : Fin cfg0.N) :
    (dat0 V c).flushed 6 t = ((cfg0.win 6).blk t).view.read (Elt Ideal)
      (toArr (mlp (V c main_arg0) (V c main_v13) (V c main_arg2) (rowOf (V c main_v14)) (V c main_arg4) (rowOf (V c main_v15)))) := by
  obtain ⟨-, -, -, -, -, -, ⟨e0, e1⟩, -⟩ := idx_facts t
  show (cfg0.win 6).cut (grid0.coords t) ((dat0 V c).after 6 t) = _
  rw [after0_6, outs6]
  funext j
  show k0_pay4 (F := Ideal) (iblk0 V c 0 t) (iblk0 V c 1 t) (iblk0 V c 2 t) (iblk0 V c 3 t) (iblk0 V c 4 t) (iblk0 V c 5 t) j
    = toArr (mlp (V c main_arg0) (V c main_v13) (V c main_arg2) (rowOf (V c main_v14)) (V c main_arg4) (rowOf (V c main_v15))) (((cfg0.win 6).blk t).view.emb j)
  refine (congrArg (k0_pay4 (F := Ideal) (iblk0 V c 0 t) (iblk0 V c 1 t) (iblk0 V c 2 t) (iblk0 V c 3 t) (iblk0 V c 4 t) (iblk0 V c 5 t)) (eq_ix2 j)).trans ((block_z V c t (j 0) (j 1)).trans ?_)
  refine congrArg₂ (mlp (V c main_arg0) (V c main_v13) (V c main_arg2) (rowOf (V c main_v14)) (V c main_arg4) (rowOf (V c main_v15))) (Fin.ext ?_) (Fin.ext ?_)
  · show t.val * 5000 + (j 0).val = win0_6.index t (0 : Fin 2) * 5000 + 1 * (j 0).val
    rw [e0]; omega
  · show (j 1).val = win0_6.index t (1 : Fin 2) * 128 + 1 * (j 1).val
    rw [e1]; omega

/-- An index of the activations' array is in point `t`'s block iff each coordinate is in the block's range. -/
theorem mem_blk6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v16_0).slice (win0_6.rect t)).set ↔ _
  rw [View.set_slice_whole, Rect.mem_set_unit]
  exact Iff.rfl

/-- Row `p` lies in the block of point `p / 5000`. -/
theorem cover6 (i : S50000x128.Idx) :
    ∃ t : Fin cfg0.N, (cfg0.win 6).flush t = true ∧ i ∈ ((cfg0.win 6).blk t).view.set := by
  have hN : cfg0.N = 10 := N_0
  have hi0 : (i 0).val < 50000 := (i 0).isLt
  have hi1 : (i 1).val < 128 := (i 1).isLt
  refine ⟨⟨(i 0).val / 5000, by omega⟩, flush0_6 _, ?_⟩
  obtain ⟨-, -, -, -, -, -, ⟨e0, e1⟩, -⟩ := idx_facts ⟨(i 0).val / 5000, by omega⟩
  rw [mem_blk6]
  intro a
  match a with
  | ⟨0, _⟩ =>
    show win0_6.index _ (0 : Fin 2) * 5000 ≤ (i 0).val ∧ (i 0).val < win0_6.index _ (0 : Fin 2) * 5000 + 5000
    rw [e0]; dsimp only; omega
  | ⟨1, _⟩ =>
    show win0_6.index _ (1 : Fin 2) * 128 ≤ (i 1).val ∧ (i 1).val < win0_6.index _ (1 : Fin 2) * 128 + 128
    rw [e1]; omega

/-- The activations' array after the region: the layer's activations, row by row. -/
theorem region0_arr (c : Dev nD) :
    ((dat0 V c).arrAt 6 cfg0.N : S50000x128.Idx → EReal)
      = toArr (mlp (V c main_arg0) (V c main_v13) (V c main_arg2) (rowOf (V c main_v14)) (V c main_arg4) (rowOf (V c main_v15))) :=
  (dat0 V c).arrAt_eq_of_cover 6 _ (fun t _ => flushed6_eq V c t) cover6

theorem region0_z (c : Dev nD) (p : Fin 50000) (q : Fin 128) :
    ((dat0 V c).arrAt 6 cfg0.N : S50000x128.Idx → EReal) (ix2 p q)
      = mlp (V c main_arg0) (V c main_v13) (V c main_arg2) (rowOf (V c main_v14)) (V c main_arg4) (rowOf (V c main_v15)) p q :=
  (congrFun (region0_arr V c) (ix2 p q)).trans (toArr_apply _ p q)

/-- The one write-back of the column sums, at the last point, writes the whole [1,128] array. -/
theorem flushed7_eq (c : Dev nD) (t : Fin cfg0.N) (hf : (cfg0.win 7).flush t = true) :
    (dat0 V c).flushed 7 t = ((cfg0.win 7).blk t).view.read (Elt Ideal) ((outsAt0 V c 9 nine_lt).2.1) := by
  have hN : cfg0.N = 10 := N_0
  have h9 : t.val = 9 := by have := (flush0_7 t).mp hf; have := t.isLt; omega
  obtain rfl : t = t0_9 := Fin.ext h9
  show (cfg0.win 7).cut (grid0.coords t0_9) ((dat0 V c).after 7 t0_9) = _
  rw [after0_7]
  have hz' : (fun a => win0_7.index t0_9 a * main_v16_1.ty.shape.size a) = fun _ => 0 :=
    funext fun a => by fin_cases a <;> decide
  exact (Memref.read_access_unit_zero (Elt Ideal) main_v16_1 hz' (fun a => by rw [congrFun hz' a]; simp)
    ((outsAt0 V c 9 nine_lt).2.1)).symm

theorem flushed8_eq (c : Dev nD) (t : Fin cfg0.N) (hf : (cfg0.win 8).flush t = true) :
    (dat0 V c).flushed 8 t = ((cfg0.win 8).blk t).view.read (Elt Ideal) ((outsAt0 V c 9 nine_lt).2.2) := by
  have hN : cfg0.N = 10 := N_0
  have h9 : t.val = 9 := by have := (flush0_8 t).mp hf; have := t.isLt; omega
  obtain rfl : t = t0_9 := Fin.ext h9
  show (cfg0.win 8).cut (grid0.coords t0_9) ((dat0 V c).after 8 t0_9) = _
  rw [after0_8]
  have hz' : (fun a => win0_8.index t0_9 a * main_v16_2.ty.shape.size a) = fun _ => 0 :=
    funext fun a => by fin_cases a <;> decide
  exact (Memref.read_access_unit_zero (Elt Ideal) main_v16_2 hz' (fun a => by rw [congrFun hz' a]; simp)
    ((outsAt0 V c 9 nine_lt).2.2)).symm

/-- The last point's block of the column-sum array is the whole array. -/
theorem cover7 (i : S1x128.Idx) :
    ∃ t : Fin cfg0.N, (cfg0.win 7).flush t = true ∧ i ∈ ((cfg0.win 7).blk t).view.set := by
  refine ⟨t0_9, (flush0_7 t0_9).mpr rfl, ?_⟩
  show i ∈ ((View.whole main_v16_1).slice (win0_7.rect t0_9)).set
  rw [View.set_slice_whole, Rect.mem_set_unit]
  intro a
  have h0 : (i 0 : Nat) < 1 := (i 0).isLt
  have h1 : (i 1 : Nat) < 128 := (i 1).isLt
  match a with
  | ⟨0, _⟩ =>
    show win0_7.index t0_9 0 * win0_7.size 0 ≤ (i 0 : Nat) ∧ (i 0 : Nat) < win0_7.index t0_9 0 * win0_7.size 0 + win0_7.xsize (grid0.coords t0_9) 0
    rw [show win0_7.index t0_9 0 * win0_7.size 0 = 0 from by decide +kernel, show win0_7.xsize (grid0.coords t0_9) 0 = 1 from by decide +kernel]; omega
  | ⟨1, _⟩ =>
    show win0_7.index t0_9 1 * win0_7.size 1 ≤ (i 1 : Nat) ∧ (i 1 : Nat) < win0_7.index t0_9 1 * win0_7.size 1 + win0_7.xsize (grid0.coords t0_9) 1
    rw [show win0_7.index t0_9 1 * win0_7.size 1 = 0 from by decide +kernel, show win0_7.xsize (grid0.coords t0_9) 1 = 128 from by decide +kernel]; omega

theorem cover8 (i : S1x128.Idx) :
    ∃ t : Fin cfg0.N, (cfg0.win 8).flush t = true ∧ i ∈ ((cfg0.win 8).blk t).view.set := by
  refine ⟨t0_9, (flush0_8 t0_9).mpr rfl, ?_⟩
  show i ∈ ((View.whole main_v16_2).slice (win0_8.rect t0_9)).set
  rw [View.set_slice_whole, Rect.mem_set_unit]
  intro a
  have h0 : (i 0 : Nat) < 1 := (i 0).isLt
  have h1 : (i 1 : Nat) < 128 := (i 1).isLt
  match a with
  | ⟨0, _⟩ =>
    show win0_8.index t0_9 0 * win0_8.size 0 ≤ (i 0 : Nat) ∧ (i 0 : Nat) < win0_8.index t0_9 0 * win0_8.size 0 + win0_8.xsize (grid0.coords t0_9) 0
    rw [show win0_8.index t0_9 0 * win0_8.size 0 = 0 from by decide +kernel, show win0_8.xsize (grid0.coords t0_9) 0 = 1 from by decide +kernel]; omega
  | ⟨1, _⟩ =>
    show win0_8.index t0_9 1 * win0_8.size 1 ≤ (i 1 : Nat) ∧ (i 1 : Nat) < win0_8.index t0_9 1 * win0_8.size 1 + win0_8.xsize (grid0.coords t0_9) 1
    rw [show win0_8.index t0_9 1 * win0_8.size 1 = 0 from by decide +kernel, show win0_8.xsize (grid0.coords t0_9) 1 = 128 from by decide +kernel]; omega

/-- The column-sum array after the region: the activations summed over all 50000 rows, column by column. -/
theorem region0_sum (c : Dev nD) (q : Fin 128) :
    ((dat0 V c).arrAt 7 cfg0.N : S1x128.Idx → EReal) (ix2 0 q)
      = ∑ p : Fin 50000, mlp (V c main_arg0) (V c main_v13) (V c main_arg2) (rowOf (V c main_v14)) (V c main_arg4) (rowOf (V c main_v15)) p q :=
  (congrFun ((dat0 V c).arrAt_eq_of_cover 7 ((outsAt0 V c 9 nine_lt).2.1) (flushed7_eq V c) cover7) (ix2 0 q)).trans
    (sums_last V c q)

/-- The sum-of-squares array after the region: the squared activations summed over all 50000 rows. -/
theorem region0_sumsq (c : Dev nD) (q : Fin 128) :
    ((dat0 V c).arrAt 8 cfg0.N : S1x128.Idx → EReal) (ix2 0 q)
      = ∑ p : Fin 50000, mlp (V c main_arg0) (V c main_v13) (V c main_arg2) (rowOf (V c main_v14)) (V c main_arg4) (rowOf (V c main_v15)) p q * mlp (V c main_arg0) (V c main_v13) (V c main_arg2) (rowOf (V c main_v14)) (V c main_arg4) (rowOf (V c main_v15)) p q :=
  (congrFun ((dat0 V c).arrAt_eq_of_cover 8 ((outsAt0 V c 9 nine_lt).2.2) (flushed8_eq V c) cover8) (ix2 0 q)).trans
    (sumsq_last V c q)

/-- The same three facts with the region's six input arrays named. -/
theorem region0_arr_of (c : Dev nD) (X A : Arr) (W1 W2 : Mat) (B1 B2 : Row1) (hX : V c main_arg0 = X)
    (hA : V c main_v13 = A) (hW1 : V c main_arg2 = W1) (hB1 : V c main_v14 = B1) (hW2 : V c main_arg4 = W2)
    (hB2 : V c main_v15 = B2) :
    ((dat0 V c).arrAt 6 cfg0.N : S50000x128.Idx → EReal) = toArr (mlp X A W1 (rowOf B1) W2 (rowOf B2)) := by
  subst hX hA hW1 hB1 hW2 hB2
  exact region0_arr V c

theorem region0_sum_of (c : Dev nD) (X A : Arr) (W1 W2 : Mat) (B1 B2 : Row1) (hX : V c main_arg0 = X)
    (hA : V c main_v13 = A) (hW1 : V c main_arg2 = W1) (hB1 : V c main_v14 = B1) (hW2 : V c main_arg4 = W2)
    (hB2 : V c main_v15 = B2) (q : Fin 128) :
    ((dat0 V c).arrAt 7 cfg0.N : S1x128.Idx → EReal) (ix2 0 q)
      = ∑ p : Fin 50000, mlp X A W1 (rowOf B1) W2 (rowOf B2) p q := by
  subst hX hA hW1 hB1 hW2 hB2
  exact region0_sum V c q

theorem region0_sumsq_of (c : Dev nD) (X A : Arr) (W1 W2 : Mat) (B1 B2 : Row1) (hX : V c main_arg0 = X)
    (hA : V c main_v13 = A) (hW1 : V c main_arg2 = W1) (hB1 : V c main_v14 = B1) (hW2 : V c main_arg4 = W2)
    (hB2 : V c main_v15 = B2) (q : Fin 128) :
    ((dat0 V c).arrAt 8 cfg0.N : S1x128.Idx → EReal) (ix2 0 q)
      = ∑ p : Fin 50000, mlp X A W1 (rowOf B1) W2 (rowOf B2) p q * mlp X A W1 (rowOf B1) W2 (rowOf B2) p q := by
  subst hX hA hW1 hB1 hW2 hB2
  exact region0_sumsq V c q

end Final

end Cert.KernelIdeal.Region0Value

end
-- ==== Proof.Region2Value.lean ====
/-
  The second accumulating region of the kernel program, read as mathematics.

  The region is the first one again, on the second layer's operands: the rows are those of the first layer's
  normalised output and of its neighbour aggregation, the weights and bias rows are the second layer's. It walks the
  50000 rows in 10 blocks of 5000. At block `t` it forms the pre-normalisation activations of the block's rows,
  `z = max ((X + A)·W1 + b1, 0)·W2 + b2`, stores them as block `t` of the activations' array, and adds their column
  sums, and the column sums of their squares, into two [1,128] accumulators, cleared at the first block and written
  back once, after the last. Hence after the region the activations' array holds the layer's activations row by row;
  the first accumulator holds, in column `q`, the sum over all 50000 rows of `z p q`; the second the sum of
  `z p q · z p q`. Only associativity and commutativity of addition on the extended reals are used: a sum over 50000
  rows is regrouped as 10 sums over 5000 rows, so nothing here needs the inputs to be finite.

  The steps: what each of the body's two cases (first block, later block) leaves in the three output buffers, as the
  body's arithmetic applied to the blocks it loaded; that arithmetic read at a row and a column (a product into a zero
  accumulator is the sum over the shared axis, a reduction over axis 0 is the sum down a column; here the carried
  sum-of-squares accumulator passes through an identity reshape inside the update); a block's entry `(r, d)` is the
  array's entry `(5000 t + r, d)`; induction over the blocks for the accumulators; and the write-backs, block `t` of
  the activations at every block and the two accumulators after the last.
-/
import proofs.«180482_j54571854463790_2_alg».proof.Proof.Gen.KernelIdeal.Frame
import proofs.«180482_j54571854463790_2_alg».proof.Proof.Spec
import proofs.«180482_j54571854463790_2_alg».proof.Proof.LibColSum
import proofs.«180482_j54571854463790_2_alg».proof.Proof.LayerMath
import Idealize.ShloMosaic.Lib.Pipeline.Value
import Idealize.ShloMosaic.Lib.ValueLayout
import Idealize.ShloMosaic.Lib.Tactic
import Idealize.ShloMosaic.PureOps.Ideal.Laws

noncomputable section

namespace Cert.KernelIdeal.Region2Value

open Idealize.ShloMosaic Idealize.ShloMosaic.TcCoe Idealize.SL.Sem
open Idealize.ShloMosaic.Pipeline (Dat)
open Cert.KernelIdeal Cert.KernelIdeal.Gen
open Cert.Gin Idealize.ShloMosaic.ValueIdx

/-! ## What each case of the body leaves in the three output buffers -/

section Pieces

variable {F : FTy → Type} [FloatOps F]

theorem hz : (![0, 0] : Fin 2 → Nat) = fun _ => 0 := funext fun a => by fin_cases a <;> rfl

/-- At a later point the activations' buffer holds the perceptron of the point's input blocks. -/
theorem outB6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out2_B_6 c i a1 h1 a2 h2 a3 h3 a4 h4 a5 h5 a6 h6 a7 h7 a8 h8 a9 h9 hc x0 x1 x2 x3 x4 x5 xo7 xo8 = k2_pay4 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  rw [View.canon_unit_zero hz]
  simp only [View.readAt_eq_ld, h1.read_unread, h2.read_unread, h3.read_unread, h4.read_unread, h5.read_unread,
    h6.read_unread, View.ld_unit_zero (S := S5000x128) hz, View.ld_unit_zero (S := S128x128) hz,
    View.ld_unit_zero (S := S1x128) hz]

/-- At a later point the column-sum buffer holds what it held plus the column sums of the point's activations. -/
theorem outB7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out2_B_7 c i a1 h1 a2 h2 a3 h3 a4 h4 a5 h5 a6 h6 a7 h7 a8 h8 a9 h9 hc x0 x1 x2 x3 x4 x5 xo7 xo8 = k2_pay5 x0 x1 x2 x3 x4 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  rw [View.canon_unit_zero hz]
  simp only [View.readAt_eq_ld, h1.read_unread, h2.read_unread, h3.read_unread, h4.read_unread, h5.read_unread,
    h6.read_unread, h8.read_unread, View.ld_unit_zero (S := S5000x128) hz, View.ld_unit_zero (S := S128x128) hz,
    View.ld_unit_zero (S := S1x128) hz]

/-- At a later point the sum-of-squares buffer holds what it held plus the column sums of the squared activations. -/
theorem outB8 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out2_B_8 c i a1 h1 a2 h2 a3 h3 a4 h4 a5 h5 a6 h6 a7 h7 a8 h8 a9 h9 hc x0 x1 x2 x3 x4 x5 xo7 xo8 = k2_pay1 (k2_pay4 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread,
    h6.read_unread, h9.read_unread, View.ld_unit_zero (S := S5000x128) hz, View.ld_unit_zero (S := S128x128) hz,
    View.ld_unit_zero (S := S1x128) hz]

/-- At the first point the activations' buffer holds the perceptron of the point's input blocks. -/
theorem outA6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_6 c i a1 h1 a2 h2 a3 h3 a4 h4 a5 h5 a6 h6 a7 h7 a8 h8 a9 h9 hc x0 x1 x2 x3 x4 x5 = k2_pay4 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  sl_unfold_words
  rw [View.canon_unit_zero hz]
  simp only [View.readAt_eq_ld, h1.read_unread, h2.read_unread, h3.read_unread, h4.read_unread, h5.read_unread,
    h6.read_unread, View.ld_unit_zero (S := S5000x128) hz, View.ld_unit_zero (S := S128x128) hz,
    View.ld_unit_zero (S := S1x128) hz]

/-- At the first point the column-sum buffer is reset to the zero row and then receives the column sums. -/
theorem outA7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_7 c i a1 h1 a2 h2 a3 h3 a4 h4 a5 h5 a6 h6 a7 h7 a8 h8 a9 h9 hc x0 x1 x2 x3 x4 x5 = k2_pay5 x0 x1 x2 x3 x4 x5 k2_pay2 := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, View.ld_unit_zero (S := S5000x128) hz, View.ld_unit_zero (S := S128x128) hz,
    View.ld_unit_zero (S := S1x128) hz]

/-- At the first point the sum-of-squares buffer is reset to the zero row and then receives the sums of squares. -/
theorem outA8 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 : Vec F S5000x128 .f32) (x1 : Vec F S5000x128 .f32) (x2 : Vec F S128x128 .f32) (x3 : Vec F S1x128 .f32) (x4 : Vec F S128x128 .f32) (x5 : Vec F S1x128 .f32) :
    out2_A_8 c i a1 h1 a2 h2 a3 h3 a4 h4 a5 h5 a6 h6 a7 h7 a8 h8 a9 h9 hc x0 x1 x2 x3 x4 x5 = k2_pay1 (k2_pay4 x0 x1 x2 x3 x4 x5) k2_pay3 := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, View.ld_unit_zero (S := S5000x128) hz, View.ld_unit_zero (S := S128x128) hz,
    View.ld_unit_zero (S := S1x128) hz]

end Pieces

/-! ## The body's arithmetic read at an index, on the extended reals -/

section Payloads

/-- The row coordinate of the left operand's index in the contraction is the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The column coordinate of the right operand's index in the contraction is the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] by [128,128] product into a zero accumulator, at row `p` and column `q`: the sum over the shared axis. -/
theorem matmul_at (l : FVec Ideal S5000x128 .f32) (r : FVec Ideal S128x128 .f32) (p : Fin 5000) (q : Fin 128) :
    matmul dot_S5000x128_S128x128_S5000x128_1_0_0_1_n_n (some .fp32) l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n (some .fp32) l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The activations' payload at row `p` and column `q` of a block: the two-layer perceptron of the block's rows. -/
theorem pay4_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k2_pay4 (F := Ideal) x0 x1 x2 x3 x4 x5 (ix2 p q)
      = (∑ c : Fin 128, max ((∑ d : Fin 128, (x0 (ix2 p d) + x1 (ix2 p d)) * x2 (ix2 d c)) + x3 (ix2 0 c)) 0
            * x4 (ix2 c q)) + x5 (ix2 0 q) := by
  unfold k2_pay4
  simp only [shapeCast_self]
  refine (addf_apply _ _ _).trans ?_
  refine congrArg₂ (· + ·) ((matmul_at _ x4 p q).trans ?_) (broadcastTo_1b_ab_apply x5 _ p q)
  refine Finset.sum_congr rfl fun k _ => congrArg (· * x4 (ix2 k q)) ?_
  refine (maximumf_apply _ _ _).trans ?_
  refine congrArg₂ max ((addf_apply _ _ _).trans ?_) Ideal.ofBits_zero_f32
  exact congrArg₂ (· + ·) (matmul_at _ x2 p k) (broadcastTo_1b_ab_apply x3 _ p k)

/-- The column-sum payload at column `q`: what the buffer held plus the sum of the block's activations down the column. -/
theorem pay5_apply (x0 x1 : Vec Ideal S5000x128 .f32) (x2 : Vec Ideal S128x128 .f32) (x3 : Vec Ideal S1x128 .f32)
    (x4 : Vec Ideal S128x128 .f32) (x5 : Vec Ideal S1x128 .f32) (acc : Vec Ideal S1x128 .f32) (q : Fin 128) :
    k2_pay5 (F := Ideal) x0 x1 x2 x3 x4 x5 acc (ix2 0 q)
      = acc (ix2 0 q) + ∑ p : Fin 5000, k2_pay4 (F := Ideal) x0 x1 x2 x3 x4 x5 (ix2 p q) := by
  unfold k2_pay5
  simp only [shapeCast_self]
  refine (addf_apply _ _ _).trans ?_
  refine congrArg (acc (ix2 0 q) + ·) ((shapeCast_a_1a_apply _ _ 0 q).trans ?_)
  exact Cert.ColSum.colSum_apply (k2_pay4 (F := Ideal) x0 x1 x2 x3 x4 x5) _ _ _ q

/-- The sum-of-squares payload at column `q`: what the buffer held plus the sum of the squared activations down the column. -/
theorem pay1_apply (z : FVec Ideal S5000x128 .f32) (acc : FVec Ideal S1x128 .f32) (q : Fin 128) :
    k2_pay1 (F := Ideal) z acc (ix2 0 q) = acc (ix2 0 q) + ∑ p : Fin 5000, z (ix2 p q) * z (ix2 p q) := by
  unfold k2_pay1
  simp only [shapeCast_self]
  refine (addf_apply _ _ _).trans ?_
  refine congrArg (acc (ix2 0 q) + ·) ((shapeCast_a_1a_apply _ _ 0 q).trans ?_)
  exact Cert.ColSum.colSum_apply (mulf z z) _ _ _ q

/-- The reset stores the zero row. -/
theorem pay2_apply (j : S1x128.Idx) : k2_pay2 (F := Ideal) j = 0 := Ideal.ofBits_zero_f32
theorem pay3_apply (j : S1x128.Idx) : k2_pay3 (F := Ideal) j = 0 := Ideal.ofBits_zero_f32

end Payloads

/-! ## The windows' blocks read at an index -/

section Blocks

variable (V : (c : Dev nD) → (b : Ref sig .tc) → Buf (Elt Ideal) ((c : Thread nD τ).loc b))

/-- Where each window's block sits at a point: the two row-blocked inputs and the activations' output move with the
    point along the rows; the weights, the bias rows and the two accumulators stay at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

theorem row_lt (t : Fin cfg2.N) (r : Fin 5000) : t.val * 5000 + r.val < 50000 := by
  have hN : t.val < 10 := lt_of_lt_of_eq t.isLt (show cfg2.N = 10 from N_2)
  have := r.isLt
  omega

/-- Row `r` of the point's block of the first layer's output is row `5000 t + r` of the array. -/
theorem blk0_apply (c : Dev nD) (t : Fin cfg2.N) (r : Fin 5000) (d : Fin 128) :
    (iblk2 V c 0 t : S5000x128.Idx → EReal) (ix2 r d)
      = (V c main_v35 : S50000x128.Idx → EReal) (ix2 ⟨t.val * 5000 + r.val, row_lt t r⟩ d) := by
  obtain ⟨⟨e0, e1⟩, -⟩ := idx_facts t
  unfold iblk2
  rw [View.read_apply]
  show V c main_v35 (((cfg2.win 0).blk t).view.emb (ix2 r d)) = V c main_v35 _
  refine congrArg _ (funext fun a => Fin.ext ?_)
  match a with
  | ⟨0, _⟩ => show win2_0.index t (0 : Fin 2) * 5000 + 1 * r.val = t.val * 5000 + r.val; rw [e0]; omega
  | ⟨1, _⟩ => show win2_0.index t (1 : Fin 2) * 128 + 1 * d.val = d.val; rw [e1]; omega

/-- Row `r` of the point's block of its neighbour aggregation is row `5000 t + r` of the array. -/
theorem blk1_apply (c : Dev nD) (t : Fin cfg2.N) (r : Fin 5000) (d : Fin 128) :
    (iblk2 V c 1 t : S5000x128.Idx → EReal) (ix2 r d)
      = (V c main_v45 : S50000x128.Idx → EReal) (ix2 ⟨t.val * 5000 + r.val, row_lt t r⟩ d) := by
  obtain ⟨-, ⟨e0, e1⟩, -⟩ := idx_facts t
  unfold iblk2
  rw [View.read_apply]
  show V c main_v45 (((cfg2.win 1).blk t).view.emb (ix2 r d)) = V c main_v45 _
  refine congrArg _ (funext fun a => Fin.ext ?_)
  match a with
  | ⟨0, _⟩ => show win2_1.index t (0 : Fin 2) * 5000 + 1 * r.val = t.val * 5000 + r.val; rw [e0]; omega
  | ⟨1, _⟩ => show win2_1.index t (1 : Fin 2) * 128 + 1 * d.val = d.val; rw [e1]; omega

/-- The first weight matrix is staged whole. -/
theorem blk2_apply (c : Dev nD) (t : Fin cfg2.N) (a b : Fin 128) :
    (iblk2 V c 2 t : S128x128.Idx → EReal) (ix2 a b) = (V c main_arg8 : S128x128.Idx → EReal) (ix2 a b) := by
  obtain ⟨-, -, ⟨e0, e1⟩, -⟩ := idx_facts t
  unfold iblk2
  rw [View.read_apply]
  show V c main_arg8 (((cfg2.win 2).blk t).view.emb (ix2 a b)) = V c main_arg8 _
  refine congrArg _ (funext fun x => Fin.ext ?_)
  match x with
  | ⟨0, _⟩ => show win2_2.index t (0 : Fin 2) * 128 + 1 * a.val = a.val; rw [e0]; omega
  | ⟨1, _⟩ => show win2_2.index t (1 : Fin 2) * 128 + 1 * b.val = b.val; rw [e1]; omega

/-- The first bias row is staged whole. -/
theorem blk3_apply (c : Dev nD) (t : Fin cfg2.N) (b : Fin 128) :
    (iblk2 V c 3 t : S1x128.Idx → EReal) (ix2 0 b) = (V c main_v46 : S1x128.Idx → EReal) (ix2 0 b) := by
  obtain ⟨-, -, -, ⟨e0, e1⟩, -⟩ := idx_facts t
  unfold iblk2
  rw [View.read_apply]
  show V c main_v46 (((cfg2.win 3).blk t).view.emb (ix2 0 b)) = V c main_v46 _
  refine congrArg _ (funext fun x => Fin.ext ?_)
  match x with
  | ⟨0, _⟩ => show win2_3.index t (0 : Fin 2) * 1 + 1 * 0 = 0; rw [e0]
  | ⟨1, _⟩ => show win2_3.index t (1 : Fin 2) * 128 + 1 * b.val = b.val; rw [e1]; omega

/-- The second weight matrix is staged whole. -/
theorem blk4_apply (c : Dev nD) (t : Fin cfg2.N) (a b : Fin 128) :
    (iblk2 V c 4 t : S128x128.Idx → EReal) (ix2 a b) = (V c main_arg10 : S128x128.Idx → EReal) (ix2 a b) := by
  obtain ⟨-, -, -, -, ⟨e0, e1⟩, -⟩ := idx_facts t
  unfold iblk2
  rw [View.read_apply]
  show V c main_arg10 (((cfg2.win 4).blk t).view.emb (ix2 a b)) = V c main_arg10 _
  refine congrArg _ (funext fun x => Fin.ext ?_)
  match x with
  | ⟨0, _⟩ => show win2_4.index t (0 : Fin 2) * 128 + 1 * a.val = a.val; rw [e0]; omega
  | ⟨1, _⟩ => show win2_4.index t (1 : Fin 2) * 128 + 1 * b.val = b.val; rw [e1]; omega

/-- The second bias row is staged whole. -/
theorem blk5_apply (c : Dev nD) (t : Fin cfg2.N) (b : Fin 128) :
    (iblk2 V c 5 t : S1x128.Idx → EReal) (ix2 0 b) = (V c main_v47 : S1x128.Idx → EReal) (ix2 0 b) := by
  obtain ⟨-, -, -, -, -, ⟨e0, e1⟩, -⟩ := idx_facts t
  unfold iblk2
  rw [View.read_apply]
  show V c main_v47 (((cfg2.win 5).blk t).view.emb (ix2 0 b)) = V c main_v47 _
  refine congrArg _ (funext fun x => Fin.ext ?_)
  match x with
  | ⟨0, _⟩ => show win2_5.index t (0 : Fin 2) * 1 + 1 * 0 = 0; rw [e0]
  | ⟨1, _⟩ => show win2_5.index t (1 : Fin 2) * 128 + 1 * b.val = b.val; rw [e1]; omega

/-- The activations the body computes from the point's blocks are the layer's activations of the block's rows. -/
theorem block_z (c : Dev nD) (t : Fin cfg2.N) (r : Fin 5000) (q : Fin 128) :
    k2_pay4 (F := Ideal) (iblk2 V c 0 t) (iblk2 V c 1 t) (iblk2 V c 2 t) (iblk2 V c 3 t) (iblk2 V c 4 t) (iblk2 V c 5 t) (ix2 r q)
      = mlp (V c main_v35) (V c main_v45) (V c main_arg8) (rowOf (V c main_v46)) (V c main_arg10) (rowOf (V c main_v47)) ⟨t.val * 5000 + r.val, row_lt t r⟩ q := by
  refine (pay4_apply (iblk2 V c 0 t) (iblk2 V c 1 t) (iblk2 V c 2 t) (iblk2 V c 3 t) (iblk2 V c 4 t) (iblk2 V c 5 t) r q).trans ?_
  unfold mlp
  refine congrArg₂ (· + ·) (Finset.sum_congr rfl fun k _ => congrArg₂ (· * ·) (congrArg (max · 0)
    (congrArg₂ (· + ·) (Finset.sum_congr rfl fun d _ => congrArg₂ (· * ·)
      (congrArg₂ (· + ·) (blk0_apply V c t r d) (blk1_apply V c t r d)) (blk2_apply V c t d k)) (blk3_apply V c t k)))
    (blk4_apply V c t k q)) (blk5_apply V c t q)

end Blocks

/-! ## The three outputs after each point, and after the region -/

section Accumulation

variable (V : (c : Dev nD) → (b : Ref sig .tc) → Buf (Elt Ideal) ((c : Thread nD τ).loc b))

/-- After any point the activations' buffer holds the perceptron of the point's blocks. -/
theorem outs6 (c : Dev nD) (t : Fin cfg2.N) :
    (outsAt2 V c t.val t.isLt).1 = k2_pay4 (F := Ideal) (iblk2 V c 0 t) (iblk2 V c 1 t) (iblk2 V c 2 t) (iblk2 V c 3 t) (iblk2 V c 4 t) (iblk2 V c 5 t) := by
  by_cases h0 : t.val % 10 = 0
  · rw [outsAt2_A V c t h0]
    dsimp only
    exact outA6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)
  · rw [outsAt2_B V c t h0]
    dsimp only
    exact outB6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

/-- At the first point the column-sum accumulator is zero plus the column sums of the first 5000 rows. -/
theorem outs7_first (c : Dev nD) (t : Fin cfg2.N) (h0 : t.val % 10 = 0) (q : Fin 128) :
    ((outsAt2 V c t.val t.isLt).2.1 : S1x128.Idx → EReal) (ix2 0 q)
      = 0 + ∑ r : Fin 5000, mlp (V c main_v35) (V c main_v45) (V c main_arg8) (rowOf (V c main_v46)) (V c main_arg10) (rowOf (V c main_v47)) ⟨t.val * 5000 + r.val, row_lt t r⟩ q := by
  rw [outsAt2_A V c t h0]
  dsimp only
  refine (congrFun (outA7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)) (ix2 0 q)).trans ?_
  refine (pay5_apply (iblk2 V c 0 t) (iblk2 V c 1 t) (iblk2 V c 2 t) (iblk2 V c 3 t) (iblk2 V c 4 t) (iblk2 V c 5 t) (k2_pay2 (F := Ideal)) q).trans ?_
  exact congrArg₂ (· + ·) (pay2_apply _) (Finset.sum_congr rfl fun r _ => block_z V c t r q)

/-- At a later point it is what the point before left plus the column sums of the point's 5000 rows. -/
theorem outs7_later (c : Dev nD) (t : Fin cfg2.N) (h0 : ¬t.val % 10 = 0) (q : Fin 128) :
    ((outsAt2 V c t.val t.isLt).2.1 : S1x128.Idx → EReal) (ix2 0 q)
      = ((outsAt2 V c (t.val - 1) (Nat.lt_of_le_of_lt (Nat.sub_le _ _) t.isLt)).2.1 : S1x128.Idx → EReal) (ix2 0 q)
        + ∑ r : Fin 5000, mlp (V c main_v35) (V c main_v45) (V c main_arg8) (rowOf (V c main_v46)) (V c main_arg10) (rowOf (V c main_v47)) ⟨t.val * 5000 + r.val, row_lt t r⟩ q := by
  rw [outsAt2_B V c t h0]
  dsimp only
  refine (congrFun (outB7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) (ix2 0 q)).trans ?_
  refine (pay5_apply (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 q).trans ?_
  exact congrArg (_ + ·) (Finset.sum_congr rfl fun r _ => block_z V c t r q)

/-- At the first point the sum-of-squares accumulator is zero plus the sums of squares of the first 5000 rows. -/
theorem outs8_first (c : Dev nD) (t : Fin cfg2.N) (h0 : t.val % 10 = 0) (q : Fin 128) :
    ((outsAt2 V c t.val t.isLt).2.2 : S1x128.Idx → EReal) (ix2 0 q)
      = 0 + ∑ r : Fin 5000, mlp (V c main_v35) (V c main_v45) (V c main_arg8) (rowOf (V c main_v46)) (V c main_arg10) (rowOf (V c main_v47)) ⟨t.val * 5000 + r.val, row_lt t r⟩ q * mlp (V c main_v35) (V c main_v45) (V c main_arg8) (rowOf (V c main_v46)) (V c main_arg10) (rowOf (V c main_v47)) ⟨t.val * 5000 + r.val, row_lt t r⟩ q := by
  rw [outsAt2_A V c t h0]
  dsimp only
  refine (congrFun (outA8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)) (ix2 0 q)).trans ?_
  refine (pay1_apply (k2_pay4 (F := Ideal) (iblk2 V c 0 t) (iblk2 V c 1 t) (iblk2 V c 2 t) (iblk2 V c 3 t) (iblk2 V c 4 t) (iblk2 V c 5 t)) (k2_pay3 (F := Ideal)) q).trans ?_
  exact congrArg₂ (· + ·) (pay3_apply _)
    (Finset.sum_congr rfl fun r _ => congrArg₂ (· * ·) (block_z V c t r q) (block_z V c t r q))

/-- At a later point it is what the point before left plus the sums of squares of the point's 5000 rows. -/
theorem outs8_later (c : Dev nD) (t : Fin cfg2.N) (h0 : ¬t.val % 10 = 0) (q : Fin 128) :
    ((outsAt2 V c t.val t.isLt).2.2 : S1x128.Idx → EReal) (ix2 0 q)
      = ((outsAt2 V c (t.val - 1) (Nat.lt_of_le_of_lt (Nat.sub_le _ _) t.isLt)).2.2 : S1x128.Idx → EReal) (ix2 0 q)
        + ∑ r : Fin 5000, mlp (V c main_v35) (V c main_v45) (V c main_arg8) (rowOf (V c main_v46)) (V c main_arg10) (rowOf (V c main_v47)) ⟨t.val * 5000 + r.val, row_lt t r⟩ q * mlp (V c main_v35) (V c main_v45) (V c main_arg8) (rowOf (V c main_v46)) (V c main_arg10) (rowOf (V c main_v47)) ⟨t.val * 5000 + r.val, row_lt t r⟩ q := by
  rw [outsAt2_B V c t h0]
  dsimp only
  refine (congrFun (outB8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) (ix2 0 q)).trans ?_
  refine (pay1_apply (k2_pay4 (F := Ideal) (iblk2 V c 0 t) (iblk2 V c 1 t) (iblk2 V c 2 t) (iblk2 V c 3 t) (iblk2 V c 4 t) (iblk2 V c 5 t)) (outsAt2 V c (t.val - 1) (Nat.lt_of_le_of_lt (Nat.sub_le _ _) t.isLt)).2.2 q).trans ?_
  exact congrArg (_ + ·)
    (Finset.sum_congr rfl fun r _ => congrArg₂ (· * ·) (block_z V c t r q) (block_z V c t r q))

theorem nine_lt : 9 < cfg2.N := by rw [show cfg2.N = 10 from N_2]; decide

/-- After the last point the column-sum accumulator holds the column sums over all 50000 rows. -/
theorem sums_last (c : Dev nD) (q : Fin 128) :
    ((outsAt2 V c 9 nine_lt).2.1 : S1x128.Idx → EReal) (ix2 0 q) = ∑ p : Fin 50000, mlp (V c main_v35) (V c main_v45) (V c main_arg8) (rowOf (V c main_v46)) (V c main_arg10) (rowOf (V c main_v47)) p q := by
  have hN : cfg2.N = 10 := N_2
  let a : ℕ → EReal := fun n => if h : n < cfg2.N then ((outsAt2 V c n h).2.1 : S1x128.Idx → EReal) (ix2 0 q) else 0
  have ha : ∀ n (h : n < cfg2.N), a n = ((outsAt2 V c n h).2.1 : S1x128.Idx → EReal) (ix2 0 q) := fun n h => dif_pos h
  have key := acc_rows (fun p => mlp (V c main_v35) (V c main_v45) (V c main_arg8) (rowOf (V c main_v46)) (V c main_arg10) (rowOf (V c main_v47)) p q) a
    (by rw [ha 0 (by omega)]; exact outs7_first V c ⟨0, by omega⟩ rfl q)
    (fun t ht => by
      rw [ha (t + 1) (by omega), ha t (by omega)]
      exact outs7_later V c ⟨t + 1, by omega⟩ (by dsimp only; omega) q)
  exact (ha 9 nine_lt).symm.trans key

/-- After the last point the sum-of-squares accumulator holds the sums of squares over all 50000 rows. -/
theorem sumsq_last (c : Dev nD) (q : Fin 128) :
    ((outsAt2 V c 9 nine_lt).2.2 : S1x128.Idx → EReal) (ix2 0 q)
      = ∑ p : Fin 50000, mlp (V c main_v35) (V c main_v45) (V c main_arg8) (rowOf (V c main_v46)) (V c main_arg10) (rowOf (V c main_v47)) p q * mlp (V c main_v35) (V c main_v45) (V c main_arg8) (rowOf (V c main_v46)) (V c main_arg10) (rowOf (V c main_v47)) p q := by
  have hN : cfg2.N = 10 := N_2
  let a : ℕ → EReal := fun n => if h : n < cfg2.N then ((outsAt2 V c n h).2.2 : S1x128.Idx → EReal) (ix2 0 q) else 0
  have ha : ∀ n (h : n < cfg2.N), a n = ((outsAt2 V c n h).2.2 : S1x128.Idx → EReal) (ix2 0 q) := fun n h => dif_pos h
  have key := acc_rows (fun p => mlp (V c main_v35) (V c main_v45) (V c main_arg8) (rowOf (V c main_v46)) (V c main_arg10) (rowOf (V c main_v47)) p q * mlp (V c main_v35) (V c main_v45) (V c main_arg8) (rowOf (V c main_v46)) (V c main_arg10) (rowOf (V c main_v47)) p q) a
    (by rw [ha 0 (by omega)]; exact outs8_first V c ⟨0, by omega⟩ rfl q)
    (fun t ht => by
      rw [ha (t + 1) (by omega), ha t (by omega)]
      exact outs8_later V c ⟨t + 1, by omega⟩ (by dsimp only; omega) q)
  exact (ha 9 nine_lt).symm.trans key

end Accumulation

/-! ## The three result arrays after the region -/

section Final

variable (V : (c : Dev nD) → (b : Ref sig .tc) → Buf (Elt Ideal) ((c : Thread nD τ).loc b))

/-- What point `t` writes back to the activations' array is block `t` of the layer's activations. -/
theorem flushed6_eq (c : Dev nD) (t : Fin cfg2.N) :
    (dat2 V c).flushed 6 t = ((cfg2.win 6).blk t).view.read (Elt Ideal)
      (toArr (mlp (V c main_v35) (V c main_v45) (V c main_arg8) (rowOf (V c main_v46)) (V c main_arg10) (rowOf (V c main_v47)))) := by
  obtain ⟨-, -, -, -, -, -, ⟨e0, e1⟩, -⟩ := idx_facts t
  show (cfg2.win 6).cut (grid2.coords t) ((dat2 V c).after 6 t) = _
  rw [after2_6, outs6]
  funext j
  show k2_pay4 (F := Ideal) (iblk2 V c 0 t) (iblk2 V c 1 t) (iblk2 V c 2 t) (iblk2 V c 3 t) (iblk2 V c 4 t) (iblk2 V c 5 t) j
    = toArr (mlp (V c main_v35) (V c main_v45) (V c main_arg8) (rowOf (V c main_v46)) (V c main_arg10) (rowOf (V c main_v47))) (((cfg2.win 6).blk t).view.emb j)
  refine (congrArg (k2_pay4 (F := Ideal) (iblk2 V c 0 t) (iblk2 V c 1 t) (iblk2 V c 2 t) (iblk2 V c 3 t) (iblk2 V c 4 t) (iblk2 V c 5 t)) (eq_ix2 j)).trans ((block_z V c t (j 0) (j 1)).trans ?_)
  refine congrArg₂ (mlp (V c main_v35) (V c main_v45) (V c main_arg8) (rowOf (V c main_v46)) (V c main_arg10) (rowOf (V c main_v47))) (Fin.ext ?_) (Fin.ext ?_)
  · show t.val * 5000 + (j 0).val = win2_6.index t (0 : Fin 2) * 5000 + 1 * (j 0).val
    rw [e0]; omega
  · show (j 1).val = win2_6.index t (1 : Fin 2) * 128 + 1 * (j 1).val
    rw [e1]; omega

/-- An index of the activations' array is in point `t`'s block iff each coordinate is in the block's range. -/
theorem mem_blk6 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v48_0).slice (win2_6.rect t)).set ↔ _
  rw [View.set_slice_whole, Rect.mem_set_unit]
  exact Iff.rfl

/-- Row `p` lies in the block of point `p / 5000`. -/
theorem cover6 (i : S50000x128.Idx) :
    ∃ t : Fin cfg2.N, (cfg2.win 6).flush t = true ∧ i ∈ ((cfg2.win 6).blk t).view.set := by
  have hN : cfg2.N = 10 := N_2
  have hi0 : (i 0).val < 50000 := (i 0).isLt
  have hi1 : (i 1).val < 128 := (i 1).isLt
  refine ⟨⟨(i 0).val / 5000, by omega⟩, flush2_6 _, ?_⟩
  obtain ⟨-, -, -, -, -, -, ⟨e0, e1⟩, -⟩ := idx_facts ⟨(i 0).val / 5000, by omega⟩
  rw [mem_blk6]
  intro a
  match a with
  | ⟨0, _⟩ =>
    show win2_6.index _ (0 : Fin 2) * 5000 ≤ (i 0).val ∧ (i 0).val < win2_6.index _ (0 : Fin 2) * 5000 + 5000
    rw [e0]; dsimp only; omega
  | ⟨1, _⟩ =>
    show win2_6.index _ (1 : Fin 2) * 128 ≤ (i 1).val ∧ (i 1).val < win2_6.index _ (1 : Fin 2) * 128 + 128
    rw [e1]; omega

/-- The activations' array after the region: the layer's activations, row by row. -/
theorem region2_arr (c : Dev nD) :
    ((dat2 V c).arrAt 6 cfg2.N : S50000x128.Idx → EReal)
      = toArr (mlp (V c main_v35) (V c main_v45) (V c main_arg8) (rowOf (V c main_v46)) (V c main_arg10) (rowOf (V c main_v47))) :=
  (dat2 V c).arrAt_eq_of_cover 6 _ (fun t _ => flushed6_eq V c t) cover6

theorem region2_z (c : Dev nD) (p : Fin 50000) (q : Fin 128) :
    ((dat2 V c).arrAt 6 cfg2.N : S50000x128.Idx → EReal) (ix2 p q)
      = mlp (V c main_v35) (V c main_v45) (V c main_arg8) (rowOf (V c main_v46)) (V c main_arg10) (rowOf (V c main_v47)) p q :=
  (congrFun (region2_arr V c) (ix2 p q)).trans (toArr_apply _ p q)

/-- The one write-back of the column sums, at the last point, writes the whole [1,128] array. -/
theorem flushed7_eq (c : Dev nD) (t : Fin cfg2.N) (hf : (cfg2.win 7).flush t = true) :
    (dat2 V c).flushed 7 t = ((cfg2.win 7).blk t).view.read (Elt Ideal) ((outsAt2 V c 9 nine_lt).2.1) := by
  have hN : cfg2.N = 10 := N_2
  have h9 : t.val = 9 := by have := (flush2_7 t).mp hf; have := t.isLt; omega
  obtain rfl : t = t2_9 := Fin.ext h9
  show (cfg2.win 7).cut (grid2.coords t2_9) ((dat2 V c).after 7 t2_9) = _
  rw [after2_7]
  have hz' : (fun a => win2_7.index t2_9 a * main_v48_1.ty.shape.size a) = fun _ => 0 :=
    funext fun a => by fin_cases a <;> decide
  exact (Memref.read_access_unit_zero (Elt Ideal) main_v48_1 hz' (fun a => by rw [congrFun hz' a]; simp)
    ((outsAt2 V c 9 nine_lt).2.1)).symm

theorem flushed8_eq (c : Dev nD) (t : Fin cfg2.N) (hf : (cfg2.win 8).flush t = true) :
    (dat2 V c).flushed 8 t = ((cfg2.win 8).blk t).view.read (Elt Ideal) ((outsAt2 V c 9 nine_lt).2.2) := by
  have hN : cfg2.N = 10 := N_2
  have h9 : t.val = 9 := by have := (flush2_8 t).mp hf; have := t.isLt; omega
  obtain rfl : t = t2_9 := Fin.ext h9
  show (cfg2.win 8).cut (grid2.coords t2_9) ((dat2 V c).after 8 t2_9) = _
  rw [after2_8]
  have hz' : (fun a => win2_8.index t2_9 a * main_v48_2.ty.shape.size a) = fun _ => 0 :=
    funext fun a => by fin_cases a <;> decide
  exact (Memref.read_access_unit_zero (Elt Ideal) main_v48_2 hz' (fun a => by rw [congrFun hz' a]; simp)
    ((outsAt2 V c 9 nine_lt).2.2)).symm

/-- The last point's block of the column-sum array is the whole array. -/
theorem cover7 (i : S1x128.Idx) :
    ∃ t : Fin cfg2.N, (cfg2.win 7).flush t = true ∧ i ∈ ((cfg2.win 7).blk t).view.set := by
  refine ⟨t2_9, (flush2_7 t2_9).mpr rfl, ?_⟩
  show i ∈ ((View.whole main_v48_1).slice (win2_7.rect t2_9)).set
  rw [View.set_slice_whole, Rect.mem_set_unit]
  intro a
  have h0 : (i 0 : Nat) < 1 := (i 0).isLt
  have h1 : (i 1 : Nat) < 128 := (i 1).isLt
  match a with
  | ⟨0, _⟩ =>
    show win2_7.index t2_9 0 * win2_7.size 0 ≤ (i 0 : Nat) ∧ (i 0 : Nat) < win2_7.index t2_9 0 * win2_7.size 0 + win2_7.xsize (grid2.coords t2_9) 0
    rw [show win2_7.index t2_9 0 * win2_7.size 0 = 0 from by decide +kernel, show win2_7.xsize (grid2.coords t2_9) 0 = 1 from by decide +kernel]; omega
  | ⟨1, _⟩ =>
    show win2_7.index t2_9 1 * win2_7.size 1 ≤ (i 1 : Nat) ∧ (i 1 : Nat) < win2_7.index t2_9 1 * win2_7.size 1 + win2_7.xsize (grid2.coords t2_9) 1
    rw [show win2_7.index t2_9 1 * win2_7.size 1 = 0 from by decide +kernel, show win2_7.xsize (grid2.coords t2_9) 1 = 128 from by decide +kernel]; omega

theorem cover8 (i : S1x128.Idx) :
    ∃ t : Fin cfg2.N, (cfg2.win 8).flush t = true ∧ i ∈ ((cfg2.win 8).blk t).view.set := by
  refine ⟨t2_9, (flush2_8 t2_9).mpr rfl, ?_⟩
  show i ∈ ((View.whole main_v48_2).slice (win2_8.rect t2_9)).set
  rw [View.set_slice_whole, Rect.mem_set_unit]
  intro a
  have h0 : (i 0 : Nat) < 1 := (i 0).isLt
  have h1 : (i 1 : Nat) < 128 := (i 1).isLt
  match a with
  | ⟨0, _⟩ =>
    show win2_8.index t2_9 0 * win2_8.size 0 ≤ (i 0 : Nat) ∧ (i 0 : Nat) < win2_8.index t2_9 0 * win2_8.size 0 + win2_8.xsize (grid2.coords t2_9) 0
    rw [show win2_8.index t2_9 0 * win2_8.size 0 = 0 from by decide +kernel, show win2_8.xsize (grid2.coords t2_9) 0 = 1 from by decide +kernel]; omega
  | ⟨1, _⟩ =>
    show win2_8.index t2_9 1 * win2_8.size 1 ≤ (i 1 : Nat) ∧ (i 1 : Nat) < win2_8.index t2_9 1 * win2_8.size 1 + win2_8.xsize (grid2.coords t2_9) 1
    rw [show win2_8.index t2_9 1 * win2_8.size 1 = 0 from by decide +kernel, show win2_8.xsize (grid2.coords t2_9) 1 = 128 from by decide +kernel]; omega

/-- The column-sum array after the region: the activations summed over all 50000 rows, column by column. -/
theorem region2_sum (c : Dev nD) (q : Fin 128) :
    ((dat2 V c).arrAt 7 cfg2.N : S1x128.Idx → EReal) (ix2 0 q)
      = ∑ p : Fin 50000, mlp (V c main_v35) (V c main_v45) (V c main_arg8) (rowOf (V c main_v46)) (V c main_arg10) (rowOf (V c main_v47)) p q :=
  (congrFun ((dat2 V c).arrAt_eq_of_cover 7 ((outsAt2 V c 9 nine_lt).2.1) (flushed7_eq V c) cover7) (ix2 0 q)).trans
    (sums_last V c q)

/-- The sum-of-squares array after the region: the squared activations summed over all 50000 rows. -/
theorem region2_sumsq (c : Dev nD) (q : Fin 128) :
    ((dat2 V c).arrAt 8 cfg2.N : S1x128.Idx → EReal) (ix2 0 q)
      = ∑ p : Fin 50000, mlp (V c main_v35) (V c main_v45) (V c main_arg8) (rowOf (V c main_v46)) (V c main_arg10) (rowOf (V c main_v47)) p q * mlp (V c main_v35) (V c main_v45) (V c main_arg8) (rowOf (V c main_v46)) (V c main_arg10) (rowOf (V c main_v47)) p q :=
  (congrFun ((dat2 V c).arrAt_eq_of_cover 8 ((outsAt2 V c 9 nine_lt).2.2) (flushed8_eq V c) cover8) (ix2 0 q)).trans
    (sumsq_last V c q)

/-- The same three facts with the region's six input arrays named. -/
theorem region2_arr_of (c : Dev nD) (X A : Arr) (W1 W2 : Mat) (B1 B2 : Row1) (hX : V c main_v35 = X)
    (hA : V c main_v45 = A) (hW1 : V c main_arg8 = W1) (hB1 : V c main_v46 = B1) (hW2 : V c main_arg10 = W2)
    (hB2 : V c main_v47 = B2) :
    ((dat2 V c).arrAt 6 cfg2.N : S50000x128.Idx → EReal) = toArr (mlp X A W1 (rowOf B1) W2 (rowOf B2)) := by
  subst hX hA hW1 hB1 hW2 hB2
  exact region2_arr V c

theorem region2_sum_of (c : Dev nD) (X A : Arr) (W1 W2 : Mat) (B1 B2 : Row1) (hX : V c main_v35 = X)
    (hA : V c main_v45 = A) (hW1 : V c main_arg8 = W1) (hB1 : V c main_v46 = B1) (hW2 : V c main_arg10 = W2)
    (hB2 : V c main_v47 = B2) (q : Fin 128) :
    ((dat2 V c).arrAt 7 cfg2.N : S1x128.Idx → EReal) (ix2 0 q)
      = ∑ p : Fin 50000, mlp X A W1 (rowOf B1) W2 (rowOf B2) p q := by
  subst hX hA hW1 hB1 hW2 hB2
  exact region2_sum V c q

theorem region2_sumsq_of (c : Dev nD) (X A : Arr) (W1 W2 : Mat) (B1 B2 : Row1) (hX : V c main_v35 = X)
    (hA : V c main_v45 = A) (hW1 : V c main_arg8 = W1) (hB1 : V c main_v46 = B1) (hW2 : V c main_arg10 = W2)
    (hB2 : V c main_v47 = B2) (q : Fin 128) :
    ((dat2 V c).arrAt 8 cfg2.N : S1x128.Idx → EReal) (ix2 0 q)
      = ∑ p : Fin 50000, mlp X A W1 (rowOf B1) W2 (rowOf B2) p q * mlp X A W1 (rowOf B1) W2 (rowOf B2) p q := by
  subst hX hA hW1 hB1 hW2 hB2
  exact region2_sumsq V c q

end Final

end Cert.KernelIdeal.Region2Value

end
-- ==== Proof.Region1Value.lean ====
/-
  The normalise-and-clamp step of the first layer, read off the whole array.

  The step takes the activations `z` (50000 rows of 128), a scale row and a shift row (each kept as a 1×128 array)
  and writes `max (z · scale + shift, 0)`, the row broadcast down the 50000 rows. It is carried out in ten pieces:
  piece `t` handles rows `5000·t … 5000·t + 4999`, all 128 columns, and reads the two rows whole every time.
  Here the result array after the ten pieces is identified with ONE function `G` of the three input arrays, entry
  by entry: an entry `(p, q)` lies in exactly the piece `p / 5000`; inside that piece it is entry `(p mod 5000, q)`
  of the block, where the block of `z` holds `z (p, q)` and the two rows hold their column `q`. Nothing is assumed
  of the input arrays: they are whatever the step finds on entry.
-/
import proofs.«180482_j54571854463790_2_alg».proof.Proof.Gen.KernelIdeal.Frame
import proofs.«180482_j54571854463790_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Region1Value

open Idealize.ShloMosaic Idealize.ShloMosaic.TcCoe Idealize.SL.Sem
open Idealize.ShloMosaic.Pipeline (Dat)
open Idealize.ShloMosaic.ValueIdx
open Cert.KernelIdeal Cert.KernelIdeal.Gen

-- The arrays as the step finds them on entry: any contents at all.
variable (V : (c : Dev nD) → (b : Ref sig .tc) → Buf (Elt Ideal) ((c : Thread nD τ).loc b))

/-- The offset of a store or load that starts at the block's origin. -/
theorem hz : (![0, 0] : Fin 2 → Nat) = fun _ => 0 := funext fun a => by fin_cases a <;> rfl

/-- Scale, shift and clamp of a whole array by one row each: entry `(p, q)` is `max (z (p, q) · s (0, q) + b (0, q), 0)`. -/
def G (z : S50000x128.Idx → EReal) (s b : S1x128.Idx → EReal) : S50000x128.Idx → EReal := fun i =>
  max (z i * s (ix2 0 ⟨(i 1).val, (i 1).isLt⟩) + b (ix2 0 ⟨(i 1).val, (i 1).isLt⟩)) 0

/-- `G` at a pair of coordinates. -/
theorem G_apply (z : S50000x128.Idx → EReal) (s b : S1x128.Idx → EReal) (p : Fin 50000) (q : Fin 128) :
    G z s b (ix2 p q) = max (z (ix2 p q) * s (ix2 0 q) + b (ix2 0 q)) 0 := rfl

/-- An entry computed from reads at `i0`, `i1`, `i2` is `G` at `i3` when `i0` is `i3` and the two row reads are at
    `i3`'s column. -/
theorem blk_eq (z : S50000x128.Idx → EReal) (s b : S1x128.Idx → EReal) (i0 i3 : S50000x128.Idx) (i1 i2 : S1x128.Idx)
    (h0 : i0 = i3) (h1 : i1 = ix2 0 ⟨(i3 1).val, (i3 1).isLt⟩) (h2 : i2 = ix2 0 ⟨(i3 1).val, (i3 1).isLt⟩) :
    max (z i0 * s i1 + b i2) 0 = G z s b i3 := by
  subst h0 h1 h2; rfl

/-- One piece's arithmetic at an entry `(r, q)` of its 5000×128 block: the row operands are broadcast down the rows, so
    only their column `q` is read; the clamp is against the zero word, which denotes `0`. -/
theorem pay_apply (x0 : Vec Ideal S5000x128 .f32) (x1 x2 : Vec Ideal S1x128 .f32) (r : Fin 5000) (q : Fin 128) :
    (k1_pay1 x0 x1 x2 : S5000x128.Idx → EReal) (ix2 r q) = max (x0 (ix2 r q) * x1 (ix2 0 q) + x2 (ix2 0 q)) 0 := by
  unfold k1_pay1
  simp only [maximumf_apply, addf_apply, mulf_apply, broadcast_apply, shapeCast_self, broadcastTo_1b_ab_apply]
  exact congrArg _ Ideal.ofBits_zero_f32

/-- The same at any index of the block. -/
theorem pay_at (x0 : Vec Ideal S5000x128 .f32) (x1 x2 : Vec Ideal S1x128 .f32) (j : S5000x128.Idx) :
    (k1_pay1 x0 x1 x2 : S5000x128.Idx → EReal) j
      = max (x0 j * x1 (ix2 0 ⟨(j 1).val, (j 1).isLt⟩) + x2 (ix2 0 ⟨(j 1).val, (j 1).isLt⟩)) 0 := by
  obtain ⟨r, q, rfl⟩ : ∃ (r : Fin 5000) (q : Fin 128), j = ix2 r q := ⟨j 0, j 1, eq_ix2 j⟩
  exact pay_apply x0 x1 x2 r q

/-- Which block each operand's piece `t` is: the activations' and the result's block number `t` down the rows, the two
    rows' their only block. Decided over the ten pieces. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What piece `t` writes back is block `t` of `G` of the entry arrays: entry `j` of the block sits at row
    `5000·t + j₀`, column `j₁` of every 50000×128 array, and at column `j₁` of the rows. -/
theorem flushed_eq (c : Dev nD) (t : Fin cfg1.N) :
    (dat1 V c).flushed 3 t = ((cfg1.win 3).blk t).view.read (Elt Ideal) (G (V c main_v16_0) (V c main_v33) (V c main_v34)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e00, e01, e10, e11, e20, e21, e30, e31⟩ := idx_facts t
  funext j
  refine (pay_at (iblk1 V c 0 t) (iblk1 V c 1 t) (iblk1 V c 2 t) ((win1 3).xinj (grid1.coords t) j)).trans ?_
  have hj0 : (j 0).val < 5000 := (j 0).isLt
  have hj1 : (j 1).val < 128 := (j 1).isLt
  refine blk_eq (V c main_v16_0) (V c main_v33) (V c main_v34) (((cfg1.win 0).blk t).view.emb j) (((cfg1.win 3).blk t).view.emb j)
    (((cfg1.win 1).blk t).view.emb (ix2 (0 : Fin 1) (⟨(j 1).val, hj1⟩ : Fin 128)))
    (((cfg1.win 2).blk t).view.emb (ix2 (0 : Fin 1) (⟨(j 1).val, hj1⟩ : Fin 128))) ?_ ?_ ?_
  · funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  · funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the result array is in piece `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v35).slice (win1_3.rect t)).set ↔ _
  rw [View.set_slice_whole, Rect.mem_set_unit]
  exact Iff.rfl

/-- Every entry is written: row `p` belongs to piece `p / 5000`, and `50000 = 10 · 5000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e30, e31⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the ten pieces is `G` of the three arrays found on entry. -/
theorem final1 (c : Dev nD) : (dat1 V c).arrAt 3 cfg1.N = G (V c main_v16_0) (V c main_v33) (V c main_v34) :=
  (dat1 V c).arrAt_eq_of_cover 3 (G (V c main_v16_0) (V c main_v33) (V c main_v34)) (fun t _ => flushed_eq V c t) cover

/-- Entry by entry, with the three entry arrays named as functions. -/
theorem region1_apply (c : Dev nD) (z : S50000x128.Idx → EReal) (s b : S1x128.Idx → EReal)
    (hz : V c main_v16_0 = z) (hs : V c main_v33 = s) (hb : V c main_v34 = b) (p : Fin 50000) (q : Fin 128) :
    ((dat1 V c).arrAt 3 cfg1.N : S50000x128.Idx → EReal) (ix2 p q) = max (z (ix2 p q) * s (ix2 0 q) + b (ix2 0 q)) 0 := by
  subst hz hs hb
  rw [final1]
  rfl

end Cert.KernelIdeal.Region1Value

end
-- ==== Proof.Region3Value.lean ====
/-
  The normalise-and-clamp step of the second layer, read off the whole array.

  The second layer ends with the same step as the first, on its own arrays: activations `z` (50000 rows of 128), a
  scale row and a shift row, result `max (z · scale + shift, 0)`, carried out in ten pieces of 5000 rows. The result
  array after the ten pieces is the same function `G` of the three arrays found on entry as for the first layer, by the
  same argument: entry `(p, q)` lies in piece `p / 5000` only, and inside that piece the block of `z` holds `z (p, q)`
  and the two rows hold their column `q`.
-/
import proofs.«180482_j54571854463790_2_alg».proof.Proof.Gen.KernelIdeal.Frame
import proofs.«180482_j54571854463790_2_alg».proof.Proof.Region1Value
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Region3Value

open Idealize.ShloMosaic Idealize.ShloMosaic.TcCoe Idealize.SL.Sem
open Idealize.ShloMosaic.Pipeline (Dat)
open Idealize.ShloMosaic.ValueIdx
open Cert.KernelIdeal Cert.KernelIdeal.Gen
open Cert.KernelIdeal.Region1Value (G G_apply blk_eq hz)

-- The arrays as the step finds them on entry: any contents at all.
variable (V : (c : Dev nD) → (b : Ref sig .tc) → Buf (Elt Ideal) ((c : Thread nD τ).loc b))

/-- One piece's arithmetic at an entry `(r, q)` of its 5000×128 block: the row operands are broadcast down the rows, so
    only their column `q` is read; the clamp is against the zero word, which denotes `0`. -/
theorem pay_apply (x0 : Vec Ideal S5000x128 .f32) (x1 x2 : Vec Ideal S1x128 .f32) (r : Fin 5000) (q : Fin 128) :
    (k3_pay1 x0 x1 x2 : S5000x128.Idx → EReal) (ix2 r q) = max (x0 (ix2 r q) * x1 (ix2 0 q) + x2 (ix2 0 q)) 0 := by
  unfold k3_pay1
  simp only [maximumf_apply, addf_apply, mulf_apply, broadcast_apply, shapeCast_self, broadcastTo_1b_ab_apply]
  exact congrArg _ Ideal.ofBits_zero_f32

/-- The same at any index of the block. -/
theorem pay_at (x0 : Vec Ideal S5000x128 .f32) (x1 x2 : Vec Ideal S1x128 .f32) (j : S5000x128.Idx) :
    (k3_pay1 x0 x1 x2 : S5000x128.Idx → EReal) j
      = max (x0 j * x1 (ix2 0 ⟨(j 1).val, (j 1).isLt⟩) + x2 (ix2 0 ⟨(j 1).val, (j 1).isLt⟩)) 0 := by
  obtain ⟨r, q, rfl⟩ : ∃ (r : Fin 5000) (q : Fin 128), j = ix2 r q := ⟨j 0, j 1, eq_ix2 j⟩
  exact pay_apply x0 x1 x2 r q

/-- Which block each operand's piece `t` is: the activations' and the result's block number `t` down the rows, the two
    rows' their only block. Decided over the ten pieces. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What piece `t` writes back is block `t` of `G` of the entry arrays: entry `j` of the block sits at row
    `5000·t + j₀`, column `j₁` of every 50000×128 array, and at column `j₁` of the rows. -/
theorem flushed_eq (c : Dev nD) (t : Fin cfg3.N) :
    (dat3 V c).flushed 3 t = ((cfg3.win 3).blk t).view.read (Elt Ideal) (G (V c main_v48_0) (V c main_v65) (V c main_v66)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨e00, e01, e10, e11, e20, e21, e30, e31⟩ := idx_facts t
  funext j
  refine (pay_at (iblk3 V c 0 t) (iblk3 V c 1 t) (iblk3 V c 2 t) ((win3 3).xinj (grid3.coords t) j)).trans ?_
  have hj0 : (j 0).val < 5000 := (j 0).isLt
  have hj1 : (j 1).val < 128 := (j 1).isLt
  refine blk_eq (V c main_v48_0) (V c main_v65) (V c main_v66) (((cfg3.win 0).blk t).view.emb j) (((cfg3.win 3).blk t).view.emb j)
    (((cfg3.win 1).blk t).view.emb (ix2 (0 : Fin 1) (⟨(j 1).val, hj1⟩ : Fin 128)))
    (((cfg3.win 2).blk t).view.emb (ix2 (0 : Fin 1) (⟨(j 1).val, hj1⟩ : Fin 128))) ?_ ?_ ?_
  · funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  · funext a; apply Fin.ext
    match a with
    | ⟨0, _⟩ => show win3_1.index t (0 : Fin 2) * 1 + 1 * 0 = 0; omega
    | ⟨1, _⟩ => show win3_1.index t (1 : Fin 2) * 128 + 1 * (j 1).val = win3_3.index t (1 : Fin 2) * 128 + 1 * (j 1).val; omega
  · funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega

/-- An index of the result array is in piece `t`'s block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v67).slice (win3_3.rect t)).set ↔ _
  rw [View.set_slice_whole, Rect.mem_set_unit]
  exact Iff.rfl

/-- Every entry is written: row `p` belongs to piece `p / 5000`, and `50000 = 10 · 5000`. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, e30, e31⟩ := idx_facts t
  have ht : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The result array after the ten pieces is `G` of the three arrays found on entry. -/
theorem final3 (c : Dev nD) : (dat3 V c).arrAt 3 cfg3.N = G (V c main_v48_0) (V c main_v65) (V c main_v66) :=
  (dat3 V c).arrAt_eq_of_cover 3 (G (V c main_v48_0) (V c main_v65) (V c main_v66)) (fun t _ => flushed_eq V c t) cover

/-- Entry by entry, with the three entry arrays named as functions. -/
theorem region3_apply (c : Dev nD) (z : S50000x128.Idx → EReal) (s b : S1x128.Idx → EReal)
    (hz : V c main_v48_0 = z) (hs : V c main_v65 = s) (hb : V c main_v66 = b) (p : Fin 50000) (q : Fin 128) :
    ((dat3 V c).arrAt 3 cfg3.N : S50000x128.Idx → EReal) (ix2 p q) = max (z (ix2 p q) * s (ix2 0 q) + b (ix2 0 q)) 0 := by
  subst hz hs hb
  rw [final3]
  rfl

end Cert.KernelIdeal.Region3Value

end
-- ==== Proof.KernelValue.lean ====
/-
  The idealized kernel program's result as a function of its arguments. Reading the program's boundaries in order:
  the first stretch aggregates the input features and lays out the biases; the first accumulating region writes the
  layer's pre-normalisation activations `Z` block by block and leaves the column sums of `Z` and of `Z²`; the next
  stretch turns the sums into the scale and shift rows; the pointwise region writes `max (Z · scale + shift, 0)`,
  which is the one-pass batch normalisation of `Z`; the second layer repeats this on the first layer's output. So the
  result is two layers of perceptron-then-one-pass-normalisation applied to the arguments.
-/
import proofs.«180482_j54571854463790_2_alg».proof.Proof.Gen.KernelIdeal.Frame
import proofs.«180482_j54571854463790_2_alg».proof.Proof.Spec
import proofs.«180482_j54571854463790_2_alg».proof.Proof.Agg
import proofs.«180482_j54571854463790_2_alg».proof.Proof.KernelHost
import proofs.«180482_j54571854463790_2_alg».proof.Proof.KernelAgg
import proofs.«180482_j54571854463790_2_alg».proof.Proof.KernelKeep
import proofs.«180482_j54571854463790_2_alg».proof.Proof.Region0Value
import proofs.«180482_j54571854463790_2_alg».proof.Proof.Region2Value
import proofs.«180482_j54571854463790_2_alg».proof.Proof.Region3Value
import proofs.«180482_j54571854463790_2_alg».proof.Proof.Region1Value

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx
open Cert.Gin Cert.KernelIdeal.AggValue

variable (m : (ℓ : Loc nD τ sig) → Buf (Elt Ideal) ℓ) (ρ : Dev nD → PrngReg) (c : Dev nD)

/-! ## The first layer -/

/-- The first layer's pre-normalisation activations. -/
def Z1 : Tab := mlp (m ((c : Thread nD τ).loc main_arg0)) (aggOf (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))

/-- The first layer's output. -/
def H1 : Arr := toArr (bnOnePass (Z1 m c) (m ((c : Thread nD τ).loc main_arg6)) (m ((c : Thread nD τ).loc main_arg7)))

theorem V1_v13 : V1 m ρ c main_v13 = aggOf (m ((c : Thread nD τ).loc main_arg0)) (m ((c : Thread nD τ).loc main_arg1)) :=
  (v13_eq m ρ c).trans (kAgg_eq_aggOf _ _)

theorem V1_v14 : V1 m ρ c main_v14 = shapeCast S1x128 (m ((c : Thread nD τ).loc main_arg3)) shapeCasts_S128_S1x128 := v14_eq m ρ c

theorem V1_v15 : V1 m ρ c main_v15 = shapeCast S1x128 (m ((c : Thread nD τ).loc main_arg5)) shapeCasts_S128_S1x128 := v15_eq m ρ c

/-- The first accumulating region leaves the activations … -/
theorem W2_z : W2 m ρ c (Proc.devRef .tc main_v16_0) = toArr (Z1 m c) := by
  refine (W2_arr m ρ c 6).trans ?_
  refine (Region0Value.region0_arr_of (V1 m ρ) c _ _ _ _ _ _ (Keep.W1_arg0 m ρ c) (V1_v13 m ρ c) (Keep.W1_arg2 m ρ c)
    (V1_v14 m ρ c) (Keep.W1_arg4 m ρ c) (V1_v15 m ρ c)).trans ?_
  rw [rowOf_shapeCast, rowOf_shapeCast]
  rfl

/-- … their column sums … -/
theorem W2_s1 (q : Fin 128) :
    (W2 m ρ c (Proc.devRef .tc main_v16_1) : S1x128.Idx → EReal) (ix2 0 q) = ∑ p : Fin 50000, Z1 m c p q := by
  refine (congrFun (W2_arr m ρ c 7) (ix2 0 q)).trans ?_
  refine (Region0Value.region0_sum_of (V1 m ρ) c _ _ _ _ _ _ (Keep.W1_arg0 m ρ c) (V1_v13 m ρ c) (Keep.W1_arg2 m ρ c)
    (V1_v14 m ρ c) (Keep.W1_arg4 m ρ c) (V1_v15 m ρ c) q).trans ?_
  rw [rowOf_shapeCast, rowOf_shapeCast]
  rfl

/-- … and the column sums of their squares. -/
theorem W2_s2 (q : Fin 128) :
    (W2 m ρ c (Proc.devRef .tc main_v16_2) : S1x128.Idx → EReal) (ix2 0 q) = ∑ p : Fin 50000, Z1 m c p q * Z1 m c p q := by
  refine (congrFun (W2_arr m ρ c 8) (ix2 0 q)).trans ?_
  refine (Region0Value.region0_sumsq_of (V1 m ρ) c _ _ _ _ _ _ (Keep.W1_arg0 m ρ c) (V1_v13 m ρ c) (Keep.W1_arg2 m ρ c)
    (V1_v14 m ρ c) (Keep.W1_arg4 m ρ c) (V1_v15 m ρ c) q).trans ?_
  rw [rowOf_shapeCast, rowOf_shapeCast]
  rfl

/-- The first pointwise region leaves the first layer's output. -/
theorem W4_h : W4 m ρ c (Proc.devRef .tc main_v35) = H1 m c := by
  refine (W4_arr m ρ c 3).trans ((Region1Value.final1 (V3 m ρ) c).trans ?_)
  refine eq_toArr fun p q => ?_
  rw [Region1Value.G_apply,
    show V3 m ρ c main_v16_0 = toArr (Z1 m c) from (Keep.W3_v16_0 m ρ c).trans (W2_z m ρ c),
    show V3 m ρ c main_v33 = _ from v33_eq m ρ c, show V3 m ρ c main_v34 = _ from v34_eq m ρ c,
    toArr_apply, Keep.W2_arg6, Keep.W2_arg7]
  exact onePass_of_stats (Z1 m c) _ _ _ _ (W2_s1 m ρ c) (W2_s2 m ρ c) p q

/-! ## The second layer -/

/-- The second layer's pre-normalisation activations. -/
def Z2 : Tab := mlp (H1 m c) (aggOf (H1 m c) (m ((c : Thread nD τ).loc main_arg1))) (m ((c : Thread nD τ).loc main_arg8)) (m ((c : Thread nD τ).loc main_arg9)) (m ((c : Thread nD τ).loc main_arg10)) (m ((c : Thread nD τ).loc main_arg11))

theorem V5_v35 : V5 m ρ c main_v35 = H1 m c := (Keep.W5_v35 m ρ c).trans (W4_h m ρ c)

theorem V5_v45 : V5 m ρ c main_v45 = aggOf (H1 m c) (m ((c : Thread nD τ).loc main_arg1)) := by
  refine (v45_eq m ρ c).trans ?_
  rw [W4_h, show W4 m ρ c (Proc.devRef .tc main_v1) = srcVec (m ((c : Thread nD τ).loc main_arg1)) from (Keep.W4_v1 m ρ c).trans (v1_eq m ρ c),
    show W4 m ρ c (Proc.devRef .tc main_v3) = dstVec (m ((c : Thread nD τ).loc main_arg1)) from (Keep.W4_v3 m ρ c).trans (v3_eq m ρ c)]
  exact kAgg_eq_aggOf _ _

theorem V5_v46 : V5 m ρ c main_v46 = shapeCast S1x128 (m ((c : Thread nD τ).loc main_arg9)) shapeCasts_S128_S1x128 := by
  refine (v46_eq m ρ c).trans ?_
  rw [Keep.W4_arg9]

theorem V5_v47 : V5 m ρ c main_v47 = shapeCast S1x128 (m ((c : Thread nD τ).loc main_arg11)) shapeCasts_S128_S1x128 := by
  refine (v47_eq m ρ c).trans ?_
  rw [Keep.W4_arg11]

theorem W6_z : W6 m ρ c (Proc.devRef .tc main_v48_0) = toArr (Z2 m c) := by
  refine (W6_arr m ρ c 6).trans ?_
  refine (Region2Value.region2_arr_of (V5 m ρ) c _ _ _ _ _ _ (V5_v35 m ρ c) (V5_v45 m ρ c) (Keep.W5_arg8 m ρ c)
    (V5_v46 m ρ c) (Keep.W5_arg10 m ρ c) (V5_v47 m ρ c)).trans ?_
  rw [rowOf_shapeCast, rowOf_shapeCast]
  rfl

theorem W6_s1 (q : Fin 128) :
    (W6 m ρ c (Proc.devRef .tc main_v48_1) : S1x128.Idx → EReal) (ix2 0 q) = ∑ p : Fin 50000, Z2 m c p q := by
  refine (congrFun (W6_arr m ρ c 7) (ix2 0 q)).trans ?_
  refine (Region2Value.region2_sum_of (V5 m ρ) c _ _ _ _ _ _ (V5_v35 m ρ c) (V5_v45 m ρ c) (Keep.W5_arg8 m ρ c)
    (V5_v46 m ρ c) (Keep.W5_arg10 m ρ c) (V5_v47 m ρ c) q).trans ?_
  rw [rowOf_shapeCast, rowOf_shapeCast]
  rfl

theorem W6_s2 (q : Fin 128) :
    (W6 m ρ c (Proc.devRef .tc main_v48_2) : S1x128.Idx → EReal) (ix2 0 q) = ∑ p : Fin 50000, Z2 m c p q * Z2 m c p q := by
  refine (congrFun (W6_arr m ρ c 8) (ix2 0 q)).trans ?_
  refine (Region2Value.region2_sumsq_of (V5 m ρ) c _ _ _ _ _ _ (V5_v35 m ρ c) (V5_v45 m ρ c) (Keep.W5_arg8 m ρ c)
    (V5_v46 m ρ c) (Keep.W5_arg10 m ρ c) (V5_v47 m ρ c) q).trans ?_
  rw [rowOf_shapeCast, rowOf_shapeCast]
  rfl

/-- The program's result: two layers of perceptron and one-pass batch normalisation of the arguments. -/
theorem kernel_value :
    W8 m ρ c (Proc.devRef .tc main_v67)
      = toArr (bnOnePass
          (mlp (toArr (bnOnePass (mlp (m ((c : Thread nD τ).loc main_arg0)) (aggOf (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7))))
            (aggOf (toArr (bnOnePass (mlp (m ((c : Thread nD τ).loc main_arg0)) (aggOf (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)))) (m ((c : Thread nD τ).loc main_arg1)))
            (m ((c : Thread nD τ).loc main_arg8)) (m ((c : Thread nD τ).loc main_arg9)) (m ((c : Thread nD τ).loc main_arg10)) (m ((c : Thread nD τ).loc main_arg11)))
          (m ((c : Thread nD τ).loc main_arg12)) (m ((c : Thread nD τ).loc main_arg13))) := by
  show _ = toArr (bnOnePass (Z2 m c) _ _)
  refine (W8_arr m ρ c 3).trans ((Region3Value.final3 (V7 m ρ) c).trans ?_)
  refine eq_toArr fun p q => ?_
  rw [Region1Value.G_apply,
    show V7 m ρ c main_v48_0 = toArr (Z2 m c) from (Keep.W7_v48_0 m ρ c).trans (W6_z m ρ c),
    show V7 m ρ c main_v65 = _ from v65_eq m ρ c, show V7 m ρ c main_v66 = _ from v66_eq m ρ c,
    toArr_apply, Keep.W6_arg12, Keep.W6_arg13]
  exact onePass_of_stats (Z2 m c) _ _ _ _ (W6_s1 m ρ c) (W6_s2 m ρ c) p q

end Cert.KernelIdeal.HostValue

end
-- ==== Proof.RefValue.lean ====
/-
  The value of the reference program, as mathematics. The reference is two message-passing layers. Each layer adds
  to the node features their neighbour aggregate, applies a two-layer perceptron (a product with a 128×128 matrix, a
  bias row, a clamp at zero, a second product and bias row), and normalises every column over the 50000 nodes in the
  two-pass way: subtract the column mean, multiply by the reciprocal square root of the mean squared deviation plus ε,
  multiply by a gain row, add an offset row, clamp at zero.

  The aggregate is never opened: the reference computes it with the operations `aggOf` names, on the features and the
  edge list (`agg1`, `agg2`: the two sides are the same term). Everything after it depends on one entry of each
  operand, or is a sum over a column or over a contraction axis, so each stage is read at a pair of coordinates
  `ix2 p q` (a row at `ix1 q`): the index maps of the reads are identified coordinate by coordinate, a sum's initial
  zero is dropped, and the float operations are the extended reals' own. The stages up to the perceptron's output are
  read first (`l1_mlp_at`, `l2_mlp_at`); the normalisation stages are then read over an arbitrary table `z` that the
  perceptron's output is known to hold (`l1_out_at`, `l2_out_at`). `layer1` and `layer2` put the two together, and
  `result` states the value of the run's result buffer in terms of the program's fourteen arguments. The two constants
  (the number of nodes and ε) enter only as the extended reals their single-precision words denote, the same on both
  sides of every equation.
-/
import proofs.«180482_j54571854463790_2_alg».proof.Proof.Gen.ReferenceIdeal.Read
import proofs.«180482_j54571854463790_2_alg».proof.Proof.Spec
import proofs.«180482_j54571854463790_2_alg».proof.Proof.Agg

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Gin

/-- Node features or activations: 50000 rows of 128. -/
abbrev TArr := (⟨S50000x128, .f32⟩ : BufTy).Contents (Elt Ideal)
/-- The edge list: two rows of 800000 node numbers. -/
abbrev TEdge := (⟨S2x800000, .i32⟩ : BufTy).Contents (Elt Ideal)
/-- A 128×128 weight matrix. -/
abbrev TMat := (⟨S128x128, .f32⟩ : BufTy).Contents (Elt Ideal)
/-- A row of 128 entries. -/
abbrev TRow := (⟨S128, .f32⟩ : BufTy).Contents (Elt Ideal)

/-! ### The aggregate is one function of the features and the edge list -/

/-- The first layer's aggregate is `aggOf` of the input features. -/
theorem agg1 (x0 : TArr) (x1 : TEdge) : val_main_v13 (F := Ideal) x0 x1 = aggOf x0 x1 := rfl

/-- The second layer's aggregate is `aggOf` of the first layer's output: the same index arithmetic on the same edge
    list, the same zero array, the same gather and scatter-add. -/
theorem agg2 (x0 : TArr) (x1 : TEdge) (x2 : TMat) (x3 : TRow) (x4 : TMat) (x5 x6 x7 : TRow) :
    val_main_v59 (F := Ideal) x0 x1 x2 x3 x4 x5 x6 x7 = aggOf (val_main_v49 (F := Ideal) x0 x1 x2 x3 x4 x5 x6 x7) x1 := rfl

section Layers
variable (x0 : TArr) (x1 : TEdge) (x2 : TMat) (x3 : TRow) (x4 : TMat) (x5 x6 x7 : TRow)

/-! ### The first layer -/

/-- The perceptron's input at a node and a feature: the features plus their aggregate. -/
theorem l1_sum_at (p : Fin 50000) (d : Fin 128) :
    val_main_v14 (F := Ideal) x0 x1 (ix2 p d) = x0 (ix2 p d) + (aggOf x0 x1) (ix2 p d) := by
  rw [val_main_v14_apply, agg1, Ideal.addf_def]

/-- The first product at a node and a hidden unit. -/
theorem l1_dot1_at (p : Fin 50000) (c : Fin 128) :
    val_main_v15 (F := Ideal) x0 x1 x2 (ix2 p c) = ∑ d : Fin 128, (x0 (ix2 p d) + (aggOf x0 x1) (ix2 p d)) * x2 (ix2 d c) := by
  rw [val_main_v15_apply]
  refine Finset.sum_congr rfl fun d _ => ?_
  have el : lidx_main_v15 (ix2 p c) d = ix2 p d := funext fun a => by
    match a with
    | ⟨0, _⟩ => rfl
    | ⟨1, _⟩ => rfl
  have er : ridx_main_v15 (ix2 p c) d = ix2 d c := funext fun a => by
    match a with
    | ⟨0, _⟩ => rfl
    | ⟨1, _⟩ => rfl
  rw [el, er, l1_sum_at]

/-- The first bias row, broadcast over the nodes. -/
theorem l1_bias1_at (p : Fin 50000) (c : Fin 128) : val_main_v17 (F := Ideal) x3 (ix2 p c) = x3 (ix1 c) := by
  rw [val_main_v17_apply, val_main_v16_apply]
  refine congrArg x3 (funext fun a => ?_)
  match a with
  | ⟨0, _⟩ => rfl

/-- The hidden activations after the clamp at zero. -/
theorem l1_hidden_at (p : Fin 50000) (c : Fin 128) :
    val_main_v19 (F := Ideal) x0 x1 x2 x3 (ix2 p c)
      = max ((∑ d : Fin 128, (x0 (ix2 p d) + (aggOf x0 x1) (ix2 p d)) * x2 (ix2 d c)) + x3 (ix1 c)) 0 := by
  rw [val_main_v19_apply, val_main_v18_apply, l1_dot1_at, l1_bias1_at, val_main_call0_v0_apply, val_main_call0_cst_apply,
    Ideal.ofBits_def, Ideal.ofBits_zero_f32, Ideal.addf_def, Ideal.maximumf_def]

/-- The second bias row, broadcast over the nodes. -/
theorem l1_bias2_at (p : Fin 50000) (q : Fin 128) : val_main_v22 (F := Ideal) x5 (ix2 p q) = x5 (ix1 q) := by
  rw [val_main_v22_apply, val_main_v21_apply]
  refine congrArg x5 (funext fun a => ?_)
  match a with
  | ⟨0, _⟩ => rfl

/-- The pre-normalisation activations are the layer's perceptron. -/
theorem l1_mlp_at (p : Fin 50000) (q : Fin 128) :
    val_main_v23 (F := Ideal) x0 x1 x2 x3 x4 x5 (ix2 p q) = (mlp x0 (aggOf x0 x1) x2 x3 x4 x5) p q := by
  rw [val_main_v23_apply, val_main_v20_apply, l1_bias2_at, Ideal.addf_def]
  unfold mlp
  refine congrArg (· + x5 (ix1 q)) ?_
  refine Finset.sum_congr rfl fun c _ => ?_
  have el : lidx_main_v20 (ix2 p q) c = ix2 p c := funext fun a => by
    match a with
    | ⟨0, _⟩ => rfl
    | ⟨1, _⟩ => rfl
  have er : ridx_main_v20 (ix2 p q) c = ix2 c q := funext fun a => by
    match a with
    | ⟨0, _⟩ => rfl
    | ⟨1, _⟩ => rfl
  rw [el, er, l1_hidden_at]

section Norm
variable (z : Tab) (hz : ∀ p q, val_main_v23 (F := Ideal) x0 x1 x2 x3 x4 x5 (ix2 p q) = z p q)
include hz

/-- The column sums. -/
theorem l1_colsum_at (q : Fin 128) : val_main_v24 (F := Ideal) x0 x1 x2 x3 x4 x5 (ix1 q) = ∑ p : Fin 50000, z p q := by
  rw [val_main_v24_apply, val_main_cst_1_apply, Ideal.ofBits_def, Ideal.ofBits_zero_f32, zero_add]
  refine Finset.sum_congr rfl fun k _ => ?_
  have e : idx_main_v24 (ix1 q) k = ix2 k q := funext fun a => by
    match a with
    | ⟨0, _⟩ => rfl
    | ⟨1, _⟩ => rfl
  rw [e, hz]

/-- The column means. -/
theorem l1_mean_at (q : Fin 128) : val_main_v26 (F := Ideal) x0 x1 x2 x3 x4 x5 (ix1 q) = mean z q := by
  rw [val_main_v26_apply, l1_colsum_at x0 x1 x2 x3 x4 x5 z hz, val_main_v25_apply, val_main_cst_2_apply, Ideal.ofBits_def, Ideal.hostDivf_def]
  rfl

/-- The means broadcast over the nodes (first copy). -/
theorem l1_meanA_at (p : Fin 50000) (q : Fin 128) : val_main_v28 (F := Ideal) x0 x1 x2 x3 x4 x5 (ix2 p q) = mean z q := by
  rw [val_main_v28_apply, val_main_v27_apply]
  have e : idx_main_v27 (idx_main_v28 (ix2 p q)) = ix1 q := funext fun a => by
    match a with
    | ⟨0, _⟩ => rfl
  rw [e, l1_mean_at x0 x1 x2 x3 x4 x5 z hz]

/-- The means broadcast over the nodes (second copy). -/
theorem l1_meanB_at (p : Fin 50000) (q : Fin 128) : val_main_v35 (F := Ideal) x0 x1 x2 x3 x4 x5 (ix2 p q) = mean z q := by
  rw [val_main_v35_apply, val_main_v34_apply]
  have e : idx_main_v34 (idx_main_v35 (ix2 p q)) = ix1 q := funext fun a => by
    match a with
    | ⟨0, _⟩ => rfl
  rw [e, l1_mean_at x0 x1 x2 x3 x4 x5 z hz]

/-- The sums of squared deviations. -/
theorem l1_sqsum_at (q : Fin 128) :
    val_main_v31 (F := Ideal) x0 x1 x2 x3 x4 x5 (ix1 q) = ∑ p : Fin 50000, (z p q - mean z q) * (z p q - mean z q) := by
  rw [val_main_v31_apply, val_main_cst_3_apply, Ideal.ofBits_def, Ideal.ofBits_zero_f32, zero_add]
  refine Finset.sum_congr rfl fun k _ => ?_
  have e : idx_main_v31 (ix1 q) k = ix2 k q := funext fun a => by
    match a with
    | ⟨0, _⟩ => rfl
    | ⟨1, _⟩ => rfl
  rw [e, val_main_v30_apply, val_main_v29_apply, hz, l1_meanA_at x0 x1 x2 x3 x4 x5 z hz, Ideal.subf_def, Ideal.mulf_def]

/-- The reciprocal square root of the variance plus ε. -/
theorem l1_rstd_at (q : Fin 128) : val_main_v39 (F := Ideal) x0 x1 x2 x3 x4 x5 (ix1 q) = Ideal.rsqrt (var2 z q + eps) := by
  rw [val_main_v39_apply, val_main_v38_apply, val_main_v33_apply, l1_sqsum_at x0 x1 x2 x3 x4 x5 z hz, val_main_v32_apply, val_main_cst_4_apply,
    val_main_v37_apply, val_main_cst_5_apply, Ideal.ofBits_def, Ideal.ofBits_def, Ideal.hostDivf_def, Ideal.addf_def,
    Ideal.hostUnary_rsqrt_def]
  rfl

/-- The reciprocal square root broadcast over the nodes. -/
theorem l1_rstdB_at (p : Fin 50000) (q : Fin 128) :
    val_main_v41 (F := Ideal) x0 x1 x2 x3 x4 x5 (ix2 p q) = Ideal.rsqrt (var2 z q + eps) := by
  rw [val_main_v41_apply, val_main_v40_apply]
  have e : idx_main_v40 (idx_main_v41 (ix2 p q)) = ix1 q := funext fun a => by
    match a with
    | ⟨0, _⟩ => rfl
  rw [e, l1_rstd_at x0 x1 x2 x3 x4 x5 z hz]

omit hz in
/-- The gain row, broadcast over the nodes. -/
theorem l1_gain_at (p : Fin 50000) (q : Fin 128) : val_main_v44 (F := Ideal) x6 (ix2 p q) = x6 (ix1 q) := by
  rw [val_main_v44_apply, val_main_v43_apply]
  refine congrArg x6 (funext fun a => ?_)
  match a with
  | ⟨0, _⟩ => rfl

omit hz in
/-- The offset row, broadcast over the nodes. -/
theorem l1_offset_at (p : Fin 50000) (q : Fin 128) : val_main_v47 (F := Ideal) x7 (ix2 p q) = x7 (ix1 q) := by
  rw [val_main_v47_apply, val_main_v46_apply]
  refine congrArg x7 (funext fun a => ?_)
  match a with
  | ⟨0, _⟩ => rfl

/-- The layer's output at a node and a feature is the two-pass normalisation of its activations, clamped at zero. -/
theorem l1_out_at (p : Fin 50000) (q : Fin 128) :
    val_main_v49 (F := Ideal) x0 x1 x2 x3 x4 x5 x6 x7 (ix2 p q) = bnTwoPass z x6 x7 p q := by
  rw [val_main_v49_apply, val_main_v48_apply, val_main_v45_apply, val_main_v42_apply, val_main_v36_apply, hz, l1_meanB_at x0 x1 x2 x3 x4 x5 z hz,
    l1_rstdB_at x0 x1 x2 x3 x4 x5 z hz, l1_gain_at, l1_offset_at, val_main_call1_v0_apply, val_main_call1_cst_apply,
    Ideal.ofBits_def, Ideal.ofBits_zero_f32, Ideal.subf_def, Ideal.mulf_def, Ideal.mulf_def, Ideal.addf_def, Ideal.maximumf_def]
  rfl

end Norm

/-- THE FIRST LAYER: its output array is the two-pass normalisation of the perceptron of the features and their
    aggregate. -/
theorem layer1 :
    val_main_v49 (F := Ideal) x0 x1 x2 x3 x4 x5 x6 x7 = toArr (bnTwoPass (mlp x0 (aggOf x0 x1) x2 x3 x4 x5) x6 x7) :=
  eq_toArr fun p q => l1_out_at x0 x1 x2 x3 x4 x5 x6 x7 _ (l1_mlp_at x0 x1 x2 x3 x4 x5) p q

variable (x8 : TMat) (x9 : TRow) (x10 : TMat) (x11 x12 x13 : TRow)

/-! ### The second layer -/

/-- The perceptron's input at a node and a feature: the features plus their aggregate. -/
theorem l2_sum_at (p : Fin 50000) (d : Fin 128) :
    val_main_v60 (F := Ideal) x0 x1 x2 x3 x4 x5 x6 x7 (ix2 p d) = (val_main_v49 (F := Ideal) x0 x1 x2 x3 x4 x5 x6 x7) (ix2 p d) + (aggOf (val_main_v49 (F := Ideal) x0 x1 x2 x3 x4 x5 x6 x7) x1) (ix2 p d) := by
  rw [val_main_v60_apply, agg2, Ideal.addf_def]

/-- The first product at a node and a hidden unit. -/
theorem l2_dot1_at (p : Fin 50000) (c : Fin 128) :
    val_main_v61 (F := Ideal) x0 x1 x2 x3 x4 x5 x6 x7 x8 (ix2 p c) = ∑ d : Fin 128, ((val_main_v49 (F := Ideal) x0 x1 x2 x3 x4 x5 x6 x7) (ix2 p d) + (aggOf (val_main_v49 (F := Ideal) x0 x1 x2 x3 x4 x5 x6 x7) x1) (ix2 p d)) * x8 (ix2 d c) := by
  rw [val_main_v61_apply]
  refine Finset.sum_congr rfl fun d _ => ?_
  have el : lidx_main_v61 (ix2 p c) d = ix2 p d := funext fun a => by
    match a with
    | ⟨0, _⟩ => rfl
    | ⟨1, _⟩ => rfl
  have er : ridx_main_v61 (ix2 p c) d = ix2 d c := funext fun a => by
    match a with
    | ⟨0, _⟩ => rfl
    | ⟨1, _⟩ => rfl
  rw [el, er, l2_sum_at]

/-- The first bias row, broadcast over the nodes. -/
theorem l2_bias1_at (p : Fin 50000) (c : Fin 128) : val_main_v63 (F := Ideal) x9 (ix2 p c) = x9 (ix1 c) := by
  rw [val_main_v63_apply, val_main_v62_apply]
  refine congrArg x9 (funext fun a => ?_)
  match a with
  | ⟨0, _⟩ => rfl

/-- The hidden activations after the clamp at zero. -/
theorem l2_hidden_at (p : Fin 50000) (c : Fin 128) :
    val_main_v65 (F := Ideal) x0 x1 x2 x3 x4 x5 x6 x7 x8 x9 (ix2 p c)
      = max ((∑ d : Fin 128, ((val_main_v49 (F := Ideal) x0 x1 x2 x3 x4 x5 x6 x7) (ix2 p d) + (aggOf (val_main_v49 (F := Ideal) x0 x1 x2 x3 x4 x5 x6 x7) x1) (ix2 p d)) * x8 (ix2 d c)) + x9 (ix1 c)) 0 := by
  rw [val_main_v65_apply, val_main_v64_apply, l2_dot1_at, l2_bias1_at, val_main_call2_v0_apply, val_main_call2_cst_apply,
    Ideal.ofBits_def, Ideal.ofBits_zero_f32, Ideal.addf_def, Ideal.maximumf_def]

/-- The second bias row, broadcast over the nodes. -/
theorem l2_bias2_at (p : Fin 50000) (q : Fin 128) : val_main_v68 (F := Ideal) x11 (ix2 p q) = x11 (ix1 q) := by
  rw [val_main_v68_apply, val_main_v67_apply]
  refine congrArg x11 (funext fun a => ?_)
  match a with
  | ⟨0, _⟩ => rfl

/-- The pre-normalisation activations are the layer's perceptron. -/
theorem l2_mlp_at (p : Fin 50000) (q : Fin 128) :
    val_main_v69 (F := Ideal) x0 x1 x2 x3 x4 x5 x6 x7 x8 x9 x10 x11 (ix2 p q) = (mlp (val_main_v49 (F := Ideal) x0 x1 x2 x3 x4 x5 x6 x7) (aggOf (val_main_v49 (F := Ideal) x0 x1 x2 x3 x4 x5 x6 x7) x1) x8 x9 x10 x11) p q := by
  rw [val_main_v69_apply, val_main_v66_apply, l2_bias2_at, Ideal.addf_def]
  unfold mlp
  refine congrArg (· + x11 (ix1 q)) ?_
  refine Finset.sum_congr rfl fun c _ => ?_
  have el : lidx_main_v66 (ix2 p q) c = ix2 p c := funext fun a => by
    match a with
    | ⟨0, _⟩ => rfl
    | ⟨1, _⟩ => rfl
  have er : ridx_main_v66 (ix2 p q) c = ix2 c q := funext fun a => by
    match a with
    | ⟨0, _⟩ => rfl
    | ⟨1, _⟩ => rfl
  rw [el, er, l2_hidden_at]

section Norm
variable (z : Tab) (hz : ∀ p q, val_main_v69 (F := Ideal) x0 x1 x2 x3 x4 x5 x6 x7 x8 x9 x10 x11 (ix2 p q) = z p q)
include hz

/-- The column sums. -/
theorem l2_colsum_at (q : Fin 128) : val_main_v70 (F := Ideal) x0 x1 x2 x3 x4 x5 x6 x7 x8 x9 x10 x11 (ix1 q) = ∑ p : Fin 50000, z p q := by
  rw [val_main_v70_apply, val_main_cst_9_apply, Ideal.ofBits_def, Ideal.ofBits_zero_f32, zero_add]
  refine Finset.sum_congr rfl fun k _ => ?_
  have e : idx_main_v70 (ix1 q) k = ix2 k q := funext fun a => by
    match a with
    | ⟨0, _⟩ => rfl
    | ⟨1, _⟩ => rfl
  rw [e, hz]

/-- The column means. -/
theorem l2_mean_at (q : Fin 128) : val_main_v72 (F := Ideal) x0 x1 x2 x3 x4 x5 x6 x7 x8 x9 x10 x11 (ix1 q) = mean z q := by
  rw [val_main_v72_apply, l2_colsum_at x0 x1 x2 x3 x4 x5 x6 x7 x8 x9 x10 x11 z hz, val_main_v71_apply, val_main_cst_10_apply, Ideal.ofBits_def, Ideal.hostDivf_def]
  rfl

/-- The means broadcast over the nodes (first copy). -/
theorem l2_meanA_at (p : Fin 50000) (q : Fin 128) : val_main_v74 (F := Ideal) x0 x1 x2 x3 x4 x5 x6 x7 x8 x9 x10 x11 (ix2 p q) = mean z q := by
  rw [val_main_v74_apply, val_main_v73_apply]
  have e : idx_main_v73 (idx_main_v74 (ix2 p q)) = ix1 q := funext fun a => by
    match a with
    | ⟨0, _⟩ => rfl
  rw [e, l2_mean_at x0 x1 x2 x3 x4 x5 x6 x7 x8 x9 x10 x11 z hz]

/-- The means broadcast over the nodes (second copy). -/
theorem l2_meanB_at (p : Fin 50000) (q : Fin 128) : val_main_v81 (F := Ideal) x0 x1 x2 x3 x4 x5 x6 x7 x8 x9 x10 x11 (ix2 p q) = mean z q := by
  rw [val_main_v81_apply, val_main_v80_apply]
  have e : idx_main_v80 (idx_main_v81 (ix2 p q)) = ix1 q := funext fun a => by
    match a with
    | ⟨0, _⟩ => rfl
  rw [e, l2_mean_at x0 x1 x2 x3 x4 x5 x6 x7 x8 x9 x10 x11 z hz]

/-- The sums of squared deviations. -/
theorem l2_sqsum_at (q : Fin 128) :
    val_main_v77 (F := Ideal) x0 x1 x2 x3 x4 x5 x6 x7 x8 x9 x10 x11 (ix1 q) = ∑ p : Fin 50000, (z p q - mean z q) * (z p q - mean z q) := by
  rw [val_main_v77_apply, val_main_cst_11_apply, Ideal.ofBits_def, Ideal.ofBits_zero_f32, zero_add]
  refine Finset.sum_congr rfl fun k _ => ?_
  have e : idx_main_v77 (ix1 q) k = ix2 k q := funext fun a => by
    match a with
    | ⟨0, _⟩ => rfl
    | ⟨1, _⟩ => rfl
  rw [e, val_main_v76_apply, val_main_v75_apply, hz, l2_meanA_at x0 x1 x2 x3 x4 x5 x6 x7 x8 x9 x10 x11 z hz, Ideal.subf_def, Ideal.mulf_def]

/-- The reciprocal square root of the variance plus ε. -/
theorem l2_rstd_at (q : Fin 128) : val_main_v85 (F := Ideal) x0 x1 x2 x3 x4 x5 x6 x7 x8 x9 x10 x11 (ix1 q) = Ideal.rsqrt (var2 z q + eps) := by
  rw [val_main_v85_apply, val_main_v84_apply, val_main_v79_apply, l2_sqsum_at x0 x1 x2 x3 x4 x5 x6 x7 x8 x9 x10 x11 z hz, val_main_v78_apply, val_main_cst_12_apply,
    val_main_v83_apply, val_main_cst_13_apply, Ideal.ofBits_def, Ideal.ofBits_def, Ideal.hostDivf_def, Ideal.addf_def,
    Ideal.hostUnary_rsqrt_def]
  rfl

/-- The reciprocal square root broadcast over the nodes. -/
theorem l2_rstdB_at (p : Fin 50000) (q : Fin 128) :
    val_main_v87 (F := Ideal) x0 x1 x2 x3 x4 x5 x6 x7 x8 x9 x10 x11 (ix2 p q) = Ideal.rsqrt (var2 z q + eps) := by
  rw [val_main_v87_apply, val_main_v86_apply]
  have e : idx_main_v86 (idx_main_v87 (ix2 p q)) = ix1 q := funext fun a => by
    match a with
    | ⟨0, _⟩ => rfl
  rw [e, l2_rstd_at x0 x1 x2 x3 x4 x5 x6 x7 x8 x9 x10 x11 z hz]

omit hz in
/-- The gain row, broadcast over the nodes. -/
theorem l2_gain_at (p : Fin 50000) (q : Fin 128) : val_main_v90 (F := Ideal) x12 (ix2 p q) = x12 (ix1 q) := by
  rw [val_main_v90_apply, val_main_v89_apply]
  refine congrArg x12 (funext fun a => ?_)
  match a with
  | ⟨0, _⟩ => rfl

omit hz in
/-- The offset row, broadcast over the nodes. -/
theorem l2_offset_at (p : Fin 50000) (q : Fin 128) : val_main_v93 (F := Ideal) x13 (ix2 p q) = x13 (ix1 q) := by
  rw [val_main_v93_apply, val_main_v92_apply]
  refine congrArg x13 (funext fun a => ?_)
  match a with
  | ⟨0, _⟩ => rfl

/-- The layer's output at a node and a feature is the two-pass normalisation of its activations, clamped at zero. -/
theorem l2_out_at (p : Fin 50000) (q : Fin 128) :
    val_main_v95 (F := Ideal) x0 x1 x2 x3 x4 x5 x6 x7 x8 x9 x10 x11 x12 x13 (ix2 p q) = bnTwoPass z x12 x13 p q := by
  rw [val_main_v95_apply, val_main_v94_apply, val_main_v91_apply, val_main_v88_apply, val_main_v82_apply, hz, l2_meanB_at x0 x1 x2 x3 x4 x5 x6 x7 x8 x9 x10 x11 z hz,
    l2_rstdB_at x0 x1 x2 x3 x4 x5 x6 x7 x8 x9 x10 x11 z hz, l2_gain_at, l2_offset_at, val_main_call3_v0_apply, val_main_call3_cst_apply,
    Ideal.ofBits_def, Ideal.ofBits_zero_f32, Ideal.subf_def, Ideal.mulf_def, Ideal.mulf_def, Ideal.addf_def, Ideal.maximumf_def]
  rfl

end Norm

/-- THE SECOND LAYER: the same, on the first layer's output and its aggregate. -/
theorem layer2 :
    val_main_v95 (F := Ideal) x0 x1 x2 x3 x4 x5 x6 x7 x8 x9 x10 x11 x12 x13
      = toArr (bnTwoPass (mlp (val_main_v49 (F := Ideal) x0 x1 x2 x3 x4 x5 x6 x7)
          (aggOf (val_main_v49 (F := Ideal) x0 x1 x2 x3 x4 x5 x6 x7) x1) x8 x9 x10 x11) x12 x13) :=
  eq_toArr fun p q => l2_out_at x0 x1 x2 x3 x4 x5 x6 x7 x8 x9 x10 x11 x12 x13 _
    (l2_mlp_at x0 x1 x2 x3 x4 x5 x6 x7 x8 x9 x10 x11) p q

end Layers

/-! ### The run's result -/

/-- THE REFERENCE'S VALUE: the result buffer of the run holds the second layer of the first layer of the arguments. -/
theorem result (m : (ℓ : Loc nD τ sig) → Buf (Elt Ideal) ℓ) (c : Dev nD) :
    Cert.ReferenceIdeal.Value.res_main_v95 (F := Ideal) m c
      = toArr (bnTwoPass
          (mlp
            (toArr (bnTwoPass
              (mlp (m ((c.tc : Thread nD τ).loc main_arg0))
                (aggOf (m ((c.tc : Thread nD τ).loc main_arg0)) (m ((c.tc : Thread nD τ).loc main_arg1)))
                (m ((c.tc : Thread nD τ).loc main_arg2)) (m ((c.tc : Thread nD τ).loc main_arg3))
                (m ((c.tc : Thread nD τ).loc main_arg4)) (m ((c.tc : Thread nD τ).loc main_arg5)))
              (m ((c.tc : Thread nD τ).loc main_arg6)) (m ((c.tc : Thread nD τ).loc main_arg7))))
            (aggOf
              (toArr (bnTwoPass
                (mlp (m ((c.tc : Thread nD τ).loc main_arg0))
                  (aggOf (m ((c.tc : Thread nD τ).loc main_arg0)) (m ((c.tc : Thread nD τ).loc main_arg1)))
                  (m ((c.tc : Thread nD τ).loc main_arg2)) (m ((c.tc : Thread nD τ).loc main_arg3))
                  (m ((c.tc : Thread nD τ).loc main_arg4)) (m ((c.tc : Thread nD τ).loc main_arg5)))
                (m ((c.tc : Thread nD τ).loc main_arg6)) (m ((c.tc : Thread nD τ).loc main_arg7))))
              (m ((c.tc : Thread nD τ).loc main_arg1)))
            (m ((c.tc : Thread nD τ).loc main_arg8)) (m ((c.tc : Thread nD τ).loc main_arg9))
            (m ((c.tc : Thread nD τ).loc main_arg10)) (m ((c.tc : Thread nD τ).loc main_arg11)))
          (m ((c.tc : Thread nD τ).loc main_arg12)) (m ((c.tc : Thread nD τ).loc main_arg13))) := by
  refine (val_main_v95_eq (F := Ideal) m c).trans ?_
  rw [layer2, layer1]

end Cert.ReferenceIdeal.RefValue

end
-- ==== Proof.Bridge.lean ====
/-
  Two stacked layers: the one-pass and the two-pass normalisation give the same arrays.

  A layer's output, as an array, is real when its inputs are; so the second layer again sees real inputs, provided the
  neighbour aggregation keeps real arrays real. The entrywise equality of the two normalisation forms then applies
  layer by layer: first to the inner layer, which makes the two second-layer inputs the same array, then to the
  outer layer.
-/
import proofs.«180482_j54571854463790_2_alg».proof.Proof.LayerMath

noncomputable section

namespace Cert.Gin

open Idealize.ShloMosaic Idealize.ShloMosaic.ValueIdx LibIdealFinite

/-- The array of a real table is real. -/
theorem toArr_isReal (f : Tab) (hf : ∀ p q, IsReal (f p q)) : ∀ i, IsReal (toArr f i) := fun _ => hf _ _

/-- One layer on real data: the one-pass and two-pass normalisations of its activations are the same array. -/
theorem layer_eq (X A : Arr) (W1 : Mat) (b1 : Row) (W2 : Mat) (b2 g be : Row) (hX : ∀ i, IsReal (X i))
    (hA : ∀ i, IsReal (A i)) (hW1 : ∀ i, IsReal (W1 i)) (hb1 : ∀ i, IsReal (b1 i)) (hW2 : ∀ i, IsReal (W2 i))
    (hb2 : ∀ i, IsReal (b2 i)) (hg : ∀ i, IsReal (g i)) (hbe : ∀ i, IsReal (be i)) :
    toArr (bnOnePass (mlp X A W1 b1 W2 b2) g be) = toArr (bnTwoPass (mlp X A W1 b1 W2 b2) g be) :=
  congrArg toArr (bnOnePass_eq_bnTwoPass _ g be (mlp_isReal X A W1 b1 W2 b2 hX hA hW1 hb1 hW2 hb2) hg hbe)

/-- One layer on real data has a real output array. -/
theorem layer_isReal (X A : Arr) (W1 : Mat) (b1 : Row) (W2 : Mat) (b2 g be : Row) (hX : ∀ i, IsReal (X i))
    (hA : ∀ i, IsReal (A i)) (hW1 : ∀ i, IsReal (W1 i)) (hb1 : ∀ i, IsReal (b1 i)) (hW2 : ∀ i, IsReal (W2 i))
    (hb2 : ∀ i, IsReal (b2 i)) (hg : ∀ i, IsReal (g i)) (hbe : ∀ i, IsReal (be i)) :
    ∀ i, IsReal (toArr (bnTwoPass (mlp X A W1 b1 W2 b2) g be) i) :=
  toArr_isReal _ (bnTwoPass_isReal _ g be (mlp_isReal X A W1 b1 W2 b2 hX hA hW1 hb1 hW2 hb2) hg hbe)

/-- Two stacked layers on real data, with any aggregation that keeps real arrays real: normalising both layers in
    one pass or both in two passes gives the same array. -/
theorem two_layers (agg : Arr → Arr) (hagg : ∀ h, (∀ i, IsReal (h i)) → ∀ i, IsReal (agg h i)) (a0 : Arr) (a2 : Mat)
    (a3 : Row) (a4 : Mat) (a5 a6 a7 : Row) (a8 : Mat) (a9 : Row) (a10 : Mat) (a11 a12 a13 : Row)
    (h0 : ∀ i, IsReal (a0 i)) (h2 : ∀ i, IsReal (a2 i)) (h3 : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i))
    (h9 : ∀ i, IsReal (a9 i)) (h10 : ∀ i, IsReal (a10 i)) (h11 : ∀ i, IsReal (a11 i)) (h12 : ∀ i, IsReal (a12 i))
    (h13 : ∀ i, IsReal (a13 i)) :
    toArr (bnOnePass (mlp (toArr (bnOnePass (mlp a0 (agg a0) a2 a3 a4 a5) a6 a7))
        (agg (toArr (bnOnePass (mlp a0 (agg a0) a2 a3 a4 a5) a6 a7))) a8 a9 a10 a11) a12 a13)
      = toArr (bnTwoPass (mlp (toArr (bnTwoPass (mlp a0 (agg a0) a2 a3 a4 a5) a6 a7))
        (agg (toArr (bnTwoPass (mlp a0 (agg a0) a2 a3 a4 a5) a6 a7))) a8 a9 a10 a11) a12 a13) := by
  have hL := layer_isReal a0 (agg a0) a2 a3 a4 a5 a6 a7 h0 (hagg a0 h0) h2 h3 h4 h5 h6 h7
  rw [layer_eq a0 (agg a0) a2 a3 a4 a5 a6 a7 h0 (hagg a0 h0) h2 h3 h4 h5 h6 h7]
  exact layer_eq _ _ a8 a9 a10 a11 a12 a13 hL (hagg _ hL) h8 h9 h10 h11 h12 h13

end Cert.Gin

end
-- ==== Proof.PreReal.lean ====
/-
  From the finiteness precondition to real inputs. The precondition of the certificate is the bit
  `all (|a0| < +∞) ∧ all (|a2| < +∞) ∧ … ∧ all (|a13| < +∞)` over the thirteen float arguments (the integer edge
  list carries no condition). Evaluated on the extended reals and equal to one, it makes every entry of every float
  argument a real number: a conjunction of bits is one exactly when each bit is one, an `and`-reduction over a whole
  array is one only when every compared entry is one, and `|x| < +∞` excludes both infinities.
-/
import proofs.«180482_j54571854463790_2_alg».proof.Pre_finite_inputs
import proofs.«180482_j54571854463790_2_alg».proof.Proof.Gen.Pre_finite_inputs
import proofs.«180482_j54571854463790_2_alg».proof.Proof.LibFiniteInputs
import proofs.«180482_j54571854463790_2_alg».proof.Proof.LibIdealFinite

noncomputable section

namespace Cert.Gin

open Idealize.ShloMosaic Idealize.ShloMosaic.ValueIdx LibIdealFinite LibFiniteInputs Cert.Pre_finite_inputs

/-- When the finiteness precondition evaluates to one on the extended reals, every entry of every float argument is a
    real number. The precondition is the conjunction, over the thirteen float arguments, of `all (|x| < +∞)`; a
    conjunction of bits is one exactly when every bit is one, and each conjunct makes its argument real entrywise. -/
theorem real_of_pre [Cert.Pre_finite_inputs.Facts]
    (a0 : FVec Ideal ⟨2, ![50000, 128]⟩ .f32) (a1 : IVec ⟨2, ![2, 800000]⟩ 32) (a2 : FVec Ideal ⟨2, ![128, 128]⟩ .f32)
    (a3 : FVec Ideal ⟨1, ![128]⟩ .f32) (a4 : FVec Ideal ⟨2, ![128, 128]⟩ .f32) (a5 : FVec Ideal ⟨1, ![128]⟩ .f32)
    (a6 : FVec Ideal ⟨1, ![128]⟩ .f32) (a7 : FVec Ideal ⟨1, ![128]⟩ .f32) (a8 : FVec Ideal ⟨2, ![128, 128]⟩ .f32)
    (a9 : FVec Ideal ⟨1, ![128]⟩ .f32) (a10 : FVec Ideal ⟨2, ![128, 128]⟩ .f32) (a11 : FVec Ideal ⟨1, ![128]⟩ .f32)
    (a12 : FVec Ideal ⟨1, ![128]⟩ .f32) (a13 : FVec Ideal ⟨1, ![128]⟩ .f32)
    (h : Cert.Pre_finite_inputs.fn (F := Ideal) a0 a1 a2 a3 a4 a5 a6 a7 a8 a9 a10 a11 a12 a13 = (fun _ => 1#1)) :
      (∀ i, IsReal (a0 i)) ∧ (∀ i, IsReal (a2 i)) ∧ (∀ i, IsReal (a3 i)) ∧ (∀ i, IsReal (a4 i)) ∧
      (∀ i, IsReal (a5 i)) ∧ (∀ i, IsReal (a6 i)) ∧ (∀ i, IsReal (a7 i)) ∧ (∀ i, IsReal (a8 i)) ∧
      (∀ i, IsReal (a9 i)) ∧ (∀ i, IsReal (a10 i)) ∧ (∀ i, IsReal (a11 i)) ∧ (∀ i, IsReal (a12 i)) ∧
      (∀ i, IsReal (a13 i)) := by
  have h0 := congrFun h ix0
  dsimp only [Cert.Pre_finite_inputs.fn, Cert.Pre_finite_inputs.fn_part1, Cert.Pre_finite_inputs.fn_part2,
    Cert.Pre_finite_inputs.fn_part3, andi] at h0
  obtain ⟨c12, e13⟩ := IntOp.andi_eq_one.1 h0
  obtain ⟨c11, e12⟩ := IntOp.andi_eq_one.1 c12
  obtain ⟨c10, e11⟩ := IntOp.andi_eq_one.1 c11
  obtain ⟨c9, e10⟩ := IntOp.andi_eq_one.1 c10
  obtain ⟨c8, e9⟩ := IntOp.andi_eq_one.1 c9
  obtain ⟨c7, e8⟩ := IntOp.andi_eq_one.1 c8
  obtain ⟨c6, e7⟩ := IntOp.andi_eq_one.1 c7
  obtain ⟨c5, e6⟩ := IntOp.andi_eq_one.1 c6
  obtain ⟨c4, e5⟩ := IntOp.andi_eq_one.1 c5
  obtain ⟨c3, e4⟩ := IntOp.andi_eq_one.1 c4
  obtain ⟨c2, e3⟩ := IntOp.andi_eq_one.1 c3
  obtain ⟨e0, e2⟩ := IntOp.andi_eq_one.1 c2
  exact ⟨
    all_finite_isReal a0 Facts.bcast_S_S50000x128 Facts.reducesTo_S50000x128_S_d0_1 Facts.h_S_ e0,
    all_finite_isReal a2 Facts.bcast_S_S128x128 Facts.reducesTo_S128x128_S_d0_1 Facts.h_S_ e2,
    all_finite_isReal a3 Facts.bcast_S_S128 Facts.reducesTo_S128_S_d0 Facts.h_S_ e3,
    all_finite_isReal a4 Facts.bcast_S_S128x128 Facts.reducesTo_S128x128_S_d0_1 Facts.h_S_ e4,
    all_finite_isReal a5 Facts.bcast_S_S128 Facts.reducesTo_S128_S_d0 Facts.h_S_ e5,
    all_finite_isReal a6 Facts.bcast_S_S128 Facts.reducesTo_S128_S_d0 Facts.h_S_ e6,
    all_finite_isReal a7 Facts.bcast_S_S128 Facts.reducesTo_S128_S_d0 Facts.h_S_ e7,
    all_finite_isReal a8 Facts.bcast_S_S128x128 Facts.reducesTo_S128x128_S_d0_1 Facts.h_S_ e8,
    all_finite_isReal a9 Facts.bcast_S_S128 Facts.reducesTo_S128_S_d0 Facts.h_S_ e9,
    all_finite_isReal a10 Facts.bcast_S_S128x128 Facts.reducesTo_S128x128_S_d0_1 Facts.h_S_ e10,
    all_finite_isReal a11 Facts.bcast_S_S128 Facts.reducesTo_S128_S_d0 Facts.h_S_ e11,
    all_finite_isReal a12 Facts.bcast_S_S128 Facts.reducesTo_S128_S_d0 Facts.h_S_ e12,
    all_finite_isReal a13 Facts.bcast_S_S128 Facts.reducesTo_S128_S_d0 Facts.h_S_ e13⟩

end Cert.Gin

end
-- ==== Proof.LibScatterReal.lean ====
/-
  Real-valuedness through a gather and through an accumulating scatter, on the extended reals, for any shapes, any
  index arrays and any dimension numbers. A gather only copies entries of its operand, so a gather of a real array is
  real. An accumulating scatter gives, at each index, the operand's entry plus a finite sum of update entries (those
  that land there), so a scatter-add of real updates into a real operand is real. Which rows are gathered and which
  updates land where plays no role. Stated over abstract shapes, so that nothing about an index set is ever computed.
-/
import Idealize.ShloMosaic.PureOps.Ideal
import proofs.«180482_j54571854463790_2_alg».proof.Proof.LibIdealFinite

noncomputable section

namespace LibScatterReal

open Idealize.ShloMosaic LibIdealFinite

/-- A gather only copies entries: every entry of the result is an entry of the operand. -/
theorem gather_isReal {s si so : Shape} {w : Nat} (d : GatherDims s si so) (x : s.Idx → EReal) (idx : IVec si w)
    (hx : ∀ i, IsReal (x i)) (j : so.Idx) : IsReal (Host.gather d x idx j) :=
  hx _

/-- An accumulating scatter on the extended reals gives, at each index, the operand there plus a finite sum of
    update entries; so a real operand and real updates give a real result. -/
theorem scatterAdd_isReal {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Host.scatterAdd (F := Ideal) (φ := .f32) d x idx upd i) := by
  show IsReal (x i + ∑ j ∈ _, upd j)
  exact IsReal.add (hx i) (IsReal.sum _ _ fun j _ => hu j)

end LibScatterReal

end
-- ==== Proof.AggReal.lean ====
/-
  Neighbour aggregation keeps real features real.

  The aggregated array is a scatter-add into a zero array of rows gathered from the feature array. On the extended
  reals a scatter-add is, at each index, the operand's entry plus a finite sum of update entries (those that land
  there), and a gather only copies entries of its operand. So if every feature is a real number then every gathered
  entry is one, every finite sum of them is one, and zero plus such a sum is one. Which updates land where, and which
  rows are gathered, plays no role: the statements below hold for any index arrays and any dimension numbers.
-/
import proofs.«180482_j54571854463790_2_alg».proof.Proof.Agg
import proofs.«180482_j54571854463790_2_alg».proof.Proof.LibIdealFinite
import proofs.«180482_j54571854463790_2_alg».proof.Proof.LibScatterReal

noncomputable section

namespace Cert.Gin

open Cert.ReferenceIdeal Cert.ReferenceIdeal.Gen Cert.ReferenceIdeal.Read Idealize.ShloMosaic Idealize.ShloMosaic.ValueIdx
open LibIdealFinite LibScatterReal

/-- The array the aggregation starts from is zero everywhere. -/
theorem zeros_isReal (i : S50000x128.Idx) : IsReal (val_main_v11 (F := Ideal) i) := by
  rw [val_main_v11_apply, val_main_cst_apply]
  show IsReal (Ideal.ofBits .f32 0x00000000#32)
  rw [Ideal.ofBits_zero_f32]
  exact IsReal.zero

/-- Aggregation keeps real features real. -/
theorem aggOf_isReal (h : (⟨S50000x128, .f32⟩ : BufTy).Contents (Elt Ideal)) (ei : (⟨S2x800000, .i32⟩ : BufTy).Contents (Elt Ideal))
    (hh : ∀ i, IsReal (h i)) : ∀ i, IsReal (aggOf h ei i) := by
  intro i
  unfold aggOf
  exact scatterAdd_isReal scatter_S50000x128_S800000x1_S800000x128_1_0_0_1 (val_main_v11 (F := Ideal)) (val_main_v12 (F := Ideal) ei)
    (Host.gather gather_S50000x128_S800000x1_S800000x128_1_0_n_n_0_1_1128 h (val_main_v9 (F := Ideal) ei)) zeros_isReal
    (gather_isReal gather_S50000x128_S800000x1_S800000x128_1_0_n_n_0_1_1128 h (val_main_v9 (F := Ideal) ei) hh) i

end Cert.Gin

end
-- ==== Proof.lean ====
/-
  The certificate of a two-layer graph network kernel against its reference, on the extended reals.

  Both programs take node features (50000 rows of 128), an edge list, and for each of two layers two 128×128 weight
  matrices with their bias rows, a gain row and an offset row. A layer adds to the features their neighbour
  aggregate, applies a two-layer perceptron, normalises every column over the nodes and clamps at zero. The reference
  normalises in two passes: centre by the column mean, scale by the reciprocal square root of the mean squared
  deviation plus ε. The kernel normalises in one pass: column mean and mean of squares, the variance
  `E[z²] − E[z]²` clamped at zero, gain and mean folded into one scale and one shift per column.

  The three frame claims are the programs' frame runs. The idealized kernel is the kernel's own text read on the
  extended reals, so there is nothing to preserve. For the algebraic claim, the kernel's run ends with its result
  buffer holding the one-pass network of its arguments (`kernel_value`), and the reference's run with the two-pass
  network of its own arguments (`RefValue.result`). The two networks are the same array: the finiteness
  precondition makes every entry of every float argument a real number (`real_of_pre`), aggregation keeps real
  arrays real (`aggOf_isReal`), and on real data the one-pass and two-pass normalisations agree entry by entry, first
  for the inner layer, which makes the outer layers' inputs equal, then for the outer layer (`two_layers`). The common
  result is stated as the two-pass network of the kernel's arguments; the reference's arguments are the kernel's by
  hypothesis.
-/
import proofs.«180482_j54571854463790_2_alg».proof.Defs
import proofs.«180482_j54571854463790_2_alg».proof.Proof.Gen.Kernel
import proofs.«180482_j54571854463790_2_alg».proof.Proof.Gen.Kernel.Skeleton
import proofs.«180482_j54571854463790_2_alg».proof.Proof.Gen.Kernel.Launch
import proofs.«180482_j54571854463790_2_alg».proof.Proof.Gen.Kernel.Points
import proofs.«180482_j54571854463790_2_alg».proof.Proof.Gen.Kernel.Frame
import proofs.«180482_j54571854463790_2_alg».proof.Proof.Gen.KernelIdeal
import proofs.«180482_j54571854463790_2_alg».proof.Proof.Gen.KernelIdeal.Skeleton
import proofs.«180482_j54571854463790_2_alg».proof.Proof.Gen.KernelIdeal.Launch
import proofs.«180482_j54571854463790_2_alg».proof.Proof.Gen.KernelIdeal.Points
import proofs.«180482_j54571854463790_2_alg».proof.Proof.Gen.KernelIdeal.Frame
import proofs.«180482_j54571854463790_2_alg».proof.Proof.Gen.ReferenceIdeal
import proofs.«180482_j54571854463790_2_alg».proof.Proof.Gen.Pre_finite_inputs
import proofs.«180482_j54571854463790_2_alg».proof.Proof.Gen.ReferenceIdeal.Run
import proofs.«180482_j54571854463790_2_alg».proof.Proof.Gen.ReferenceIdeal.Read
import Idealize.ShloMosaic.Adequacy
import Idealize.ShloMosaic.Init
import proofs.«180482_j54571854463790_2_alg».proof.Proof.KernelRun
import proofs.«180482_j54571854463790_2_alg».proof.Proof.KernelValue
import proofs.«180482_j54571854463790_2_alg».proof.Proof.RefValue
import proofs.«180482_j54571854463790_2_alg».proof.Proof.Bridge
import proofs.«180482_j54571854463790_2_alg».proof.Proof.PreReal
import proofs.«180482_j54571854463790_2_alg».proof.Proof.AggReal

noncomputable section

namespace Cert.Proof

open Idealize.ShloMosaic Idealize.ShloMosaic.TcCoe Idealize.SL.Sem Cert.Gin

/-- The network both programs compute, as a function of the fourteen arguments: two layers, each the perceptron of
    its input plus the input's neighbour aggregate, normalised in two passes and clamped at zero. -/
abbrev net (a0 : Arr) (a1 : Cert.ReferenceIdeal.RefValue.TEdge) (a2 : Mat) (a3 : Row) (a4 : Mat) (a5 a6 a7 : Row) (a8 : Mat)
    (a9 : Row) (a10 : Mat) (a11 a12 a13 : Row) : Arr :=
  toArr (bnTwoPass
    (mlp (toArr (bnTwoPass (mlp a0 (aggOf a0 a1) a2 a3 a4 a5) a6 a7))
      (aggOf (toArr (bnTwoPass (mlp a0 (aggOf a0 a1) a2 a3 a4 a5) a6 a7)) a1) a8 a9 a10 a11)
    a12 a13)

theorem frame_Kernel : Cert.frame_Kernel := fun m ρ _ => Cert.Kernel.Gen.frame m ρ

theorem frame_KernelIdeal : Cert.frame_KernelIdeal := fun m ρ _ => Cert.KernelIdeal.Gen.frame m ρ

theorem frame_ReferenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the arguments and satisfy the finiteness precondition, both
    programs end with the network of the kernel's arguments in their result buffers: the kernel computes it with
    one-pass normalisations, which on real data are the two-pass ones; the reference computes it as stated, on
    arguments equal to the kernel's. -/
theorem algebraic : Cert.algebraic_KernelIdeal_ReferenceIdeal := by
  intro m ρ m' ρ' hpre hagree
  refine ⟨fun c => net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · refine (θ_run Cert.KernelIdeal.defs _ _).mono (fun _ h c => ⟨(h c).1.trans ?_, (h c).2⟩)
      (Cert.KernelIdeal.RunValue.run_value (F := Ideal) m ρ)
    obtain ⟨h0, h2, h3, h4, h5, h6, h7, h8, h9, h10, h11, h12, h13⟩ :=
      Cert.Gin.real_of_pre _ _ _ _ _ _ _ _ _ _ _ _ _ _ (hpre c)
    refine (Cert.KernelIdeal.HostValue.kernel_value m ρ c).trans ?_
    exact Cert.Gin.two_layers
      (fun h => aggOf h (m ((c.tc : Thread Cert.KernelIdeal.nD Cert.KernelIdeal.τ).loc Cert.KernelIdeal.main_arg1)))
      (fun h hh => Cert.Gin.aggOf_isReal h _ hh) _ _ _ _ _ _ _ _ _ _ _ _ _ h0 h2 h3 h4 h5 h6 h7 h8 h9 h10 h11 h12 h13
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.RefValue.result, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
